-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v140)) (v1 : (c : Dev Cert.KernelIdeal.nD) → Buf (Elt Ideal) ((c.tc : Thread Cert.KernelIdeal.nD Cert.KernelIdeal.τ).loc Cert.KernelIdeal.main_v84)) (v2 : (c : Dev Cert.KernelIdeal.nD) → Buf (Elt Ideal) ((c.tc : Thread Cert.KernelIdeal.nD Cert.KernelIdeal.τ).loc Cert.KernelIdeal.main_v82)) (v3 : (c : Dev Cert.KernelIdeal.nD) → Buf (Elt Ideal) ((c.tc : Thread Cert.KernelIdeal.nD Cert.KernelIdeal.τ).loc Cert.KernelIdeal.main_v138)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v140) = v0 c
          ∧ r.2.mem ((c.tc : Thread Cert.KernelIdeal.nD Cert.KernelIdeal.τ).loc Cert.KernelIdeal.main_v84) = v1 c
          ∧ r.2.mem ((c.tc : Thread Cert.KernelIdeal.nD Cert.KernelIdeal.τ).loc Cert.KernelIdeal.main_v82) = v2 c
          ∧ r.2.mem ((c.tc : Thread Cert.KernelIdeal.nD Cert.KernelIdeal.τ).loc Cert.KernelIdeal.main_v138) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v146) = v0 c
          ∧ r.2.mem ((c.tc : Thread Cert.ReferenceIdeal.nD Cert.ReferenceIdeal.τ).loc Cert.ReferenceIdeal.main_v89) = v1 c
          ∧ r.2.mem ((c.tc : Thread Cert.ReferenceIdeal.nD Cert.ReferenceIdeal.τ).loc Cert.ReferenceIdeal.main_v85) = v2 c
          ∧ r.2.mem ((c.tc : Thread Cert.ReferenceIdeal.nD Cert.ReferenceIdeal.τ).loc Cert.ReferenceIdeal.main_v142) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x7 : Shape := ⟨2, ![50000, 7]⟩
abbrev S2x1600000 : Shape := ⟨2, ![2, 1600000]⟩
abbrev S7x64 : Shape := ⟨2, ![7, 64]⟩
abbrev S64 : Shape := ⟨1, ![64]⟩
abbrev S64x64 : Shape := ⟨2, ![64, 64]⟩
abbrev S64x7 : Shape := ⟨2, ![64, 7]⟩
abbrev S7 : Shape := ⟨1, ![7]⟩
abbrev S7x7 : Shape := ⟨2, ![7, 7]⟩
abbrev S_ : Shape := ⟨0, ![]⟩

class Facts : Prop where
  bcast_S_S50000x7 : S_.BroadcastsInDim S50000x7 (![] : Fin 0 → Fin S50000x7.rank)
  reducesTo_S50000x7_S_d0_1 : S50000x7.ReducesTo [0, 1] S_
  h_S_ : 0 < S_.numel
  bcast_S_S7x64 : S_.BroadcastsInDim S7x64 (![] : Fin 0 → Fin S7x64.rank)
  reducesTo_S7x64_S_d0_1 : S7x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x7 : S_.BroadcastsInDim S64x7 (![] : Fin 0 → Fin S64x7.rank)
  reducesTo_S64x7_S_d0_1 : S64x7.ReducesTo [0, 1] S_
  bcast_S_S7 : S_.BroadcastsInDim S7 (![] : Fin 0 → Fin S7.rank)
  reducesTo_S7_S_d0 : S7.ReducesTo [0] S_
  bcast_S_S7x7 : S_.BroadcastsInDim S7x7 (![] : Fin 0 → Fin S7x7.rank)
  reducesTo_S7x7_S_d0_1 : S7x7.ReducesTo [0, 1] S_

variable [Facts]

def fn_part5 {F : FTy → Type} [FloatOps F] (main_arg19 : FVec F S7 .f32) (main_v83 : IVec S_ 1) (main_v84 : FVec F S7x7 .f32) (main_cst_32 : FVec F S_ .f32) : IVec S_ 1 :=
  let main_v85 : FVec F S7x7 .f32 := broadcastInDim S7x7 ![] bcast_S_S7x7 main_cst_32
  let main_v86 : IVec S7x7 1 := cmpf .olt main_v84 main_v85
  let main_c_33 : IVec S_ 1 := constantI S_ 1 1#1
  let main_v87 : IVec S_ 1 := (fun x v => Host.reduce IntOp.andi x v reducesTo_S7x7_S_d0_1 h_S_) main_v86 main_c_33
  let main_v88 : IVec S_ 1 := andi main_v83 main_v87
  let main_v89 : FVec F S7 .f32 := Host.absf main_arg19
  let main_cst_34 : FVec F S_ .f32 := constant S_ .f32 0x7F800000#32
  let main_v90 : FVec F S7 .f32 := broadcastInDim S7 ![] bcast_S_S7 main_cst_34
  let main_v91 : IVec S7 1 := cmpf .olt main_v89 main_v90
  let main_c_35 : IVec S_ 1 := constantI S_ 1 1#1
  let main_v92 : IVec S_ 1 := (fun x v => Host.reduce IntOp.andi x v reducesTo_S7_S_d0 h_S_) main_v91 main_c_35
  let main_v93 : IVec S_ 1 := andi main_v88 main_v92
  main_v93

def fn_part4 {F : FTy → Type} [FloatOps F] (main_arg15 : FVec F S64 .f32) (main_arg16 : FVec F S64x7 .f32) (main_arg17 : FVec F S7 .f32) (main_arg18 : FVec F S7x7 .f32) (main_arg19 : FVec F S7 .f32) (main_v63 : IVec S_ 1) (main_v67 : IVec S_ 1) : IVec S_ 1 :=
  let main_v68 : IVec S_ 1 := andi main_v63 main_v67
  let main_v69 : FVec F S64 .f32 := Host.absf main_arg15
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x7 .f32 := Host.absf main_arg16
  let main_cst_28 : FVec F S_ .f32 := constant S_ .f32 0x7F800000#32
  let main_v75 : FVec F S64x7 .f32 := broadcastInDim S64x7 ![] bcast_S_S64x7 main_cst_28
  let main_v76 : IVec S64x7 1 := cmpf .olt main_v74 main_v75
  let main_c_29 : IVec S_ 1 := constantI S_ 1 1#1
  let main_v77 : IVec S_ 1 := (fun x v => Host.reduce IntOp.andi x v reducesTo_S64x7_S_d0_1 h_S_) main_v76 main_c_29
  let main_v78 : IVec S_ 1 := andi main_v73 main_v77
  let main_v79 : FVec F S7 .f32 := Host.absf main_arg17
  let main_cst_30 : FVec F S_ .f32 := constant S_ .f32 0x7F800000#32
  let main_v80 : FVec F S7 .f32 := broadcastInDim S7 ![] bcast_S_S7 main_cst_30
  let main_v81 : IVec S7 1 := cmpf .olt main_v79 main_v80
  let main_c_31 : IVec S_ 1 := constantI S_ 1 1#1
  let main_v82 : IVec S_ 1 := (fun x v => Host.reduce IntOp.andi x v reducesTo_S7_S_d0 h_S_) main_v81 main_c_31
  let main_v83 : IVec S_ 1 := andi main_v78 main_v82
  let main_v84 : FVec F S7x7 .f32 := Host.absf main_arg18
  let main_cst_32 : FVec F S_ .f32 := constant S_ .f32 0x7F800000#32
  fn_part5 (F := F) main_arg19 main_v83 main_v84 main_cst_32

def fn_part3 {F : FTy → Type} [FloatOps F] (main_arg12 : FVec F S64x64 .f32) (main_arg13 : FVec F S64 .f32) (main_arg14 : FVec F S64x64 .f32) (main_arg15 : FVec F S64 .f32) (main_arg16 : FVec F S64x7 .f32) (main_arg17 : FVec F S7 .f32) (main_arg18 : FVec F S7x7 .f32) (main_arg19 : FVec F S7 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x64 .f32 := Host.absf main_arg12
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x64 .f32 := Host.absf main_arg14
  let main_cst_24 : FVec F S_ .f32 := constant S_ .f32 0x7F800000#32
  let main_v65 : FVec F S64x64 .f32 := broadcastInDim S64x64 ![] bcast_S_S64x64 main_cst_24
  let main_v66 : IVec S64x64 1 := cmpf .olt main_v64 main_v65
  let main_c_25 : IVec S_ 1 := constantI S_ 1 1#1
  let main_v67 : IVec S_ 1 := (fun x v => Host.reduce IntOp.andi x v reducesTo_S64x64_S_d0_1 h_S_) main_v66 main_c_25
  fn_part4 (F := F) main_arg15 main_arg16 main_arg17 main_arg18 main_arg19 main_v63 main_v67

def fn_part2 {F : FTy → Type} [FloatOps F] (main_arg8 : FVec F S64x64 .f32) (main_arg9 : FVec F S64 .f32) (main_arg10 : FVec F S64x64 .f32) (main_arg11 : FVec F S64 .f32) (main_arg12 : FVec F S64x64 .f32) (main_arg13 : FVec F S64 .f32) (main_arg14 : FVec F S64x64 .f32) (main_arg15 : FVec F S64 .f32) (main_arg16 : FVec F S64x7 .f32) (main_arg17 : FVec F S7 .f32) (main_arg18 : FVec F S7x7 .f32) (main_arg19 : FVec F S7 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg10
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg12 main_arg13 main_arg14 main_arg15 main_arg16 main_arg17 main_arg18 main_arg19 main_v48 main_v49 main_v50

def fn_part1 {F : FTy → Type} [FloatOps F] (main_arg5 : FVec F S64 .f32) (main_arg6 : FVec F S64x64 .f32) (main_arg7 : FVec F S64 .f32) (main_arg8 : FVec F S64x64 .f32) (main_arg9 : FVec F S64 .f32) (main_arg10 : FVec F S64x64 .f32) (main_arg11 : FVec F S64 .f32) (main_arg12 : FVec F S64x64 .f32) (main_arg13 : FVec F S64 .f32) (main_arg14 : FVec F S64x64 .f32) (main_arg15 : FVec F S64 .f32) (main_arg16 : FVec F S64x7 .f32) (main_arg17 : FVec F S7 .f32) (main_arg18 : FVec F S7x7 .f32) (main_arg19 : FVec F S7 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_v33

def fn {F : FTy → Type} [FloatOps F] (main_arg0 : FVec F S50000x7 .f32) (main_arg1 : IVec S2x1600000 32) (main_arg2 : FVec F S7x64 .f32) (main_arg3 : FVec F S64 .f32) (main_arg4 : FVec F S64x64 .f32) (main_arg5 : FVec F S64 .f32) (main_arg6 : FVec F S64x64 .f32) (main_arg7 : FVec F S64 .f32) (main_arg8 : FVec F S64x64 .f32) (main_arg9 : FVec F S64 .f32) (main_arg10 : FVec F S64x64 .f32) (main_arg11 : FVec F S64 .f32) (main_arg12 : FVec F S64x64 .f32) (main_arg13 : FVec F S64 .f32) (main_arg14 : FVec F S64x64 .f32) (main_arg15 : FVec F S64 .f32) (main_arg16 : FVec F S64x7 .f32) (main_arg17 : FVec F S7 .f32) (main_arg18 : FVec F S7x7 .f32) (main_arg19 : FVec F S7 .f32) : IVec S_ 1 :=
  let main_v0 : FVec F S50000x7 .f32 := Host.absf main_arg0
  let main_cst : FVec F S_ .f32 := constant S_ .f32 0x7F800000#32
  let main_v1 : FVec F S50000x7 .f32 := broadcastInDim S50000x7 ![] bcast_S_S50000x7 main_cst
  let main_v2 : IVec S50000x7 1 := cmpf .olt main_v0 main_v1
  let main_c : IVec S_ 1 := constantI S_ 1 1#1
  let main_v3 : IVec S_ 1 := (fun x v => Host.reduce IntOp.andi x v reducesTo_S50000x7_S_d0_1 h_S_) main_v2 main_c
  let main_v4 : FVec F S7x64 .f32 := Host.absf main_arg2
  let main_cst_0 : FVec F S_ .f32 := constant S_ .f32 0x7F800000#32
  let main_v5 : FVec F S7x64 .f32 := broadcastInDim S7x64 ![] bcast_S_S7x64 main_cst_0
  let main_v6 : IVec S7x64 1 := cmpf .olt main_v4 main_v5
  let main_c_1 : IVec S_ 1 := constantI S_ 1 1#1
  let main_v7 : IVec S_ 1 := (fun x v => Host.reduce IntOp.andi x v reducesTo_S7x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_v13 main_v16
-- ==== Kernel.lean ====
abbrev S50000x7 : Shape := ⟨2, ![50000, 7]⟩
abbrev S2x1600000 : Shape := ⟨2, ![2, 1600000]⟩
abbrev S7x64 : Shape := ⟨2, ![7, 64]⟩
abbrev S64 : Shape := ⟨1, ![64]⟩
abbrev S64x64 : Shape := ⟨2, ![64, 64]⟩
abbrev S64x7 : Shape := ⟨2, ![64, 7]⟩
abbrev S7 : Shape := ⟨1, ![7]⟩
abbrev S7x7 : Shape := ⟨2, ![7, 7]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S1x64 : Shape := ⟨2, ![1, 64]⟩
abbrev S50000x64 : Shape := ⟨2, ![50000, 64]⟩
abbrev S10000x7 : Shape := ⟨2, ![10000, 7]⟩
abbrev S10000x64 : Shape := ⟨2, ![10000, 64]⟩
abbrev S1650000x64 : Shape := ⟨2, ![1650000, 64]⟩
abbrev S1x7 : Shape := ⟨2, ![1, 7]⟩
abbrev S1650000x7 : Shape := ⟨2, ![1650000, 7]⟩

abbrev nBuf : Space → Nat
  | .hbm => 191
  | .vmem => 84
  | .smem => 0
  | _ => 0

abbrev hbmTy0_0 (i : Nat) : BufTy := match i % 128 with
  | 0 => ⟨S50000x7, .f32⟩
  | 1 => ⟨S2x1600000, .i32⟩
  | 2 => ⟨S7x64, .f32⟩
  | 3 => ⟨S64, .f32⟩
  | 4 => ⟨S64x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S64x64, .f32⟩
  | 11 => ⟨S64, .f32⟩
  | 12 => ⟨S64x64, .f32⟩
  | 13 => ⟨S64, .f32⟩
  | 14 => ⟨S64x64, .f32⟩
  | 15 => ⟨S64, .f32⟩
  | 16 => ⟨S64x7, .f32⟩
  | 17 => ⟨S7, .f32⟩
  | 18 => ⟨S7x7, .f32⟩
  | 19 => ⟨S7, .f32⟩
  | 20 => ⟨S50000, .i32⟩
  | 21 => ⟨S1x1600000, .i32⟩
  | 22 => ⟨S1600000, .i32⟩
  | 23 => ⟨S1650000, .i32⟩
  | 24 => ⟨S1x1600000, .i32⟩
  | 25 => ⟨S1600000, .i32⟩
  | 26 => ⟨S1650000, .i32⟩
  | 27 => ⟨S_, .f32⟩
  | 28 => ⟨S1650000, .f32⟩
  | 29 => ⟨S_, .f32⟩
  | 30 => ⟨S50000, .f32⟩
  | 31 => ⟨S1650000x1, .i32⟩
  | 32 => ⟨S50000, .f32⟩
  | 33 => ⟨S50000, .f32⟩
  | 34 => ⟨S_, .i32⟩
  | 35 => ⟨S1650000, .i32⟩
  | 36 => ⟨S1650000, .i1⟩
  | 37 => ⟨S_, .i32⟩
  | 38 => ⟨S1650000, .i32⟩
  | 39 => ⟨S1650000, .i32⟩
  | 40 => ⟨S1650000, .i32⟩
  | 41 => ⟨S1650000x1, .i32⟩
  | 42 => ⟨S1650000, .f32⟩
  | 43 => ⟨S_, .i32⟩
  | 44 => ⟨S1650000, .i32⟩
  | 45 => ⟨S1650000, .i1⟩
  | 46 => ⟨S_, .i32⟩
  | 47 => ⟨S1650000, .i32⟩
  | 48 => ⟨S1650000, .i32⟩
  | 49 => ⟨S1650000, .i32⟩
  | 50 => ⟨S1650000x1, .i32⟩
  | 51 => ⟨S1650000, .f32⟩
  | 52 => ⟨S1650000, .f32⟩
  | 53 => ⟨S1x64, .f32⟩
  | 54 => ⟨S50000x64, .f32⟩
  | 55 => ⟨S_, .f32⟩
  | 56 => ⟨S64, .f32⟩
  | 57 => ⟨S1x64, .f32⟩
  | 58 => ⟨S50000x64, .f32⟩
  | 59 => ⟨S_, .i32⟩
  | 60 => ⟨S1650000, .i32⟩
  | 61 => ⟨S1650000, .i1⟩
  | 62 => ⟨S_, .i32⟩
  | 63 => ⟨S1650000, .i32⟩
  | 64 => ⟨S1650000, .i32⟩
  | 65 => ⟨S1650000, .i32⟩
  | 66 => ⟨S1650000x1, .i32⟩
  | 67 => ⟨S1650000x64, .f32⟩
  | 68 => ⟨S1650000x1, .f32⟩
  | 69 => ⟨S1650000x64, .f32⟩
  | 70 => ⟨S1650000x64, .f32⟩
  | 71 => ⟨S_, .f32⟩
  | 72 => ⟨S50000x64, .f32⟩
  | 73 => ⟨S1650000x1, .i32⟩
  | 74 => ⟨S50000x64, .f32⟩
  | 75 => ⟨S1x64, .f32⟩
  | 76 => ⟨S50000x64, .f32⟩
  | 77 => ⟨S_, .f32⟩
  | 78 => ⟨S64, .f32⟩
  | 79 => ⟨S1x64, .f32⟩
  | 80 => ⟨S50000x64, .f32⟩
  | 81 => ⟨S_, .i32⟩
  | 82 => ⟨S1650000, .i32⟩
  | 83 => ⟨S1650000, .i1⟩
  | 84 => ⟨S_, .i32⟩
  | 85 => ⟨S1650000, .i32⟩
  | 86 => ⟨S1650000, .i32⟩
  | 87 => ⟨S1650000, .i32⟩
  | 88 => ⟨S1650000x1, .i32⟩
  | 89 => ⟨S1650000x64, .f32⟩
  | 90 => ⟨S1650000x1, .f32⟩
  | 91 => ⟨S1650000x64, .f32⟩
  | 92 => ⟨S1650000x64, .f32⟩
  | 93 => ⟨S_, .f32⟩
  | 94 => ⟨S50000x64, .f32⟩
  | 95 => ⟨S1650000x1, .i32⟩
  | 96 => ⟨S50000x64, .f32⟩
  | 97 => ⟨S1x64, .f32⟩
  | 98 => ⟨S50000x64, .f32⟩
  | 99 => ⟨S_, .f32⟩
  | 100 => ⟨S64, .f32⟩
  | 101 => ⟨S1x64, .f32⟩
  | 102 => ⟨S50000x64, .f32⟩
  | 103 => ⟨S_, .i32⟩
  | 104 => ⟨S1650000, .i32⟩
  | 105 => ⟨S1650000, .i1⟩
  | 106 => ⟨S_, .i32⟩
  | 107 => ⟨S1650000, .i32⟩
  | 108 => ⟨S1650000, .i32⟩
  | 109 => ⟨S1650000, .i32⟩
  | 110 => ⟨S1650000x1, .i32⟩
  | 111 => ⟨S1650000x64, .f32⟩
  | 112 => ⟨S1650000x1, .f32⟩
  | 113 => ⟨S1650000x64, .f32⟩
  | 114 => ⟨S1650000x64, .f32⟩
  | 115 => ⟨S_, .f32⟩
  | 116 => ⟨S50000x64, .f32⟩
  | 117 => ⟨S1650000x1, .i32⟩
  | 118 => ⟨S50000x64, .f32⟩
  | 119 => ⟨S1x64, .f32⟩
  | 120 => ⟨S50000x64, .f32⟩
  | 121 => ⟨S1x64, .f32⟩
  | 122 => ⟨S50000x64, .f32⟩
  | 123 => ⟨S_, .f32⟩
  | 124 => ⟨S64, .f32⟩
  | 125 => ⟨S1x64, .f32⟩
  | 126 => ⟨S50000x64, .f32⟩
  | 127 => ⟨S_, .i32⟩
  | _ => ⟨S50000x7, .f32⟩

abbrev hbmTy0_1 (i : Nat) : BufTy := match i % 128 with
  | 0 => ⟨S1650000, .i32⟩
  | 1 => ⟨S1650000, .i1⟩
  | 2 => ⟨S_, .i32⟩
  | 3 => ⟨S1650000, .i32⟩
  | 4 => ⟨S1650000, .i32⟩
  | 5 => ⟨S1650000, .i32⟩
  | 6 => ⟨S1650000x1, .i32⟩
  | 7 => ⟨S1650000x64, .f32⟩
  | 8 => ⟨S1650000x1, .f32⟩
  | 9 => ⟨S1650000x64, .f32⟩
  | 10 => ⟨S1650000x64, .f32⟩
  | 11 => ⟨S_, .f32⟩
  | 12 => ⟨S50000x64, .f32⟩
  | 13 => ⟨S1650000x1, .i32⟩
  | 14 => ⟨S50000x64, .f32⟩
  | 15 => ⟨S1x64, .f32⟩
  | 16 => ⟨S50000x64, .f32⟩
  | 17 => ⟨S_, .f32⟩
  | 18 => ⟨S64, .f32⟩
  | 19 => ⟨S1x64, .f32⟩
  | 20 => ⟨S50000x64, .f32⟩
  | 21 => ⟨S_, .i32⟩
  | 22 => ⟨S1650000, .i32⟩
  | 23 => ⟨S1650000, .i1⟩
  | 24 => ⟨S_, .i32⟩
  | 25 => ⟨S1650000, .i32⟩
  | 26 => ⟨S1650000, .i32⟩
  | 27 => ⟨S1650000, .i32⟩
  | 28 => ⟨S1650000x1, .i32⟩
  | 29 => ⟨S1650000x64, .f32⟩
  | 30 => ⟨S1650000x1, .f32⟩
  | 31 => ⟨S1650000x64, .f32⟩
  | 32 => ⟨S1650000x64, .f32⟩
  | 33 => ⟨S_, .f32⟩
  | 34 => ⟨S50000x64, .f32⟩
  | 35 => ⟨S1650000x1, .i32⟩
  | 36 => ⟨S50000x64, .f32⟩
  | 37 => ⟨S1x64, .f32⟩
  | 38 => ⟨S50000x64, .f32⟩
  | 39 => ⟨S_, .f32⟩
  | 40 => ⟨S7, .f32⟩
  | 41 => ⟨S1x7, .f32⟩
  | 42 => ⟨S50000x7, .f32⟩
  | 43 => ⟨S_, .i32⟩
  | 44 => ⟨S1650000, .i32⟩
  | 45 => ⟨S1650000, .i1⟩
  | 46 => ⟨S_, .i32⟩
  | 47 => ⟨S1650000, .i32⟩
  | 48 => ⟨S1650000, .i32⟩
  | 49 => ⟨S1650000, .i32⟩
  | 50 => ⟨S1650000x1, .i32⟩
  | 51 => ⟨S1650000x7, .f32⟩
  | 52 => ⟨S1650000x1, .f32⟩
  | 53 => ⟨S1650000x7, .f32⟩
  | 54 => ⟨S1650000x7, .f32⟩
  | 55 => ⟨S_, .f32⟩
  | 56 => ⟨S50000x7, .f32⟩
  | 57 => ⟨S1650000x1, .i32⟩
  | 58 => ⟨S50000x7, .f32⟩
  | 59 => ⟨S1x7, .f32⟩
  | 60 => ⟨S50000x7, .f32⟩
  | 61 => ⟨S1x7, .f32⟩
  | 62 => ⟨S50000x7, .f32⟩
  | _ => ⟨S50000x7, .f32⟩

abbrev hbmTy (i : Nat) : BufTy := match i / 128 with
  | 0 => hbmTy0_0 i
  | 1 => hbmTy0_1 i
  | _ => ⟨S50000x7, .f32⟩

abbrev bufTy : (tb : Table) → Fin (tcTables nBuf tb) → BufTy
  | .hbm, ⟨i, _⟩ => hbmTy i
  | .local _ .vmem, ⟨0, _⟩ => ⟨S10000x7, .f32⟩
  | .local _ .vmem, ⟨1, _⟩ => ⟨S10000x7, .f32⟩
  | .local _ .vmem, ⟨2, _⟩ => ⟨S7x64, .f32⟩
  | .local _ .vmem, ⟨3, _⟩ => ⟨S1x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S64x64, .f32⟩
  | .local _ .vmem, ⟨9, _⟩ => ⟨S1x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S1x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S64x64, .f32⟩
  | .local _ .vmem, ⟨20, _⟩ => ⟨S1x64, .f32⟩
  | .local _ .vmem, ⟨21, _⟩ => ⟨S10000x64, .f32⟩
  | .local _ .vmem, ⟨22, _⟩ => ⟨S10000x64, .f32⟩
  | .local _ .vmem, ⟨23, _⟩ => ⟨S10000x64, .f32⟩
  | .local _ .vmem, ⟨24, _⟩ => ⟨S10000x64, .f32⟩
  | .local _ .vmem, ⟨25, _⟩ => ⟨S1x64, .f32⟩
  | .local _ .vmem, ⟨26, _⟩ => ⟨S10000x64, .f32⟩
  | .local _ .vmem, ⟨27, _⟩ => ⟨S10000x64, .f32⟩
  | .local _ .vmem, ⟨28, _⟩ => ⟨S10000x64, .f32⟩
  | .local _ .vmem, ⟨29, _⟩ => ⟨S10000x64, .f32⟩
  | .local _ .vmem, ⟨30, _⟩ => ⟨S64x64, .f32⟩
  | .local _ .vmem, ⟨31, _⟩ => ⟨S1x64, .f32⟩
  | .local _ .vmem, ⟨32, _⟩ => ⟨S10000x64, .f32⟩
  | .local _ .vmem, ⟨33, _⟩ => ⟨S10000x64, .f32⟩
  | .local _ .vmem, ⟨34, _⟩ => ⟨S10000x64, .f32⟩
  | .local _ .vmem, ⟨35, _⟩ => ⟨S10000x64, .f32⟩
  | .local _ .vmem, ⟨36, _⟩ => ⟨S1x64, .f32⟩
  | .local _ .vmem, ⟨37, _⟩ => ⟨S10000x64, .f32⟩
  | .local _ .vmem, ⟨38, _⟩ => ⟨S10000x64, .f32⟩
  | .local _ .vmem, ⟨39, _⟩ => ⟨S10000x64, .f32⟩
  | .local _ .vmem, ⟨40, _⟩ => ⟨S10000x64, .f32⟩
  | .local _ .vmem, ⟨41, _⟩ => ⟨S64x64, .f32⟩
  | .local _ .vmem, ⟨42, _⟩ => ⟨S1x64, .f32⟩
  | .local _ .vmem, ⟨43, _⟩ => ⟨S10000x64, .f32⟩
  | .local _ .vmem, ⟨44, _⟩ => ⟨S10000x64, .f32⟩
  | .local _ .vmem, ⟨45, _⟩ => ⟨S10000x64, .f32⟩
  | .local _ .vmem, ⟨46, _⟩ => ⟨S10000x64, .f32⟩
  | .local _ .vmem, ⟨47, _⟩ => ⟨S64x64, .f32⟩
  | .local _ .vmem, ⟨48, _⟩ => ⟨S1x64, .f32⟩
  | .local _ .vmem, ⟨49, _⟩ => ⟨S10000x64, .f32⟩
  | .local _ .vmem, ⟨50, _⟩ => ⟨S10000x64, .f32⟩
  | .local _ .vmem, ⟨51, _⟩ => ⟨S10000x64, .f32⟩
  | .local _ .vmem, ⟨52, _⟩ => ⟨S10000x64, .f32⟩
  | .local _ .vmem, ⟨53, _⟩ => ⟨S1x64, .f32⟩
  | .local _ .vmem, ⟨54, _⟩ => ⟨S10000x64, .f32⟩
  | .local _ .vmem, ⟨55, _⟩ => ⟨S10000x64, .f32⟩
  | .local _ .vmem, ⟨56, _⟩ => ⟨S10000x64, .f32⟩
  | .local _ .vmem, ⟨57, _⟩ => ⟨S10000x64, .f32⟩
  | .local _ .vmem, ⟨58, _⟩ => ⟨S64x64, .f32⟩
  | .local _ .vmem, ⟨59, _⟩ => ⟨S1x64, .f32⟩
  | .local _ .vmem, ⟨60, _⟩ => ⟨S10000x64, .f32⟩
  | .local _ .vmem, ⟨61, _⟩ => ⟨S10000x64, .f32⟩
  | .local _ .vmem, ⟨62, _⟩ => ⟨S10000x64, .f32⟩
  | .local _ .vmem, ⟨63, _⟩ => ⟨S10000x64, .f32⟩
  | .local _ .vmem, ⟨64, _⟩ => ⟨S1x64, .f32⟩
  | .local _ .vmem, ⟨65, _⟩ => ⟨S10000x64, .f32⟩
  | .local _ .vmem, ⟨66, _⟩ => ⟨S10000x64, .f32⟩
  | .local _ .vmem, ⟨67, _⟩ => ⟨S10000x64, .f32⟩
  | .local _ .vmem, ⟨68, _⟩ => ⟨S10000x64, .f32⟩
  | .local _ .vmem, ⟨69, _⟩ => ⟨S64x7, .f32⟩
  | .local _ .vmem, ⟨70, _⟩ => ⟨S1x7, .f32⟩
  | .local _ .vmem, ⟨71, _⟩ => ⟨S10000x7, .f32⟩
  | .local _ .vmem, ⟨72, _⟩ => ⟨S10000x7, .f32⟩
  | .local _ .vmem, ⟨73, _⟩ => ⟨S10000x7, .f32⟩
  | .local _ .vmem, ⟨74, _⟩ => ⟨S10000x7, .f32⟩
  | .local _ .vmem, ⟨75, _⟩ => ⟨S1x7, .f32⟩
  | .local _ .vmem, ⟨76, _⟩ => ⟨S10000x7, .f32⟩
  | .local _ .vmem, ⟨77, _⟩ => ⟨S10000x7, .f32⟩
  | .local _ .vmem, ⟨78, _⟩ => ⟨S10000x7, .f32⟩
  | .local _ .vmem, ⟨79, _⟩ => ⟨S10000x7, .f32⟩
  | .local _ .vmem, ⟨80, _⟩ => ⟨S7x7, .f32⟩
  | .local _ .vmem, ⟨81, _⟩ => ⟨S1x7, .f32⟩
  | .local _ .vmem, ⟨82, _⟩ => ⟨S10000x7, .f32⟩
  | .local _ .vmem, ⟨83, _⟩ => ⟨S10000x7, .f32⟩
  | _, _ => ⟨S50000x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | _, _ => false

abbrev semScoped : Fin 0 → Bool
  | ⟨_, h⟩ => absurd h (Nat.not_lt_zero _)

abbrev dmaSemScoped : Fin 84 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | _ => false

abbrev sig : RefSig :=
  ofTc nBuf bufTy 0 84 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst : Ref sig .tc := ⟨.hbm, 27, rfl⟩
abbrev main_v7 : Ref sig .tc := ⟨.hbm, 28, rfl⟩
abbrev main_cst_0 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_c : Ref sig .tc := ⟨.hbm, 34, rfl⟩
abbrev main_v12 : Ref sig .tc := ⟨.hbm, 35, rfl⟩
abbrev main_v13 : Ref sig .tc := ⟨.hbm, 36, rfl⟩
abbrev main_c_1 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_c_2 : Ref sig .tc := ⟨.hbm, 43, rfl⟩
abbrev main_v19 : Ref sig .tc := ⟨.hbm, 44, rfl⟩
abbrev main_v20 : Ref sig .tc := ⟨.hbm, 45, rfl⟩
abbrev main_c_3 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_cst_4 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_c_5 : Ref sig .tc := ⟨.hbm, 59, rfl⟩
abbrev main_v32 : Ref sig .tc := ⟨.hbm, 60, rfl⟩
abbrev main_v33 : Ref sig .tc := ⟨.hbm, 61, rfl⟩
abbrev main_c_6 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_7 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst_8 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_c_9 : Ref sig .tc := ⟨.hbm, 81, rfl⟩
abbrev main_v50 : Ref sig .tc := ⟨.hbm, 82, rfl⟩
abbrev main_v51 : Ref sig .tc := ⟨.hbm, 83, rfl⟩
abbrev main_c_10 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_cst_11 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_cst_12 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_c_13 : Ref sig .tc := ⟨.hbm, 103, rfl⟩
abbrev main_v68 : Ref sig .tc := ⟨.hbm, 104, rfl⟩
abbrev main_v69 : Ref sig .tc := ⟨.hbm, 105, rfl⟩
abbrev main_c_14 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_cst_15 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_cst_16 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_c_17 : Ref sig .tc := ⟨.hbm, 127, rfl⟩
abbrev main_v88 : Ref sig .tc := ⟨.hbm, 128, rfl⟩
abbrev main_v89 : Ref sig .tc := ⟨.hbm, 129, rfl⟩
abbrev main_c_18 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_cst_19 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_cst_20 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_c_21 : Ref sig .tc := ⟨.hbm, 149, rfl⟩
abbrev main_v106 : Ref sig .tc := ⟨.hbm, 150, rfl⟩
abbrev main_v107 : Ref sig .tc := ⟨.hbm, 151, rfl⟩
abbrev main_c_22 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_cst_23 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_cst_24 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_c_25 : Ref sig .tc := ⟨.hbm, 171, rfl⟩
abbrev main_v124 : Ref sig .tc := ⟨.hbm, 172, rfl⟩
abbrev main_v125 : Ref sig .tc := ⟨.hbm, 173, rfl⟩
abbrev main_c_26 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_cst_27 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg3_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg2_1 : Ref sig .tc := ⟨.vmem, 27, rfl⟩
abbrev cc5_stg0_0 : Ref sig .tc := ⟨.vmem, 28, rfl⟩
abbrev cc5_stg0_1 : Ref sig .tc := ⟨.vmem, 29, rfl⟩
abbrev cc5_stg1_0 : Ref sig .tc := ⟨.vmem, 30, rfl⟩
abbrev cc5_stg2_0 : Ref sig .tc := ⟨.vmem, 31, rfl⟩
abbrev cc5_stg3_0 : Ref sig .tc := ⟨.vmem, 32, rfl⟩
abbrev cc5_stg3_1 : Ref sig .tc := ⟨.vmem, 33, rfl⟩
abbrev cc6_stg0_0 : Ref sig .tc := ⟨.vmem, 34, rfl⟩
abbrev cc6_stg0_1 : Ref sig .tc := ⟨.vmem, 35, rfl⟩
abbrev cc6_stg1_0 : Ref sig .tc := ⟨.vmem, 36, rfl⟩
abbrev cc6_stg2_0 : Ref sig .tc := ⟨.vmem, 37, rfl⟩
abbrev cc6_stg2_1 : Ref sig .tc := ⟨.vmem, 38, rfl⟩
abbrev cc7_stg0_0 : Ref sig .tc := ⟨.vmem, 39, rfl⟩
abbrev cc7_stg0_1 : Ref sig .tc := ⟨.vmem, 40, rfl⟩
abbrev cc7_stg1_0 : Ref sig .tc := ⟨.vmem, 41, rfl⟩
abbrev cc7_stg2_0 : Ref sig .tc := ⟨.vmem, 42, rfl⟩
abbrev cc7_stg3_0 : Ref sig .tc := ⟨.vmem, 43, rfl⟩
abbrev cc7_stg3_1 : Ref sig .tc := ⟨.vmem, 44, rfl⟩
abbrev cc8_stg0_0 : Ref sig .tc := ⟨.vmem, 45, rfl⟩
abbrev cc8_stg0_1 : Ref sig .tc := ⟨.vmem, 46, rfl⟩
abbrev cc8_stg1_0 : Ref sig .tc := ⟨.vmem, 47, rfl⟩
abbrev cc8_stg2_0 : Ref sig .tc := ⟨.vmem, 48, rfl⟩
abbrev cc8_stg3_0 : Ref sig .tc := ⟨.vmem, 49, rfl⟩
abbrev cc8_stg3_1 : Ref sig .tc := ⟨.vmem, 50, rfl⟩
abbrev cc9_stg0_0 : Ref sig .tc := ⟨.vmem, 51, rfl⟩
abbrev cc9_stg0_1 : Ref sig .tc := ⟨.vmem, 52, rfl⟩
abbrev cc9_stg1_0 : Ref sig .tc := ⟨.vmem, 53, rfl⟩
abbrev cc9_stg2_0 : Ref sig .tc := ⟨.vmem, 54, rfl⟩
abbrev cc9_stg2_1 : Ref sig .tc := ⟨.vmem, 55, rfl⟩
abbrev cc10_stg0_0 : Ref sig .tc := ⟨.vmem, 56, rfl⟩
abbrev cc10_stg0_1 : Ref sig .tc := ⟨.vmem, 57, rfl⟩
abbrev cc10_stg1_0 : Ref sig .tc := ⟨.vmem, 58, rfl⟩
abbrev cc10_stg2_0 : Ref sig .tc := ⟨.vmem, 59, rfl⟩
abbrev cc10_stg3_0 : Ref sig .tc := ⟨.vmem, 60, rfl⟩
abbrev cc10_stg3_1 : Ref sig .tc := ⟨.vmem, 61, rfl⟩
abbrev cc11_stg0_0 : Ref sig .tc := ⟨.vmem, 62, rfl⟩
abbrev cc11_stg0_1 : Ref sig .tc := ⟨.vmem, 63, rfl⟩
abbrev cc11_stg1_0 : Ref sig .tc := ⟨.vmem, 64, rfl⟩
abbrev cc11_stg2_0 : Ref sig .tc := ⟨.vmem, 65, rfl⟩
abbrev cc11_stg2_1 : Ref sig .tc := ⟨.vmem, 66, rfl⟩
abbrev cc12_stg0_0 : Ref sig .tc := ⟨.vmem, 67, rfl⟩
abbrev cc12_stg0_1 : Ref sig .tc := ⟨.vmem, 68, rfl⟩
abbrev cc12_stg1_0 : Ref sig .tc := ⟨.vmem, 69, rfl⟩
abbrev cc12_stg2_0 : Ref sig .tc := ⟨.vmem, 70, rfl⟩
abbrev cc12_stg3_0 : Ref sig .tc := ⟨.vmem, 71, rfl⟩
abbrev cc12_stg3_1 : Ref sig .tc := ⟨.vmem, 72, rfl⟩
abbrev cc13_stg0_0 : Ref sig .tc := ⟨.vmem, 73, rfl⟩
abbrev cc13_stg0_1 : Ref sig .tc := ⟨.vmem, 74, rfl⟩
abbrev cc13_stg1_0 : Ref sig .tc := ⟨.vmem, 75, rfl⟩
abbrev cc13_stg2_0 : Ref sig .tc := ⟨.vmem, 76, rfl⟩
abbrev cc13_stg2_1 : Ref sig .tc := ⟨.vmem, 77, rfl⟩
abbrev cc14_stg0_0 : Ref sig .tc := ⟨.vmem, 78, rfl⟩
abbrev cc14_stg0_1 : Ref sig .tc := ⟨.vmem, 79, rfl⟩
abbrev cc14_stg1_0 : Ref sig .tc := ⟨.vmem, 80, rfl⟩
abbrev cc14_stg2_0 : Ref sig .tc := ⟨.vmem, 81, rfl⟩
abbrev cc14_stg3_0 : Ref sig .tc := ⟨.vmem, 82, rfl⟩
abbrev cc14_stg3_1 : Ref sig .tc := ⟨.vmem, 83, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem3_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem2_1 : DmaSem sig := 27
abbrev cc5_sem0_0 : DmaSem sig := 28
abbrev cc5_sem0_1 : DmaSem sig := 29
abbrev cc5_sem1_0 : DmaSem sig := 30
abbrev cc5_sem2_0 : DmaSem sig := 31
abbrev cc5_sem3_0 : DmaSem sig := 32
abbrev cc5_sem3_1 : DmaSem sig := 33
abbrev cc6_sem0_0 : DmaSem sig := 34
abbrev cc6_sem0_1 : DmaSem sig := 35
abbrev cc6_sem1_0 : DmaSem sig := 36
abbrev cc6_sem2_0 : DmaSem sig := 37
abbrev cc6_sem2_1 : DmaSem sig := 38
abbrev cc7_sem0_0 : DmaSem sig := 39
abbrev cc7_sem0_1 : DmaSem sig := 40
abbrev cc7_sem1_0 : DmaSem sig := 41
abbrev cc7_sem2_0 : DmaSem sig := 42
abbrev cc7_sem3_0 : DmaSem sig := 43
abbrev cc7_sem3_1 : DmaSem sig := 44
abbrev cc8_sem0_0 : DmaSem sig := 45
abbrev cc8_sem0_1 : DmaSem sig := 46
abbrev cc8_sem1_0 : DmaSem sig := 47
abbrev cc8_sem2_0 : DmaSem sig := 48
abbrev cc8_sem3_0 : DmaSem sig := 49
abbrev cc8_sem3_1 : DmaSem sig := 50
abbrev cc9_sem0_0 : DmaSem sig := 51
abbrev cc9_sem0_1 : DmaSem sig := 52
abbrev cc9_sem1_0 : DmaSem sig := 53
abbrev cc9_sem2_0 : DmaSem sig := 54
abbrev cc9_sem2_1 : DmaSem sig := 55
abbrev cc10_sem0_0 : DmaSem sig := 56
abbrev cc10_sem0_1 : DmaSem sig := 57
abbrev cc10_sem1_0 : DmaSem sig := 58
abbrev cc10_sem2_0 : DmaSem sig := 59
abbrev cc10_sem3_0 : DmaSem sig := 60
abbrev cc10_sem3_1 : DmaSem sig := 61
abbrev cc11_sem0_0 : DmaSem sig := 62
abbrev cc11_sem0_1 : DmaSem sig := 63
abbrev cc11_sem1_0 : DmaSem sig := 64
abbrev cc11_sem2_0 : DmaSem sig := 65
abbrev cc11_sem2_1 : DmaSem sig := 66
abbrev cc12_sem0_0 : DmaSem sig := 67
abbrev cc12_sem0_1 : DmaSem sig := 68
abbrev cc12_sem1_0 : DmaSem sig := 69
abbrev cc12_sem2_0 : DmaSem sig := 70
abbrev cc12_sem3_0 : DmaSem sig := 71
abbrev cc12_sem3_1 : DmaSem sig := 72
abbrev cc13_sem0_0 : DmaSem sig := 73
abbrev cc13_sem0_1 : DmaSem sig := 74
abbrev cc13_sem1_0 : DmaSem sig := 75
abbrev cc13_sem2_0 : DmaSem sig := 76
abbrev cc13_sem2_1 : DmaSem sig := 77
abbrev cc14_sem0_0 : DmaSem sig := 78
abbrev cc14_sem0_1 : DmaSem sig := 79
abbrev cc14_sem1_0 : DmaSem sig := 80
abbrev cc14_sem2_0 : DmaSem sig := 81
abbrev cc14_sem3_0 : DmaSem sig := 82
abbrev cc14_sem3_1 : DmaSem sig := 83

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x7 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S7x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S10000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![5], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S10000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![5], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S64x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S10000x64 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![5], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S64x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S10000x64 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev grid9 : Pipeline.Grid := ⟨1, ![5], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S10000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x64 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S10000x64 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨1, ![5], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S10000x64 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S64x64 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x64 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 2 → Memref sig .tc .vmem S10000x64 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

abbrev grid11 : Pipeline.Grid := ⟨1, ![5], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S10000x64 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x64 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 2 → Memref sig .tc .vmem S10000x64 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev grid12 : Pipeline.Grid := ⟨1, ![5], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S10000x64 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S64x7 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S1x7 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 2 → Memref sig .tc .vmem S10000x7 .f32 := fun | 0 => Memref.whole cc12_stg3_0 | 1 => Memref.whole cc12_stg3_1 | ⟨_ + 2, h⟩ => absurd h (Nat.not_lt.2 (Nat.le_add_left _ _))
abbrev sem12_3 : Fin 2 → DmaSem sig := fun | 0 => cc12_sem3_0 | 1 => cc12_sem3_1 | ⟨_ + 2, h⟩ => absurd h (Nat.not_lt.2 (Nat.le_add_left _ _))
abbrev reads12_3 : Fin grid12.rank → Bool := ![true]

abbrev grid13 : Pipeline.Grid := ⟨1, ![5], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S10000x7 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S1x7 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 2 → Memref sig .tc .vmem S10000x7 .f32 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true]

abbrev grid14 : Pipeline.Grid := ⟨1, ![5], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S10000x7 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 1 → Memref sig .tc .vmem S7x7 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 1 → Memref sig .tc .vmem S1x7 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 2 → Memref sig .tc .vmem S10000x7 .f32 := fun | 0 => Memref.whole cc14_stg3_0 | 1 => Memref.whole cc14_stg3_1 | ⟨_ + 2, h⟩ => absurd h (Nat.not_lt.2 (Nat.le_add_left _ _))
abbrev sem14_3 : Fin 2 → DmaSem sig := fun | 0 => cc14_sem3_0 | 1 => cc14_sem3_1 | ⟨_ + 2, h⟩ => absurd h (Nat.not_lt.2 (Nat.le_add_left _ _))
abbrev reads14_3 : Fin grid14.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  shapeCasts_S64_S1x64 : S64.ShapeCasts S1x64
  inb_S10000x7_S10000x7_0_0 : ∀ a, (![0, 0] : Fin 2 → Nat) a + S10000x7.size a ≤ S10000x7.size a
  h_S10000x7 : 0 < S10000x7.numel
  bitsLt_bf16_f32 : FTy.bits .bf16 < FTy.bits .f32
  inb_S7x64_S7x64_0_0 : ∀ a, (![0, 0] : Fin 2 → Nat) a + S7x64.size a ≤ S7x64.size a
  h_S7x64 : 0 < S7x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  bcast_S_S64 : S_.BroadcastsInDim S64 (![] : Fin 0 → Fin S64.rank)
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  bcast_S_S7 : S_.BroadcastsInDim S7 (![] : Fin 0 → Fin S7.rank)
  shapeCasts_S7_S1x7 : S7.ShapeCasts S1x7
  inb_S64x7_S64x7_0_0 : ∀ a, (![0, 0] : Fin 2 → Nat) a + S64x7.size a ≤ S64x7.size a
  h_S64x7 : 0 < S64x7.numel
  inb_S1x7_S1x7_0_0 : ∀ a, (![0, 0] : Fin 2 → Nat) a + S1x7.size a ≤ S1x7.size a
  h_S1x7 : 0 < S1x7.numel
  shapeCasts_S1x7_S1x7 : S1x7.ShapeCasts S1x7
  broadcasts_S1x7_S10000x7 : S1x7.Broadcasts S10000x7
  bcast_S1650000x1_S1650000x7_0_1 : S1650000x1.BroadcastsInDim S1650000x7 (![0, 1] : Fin 2 → Fin S1650000x7.rank)
  bcast_S_S50000x7 : S_.BroadcastsInDim S50000x7 (![] : Fin 0 → Fin S50000x7.rank)
  shapeCasts_S10000x7_S10000x7 : S10000x7.ShapeCasts S10000x7
  inb_S7x7_S7x7_0_0 : ∀ a, (![0, 0] : Fin 2 → Nat) a + S7x7.size a ≤ S7x7.size a
  h_S7x7 : 0 < S7x7.numel
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S10000x7_S7x64_S10000x64_1_0_0_1_n_n_wf : DotDims.WF S10000x7 S7x64 S10000x64 [1] [0] [0] [1] [] []
  dot_S10000x64_S64x64_S10000x64_1_0_0_1_n_n_wf : DotDims.WF S10000x64 S64x64 S10000x64 [1] [0] [0] [1] [] []
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1
  dot_S10000x64_S64x7_S10000x7_1_0_0_1_n_n_wf : DotDims.WF S10000x64 S64x7 S10000x7 [1] [0] [0] [1] [] []
  gather_S50000x7_S1650000x1_S1650000x7_1_0_n_n_0_1_17_wf : GatherDims.WF S50000x7 S1650000x1 S1650000x7 [1] [0] [] [0] [] 1 ![1, 7]
  scatter_S50000x7_S1650000x1_S1650000x7_1_0_0_1_wf : ScatterDims.WF S50000x7 S1650000x1 S1650000x7 [1] [0] [0] 1
  dot_S10000x7_S7x7_S10000x7_1_0_0_1_n_n_wf : DotDims.WF S10000x7 S7x7 S10000x7 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x7.size a ≤ S50000x7.size a
  hwx0_0 : ∀ i : grid0.Coords, EltTy.bits .f32 = 32 ∨ (Rect.block (s := S50000x7) S10000x7.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S7x64.size a ≤ S7x64.size a
  hwx0_1 : ∀ i : grid0.Coords, EltTy.bits .f32 = 32 ∨ (Rect.block (s := S7x64) S7x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S50000x64.size a
  hwx0_3 : ∀ i : grid0.Coords, EltTy.bits .f32 = 32 ∨ (Rect.block (s := S50000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S50000x64.size a
  hwx1_0 : ∀ i : grid1.Coords, EltTy.bits .f32 = 32 ∨ (Rect.block (s := S50000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S50000x64.size a
  hwx1_3 : ∀ i : grid1.Coords, EltTy.bits .f32 = 32 ∨ (Rect.block (s := S50000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S50000x64.size a
  hwx2_0 : ∀ i : grid2.Coords, EltTy.bits .f32 = 32 ∨ (Rect.block (s := S50000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S50000x64.size a
  hwx2_2 : ∀ i : grid2.Coords, EltTy.bits .f32 = 32 ∨ (Rect.block (s := S50000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S50000x64.size a
  hwx3_0 : ∀ i : grid3.Coords, EltTy.bits .f32 = 32 ∨ (Rect.block (s := S50000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x64.size a ≤ S50000x64.size a
  hwx3_3 : ∀ i : grid3.Coords, EltTy.bits .f32 = 32 ∨ (Rect.block (s := S50000x64) S10000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S50000x64.size a
  hwx4_0 : ∀ i : grid4.Coords, EltTy.bits .f32 = 32 ∨ (Rect.block (s := S50000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S50000x64.size a
  hwx4_2 : ∀ i : grid4.Coords, EltTy.bits .f32 = 32 ∨ (Rect.block (s := S50000x64) S10000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S50000x64.size a
  hwx5_0 : ∀ i : grid5.Coords, EltTy.bits .f32 = 32 ∨ (Rect.block (s := S50000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x64.size a ≤ S64x64.size a
  hwx5_1 : ∀ i : grid5.Coords, EltTy.bits .f32 = 32 ∨ (Rect.block (s := S64x64) S64x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S10000x64.size a ≤ S50000x64.size a
  hwx5_3 : ∀ i : grid5.Coords, EltTy.bits .f32 = 32 ∨ (Rect.block (s := S50000x64) S10000x64.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S50000x64.size a
  hwx6_0 : ∀ i : grid6.Coords, EltTy.bits .f32 = 32 ∨ (Rect.block (s := S50000x64) S10000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x64.size a ≤ S1x64.size a
  hwx6_1 : ∀ i : grid6.Coords, EltTy.bits .f32 = 32 ∨ (Rect.block (s := S1x64) S1x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x64.size a ≤ S50000x64.size a
  hwx6_2 : ∀ i : grid6.Coords, EltTy.bits .f32 = 32 ∨ (Rect.block (s := S50000x64) S10000x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x64.size a ≤ S50000x64.size a
  hwx7_0 : ∀ i : grid7.Coords, EltTy.bits .f32 = 32 ∨ (Rect.block (s := S50000x64) S10000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S64x64.size a ≤ S64x64.size a
  hwx7_1 : ∀ i : grid7.Coords, EltTy.bits .f32 = 32 ∨ (Rect.block (s := S64x64) S64x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S10000x64.size a ≤ S50000x64.size a
  hwx7_3 : ∀ i : grid7.Coords, EltTy.bits .f32 = 32 ∨ (Rect.block (s := S50000x64) S10000x64.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x64.size a ≤ S50000x64.size a
  hwx8_0 : ∀ i : grid8.Coords, EltTy.bits .f32 = 32 ∨ (Rect.block (s := S50000x64) S10000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S64x64.size a ≤ S64x64.size a
  hwx8_1 : ∀ i : grid8.Coords, EltTy.bits .f32 = 32 ∨ (Rect.block (s := S64x64) S64x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x64.size a ≤ S1x64.size a
  hwx8_2 : ∀ i : grid8.Coords, EltTy.bits .f32 = 32 ∨ (Rect.block (s := S1x64) S1x64.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S10000x64.size a ≤ S50000x64.size a
  hwx8_3 : ∀ i : grid8.Coords, EltTy.bits .f32 = 32 ∨ (Rect.block (s := S50000x64) S10000x64.size (cc8_transform_3 i) (hinb8_3 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S10000x64.size a ≤ S50000x64.size a
  hwx9_0 : ∀ i : grid9.Coords, EltTy.bits .f32 = 32 ∨ (Rect.block (s := S50000x64) S10000x64.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x64.size a ≤ S1x64.size a
  hwx9_1 : ∀ i : grid9.Coords, EltTy.bits .f32 = 32 ∨ (Rect.block (s := S1x64) S1x64.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S10000x64.size a ≤ S50000x64.size a
  hwx9_2 : ∀ i : grid9.Coords, EltTy.bits .f32 = 32 ∨ (Rect.block (s := S50000x64) S10000x64.size (cc9_transform_2 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S10000x64.size a ≤ S50000x64.size a
  hwx10_0 : ∀ i : grid10.Coords, EltTy.bits .f32 = 32 ∨ (Rect.block (s := S50000x64) S10000x64.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S64x64.size a ≤ S64x64.size a
  hwx10_1 : ∀ i : grid10.Coords, EltTy.bits .f32 = 32 ∨ (Rect.block (s := S64x64) S64x64.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x64.size a ≤ S1x64.size a
  hwx10_2 : ∀ i : grid10.Coords, EltTy.bits .f32 = 32 ∨ (Rect.block (s := S1x64) S1x64.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S10000x64.size a ≤ S50000x64.size a
  hwx10_3 : ∀ i : grid10.Coords, EltTy.bits .f32 = 32 ∨ (Rect.block (s := S50000x64) S10000x64.size (cc10_transform_3 i) (hinb10_3 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S10000x64.size a ≤ S50000x64.size a
  hwx11_0 : ∀ i : grid11.Coords, EltTy.bits .f32 = 32 ∨ (Rect.block (s := S50000x64) S10000x64.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x64.size a ≤ S1x64.size a
  hwx11_1 : ∀ i : grid11.Coords, EltTy.bits .f32 = 32 ∨ (Rect.block (s := S1x64) S1x64.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S10000x64.size a ≤ S50000x64.size a
  hwx11_2 : ∀ i : grid11.Coords, EltTy.bits .f32 = 32 ∨ (Rect.block (s := S50000x64) S10000x64.size (cc11_transform_2 i) (hinb11_2 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S10000x64.size a ≤ S50000x64.size a
  hwx12_0 : ∀ i : grid12.Coords, EltTy.bits .f32 = 32 ∨ (Rect.block (s := S50000x64) S10000x64.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S64x7.size a ≤ S64x7.size a
  hwx12_1 : ∀ i : grid12.Coords, EltTy.bits .f32 = 32 ∨ (Rect.block (s := S64x7) S64x7.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x7.size a ≤ S1x7.size a
  hwx12_2 : ∀ i : grid12.Coords, EltTy.bits .f32 = 32 ∨ (Rect.block (s := S1x7) S1x7.size (cc12_transform_2 i) (hinb12_2 i)).WholeWords (EltTy.packing .f32)
  hstage12_3 : ∀ j, (stage12_3 j).IsWhole
  nbuf12_3 : grid12.bufCount reads12_3 false = 2
  hreads12_3 : ∀ i i' : grid12.Coords, (∀ a, reads12_3 a = true → i a = i' a) → cc12_transform_3 i = cc12_transform_3 i'
  hinb12_3 : ∀ (i : grid12.Coords) a, (cc12_transform_3 i a + 1) * S10000x7.size a ≤ S50000x7.size a
  hwx12_3 : ∀ i : grid12.Coords, EltTy.bits .f32 = 32 ∨ (Rect.block (s := S50000x7) S10000x7.size (cc12_transform_3 i) (hinb12_3 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S10000x7.size a ≤ S50000x7.size a
  hwx13_0 : ∀ i : grid13.Coords, EltTy.bits .f32 = 32 ∨ (Rect.block (s := S50000x7) S10000x7.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S1x7.size a ≤ S1x7.size a
  hwx13_1 : ∀ i : grid13.Coords, EltTy.bits .f32 = 32 ∨ (Rect.block (s := S1x7) S1x7.size (cc13_transform_1 i) (hinb13_1 i)).WholeWords (EltTy.packing .f32)
  hstage13_2 : ∀ j, (stage13_2 j).IsWhole
  nbuf13_2 : grid13.bufCount reads13_2 false = 2
  hreads13_2 : ∀ i i' : grid13.Coords, (∀ a, reads13_2 a = true → i a = i' a) → cc13_transform_2 i = cc13_transform_2 i'
  hinb13_2 : ∀ (i : grid13.Coords) a, (cc13_transform_2 i a + 1) * S10000x7.size a ≤ S50000x7.size a
  hwx13_2 : ∀ i : grid13.Coords, EltTy.bits .f32 = 32 ∨ (Rect.block (s := S50000x7) S10000x7.size (cc13_transform_2 i) (hinb13_2 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S10000x7.size a ≤ S50000x7.size a
  hwx14_0 : ∀ i : grid14.Coords, EltTy.bits .f32 = 32 ∨ (Rect.block (s := S50000x7) S10000x7.size (cc14_transform_0 i) (hinb14_0 i)).WholeWords (EltTy.packing .f32)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S7x7.size a ≤ S7x7.size a
  hwx14_1 : ∀ i : grid14.Coords, EltTy.bits .f32 = 32 ∨ (Rect.block (s := S7x7) S7x7.size (cc14_transform_1 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S1x7.size a ≤ S1x7.size a
  hwx14_2 : ∀ i : grid14.Coords, EltTy.bits .f32 = 32 ∨ (Rect.block (s := S1x7) S1x7.size (cc14_transform_2 i) (hinb14_2 i)).WholeWords (EltTy.packing .f32)
  hstage14_3 : ∀ j, (stage14_3 j).IsWhole
  nbuf14_3 : grid14.bufCount reads14_3 false = 2
  hreads14_3 : ∀ i i' : grid14.Coords, (∀ a, reads14_3 a = true → i a = i' a) → cc14_transform_3 i = cc14_transform_3 i'
  hinb14_3 : ∀ (i : grid14.Coords) a, (cc14_transform_3 i a + 1) * S10000x7.size a ≤ S50000x7.size a
  hwx14_3 : ∀ i : grid14.Coords, EltTy.bits .f32 = 32 ∨ (Rect.block (s := S50000x7) S10000x7.size (cc14_transform_3 i) (hinb14_3 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S10000x7_S7x64_S10000x64_1_0_0_1_n_n : DotDims S10000x7 S7x64 S10000x64 where
  lhsContracting := [1]
  rhsContracting := [0]
  lhsNonContracting := [0]
  rhsNonContracting := [1]
  lhsBatch := []
  rhsBatch := []
  wf := dot_S10000x7_S7x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf
def dot_S10000x64_S64x7_S10000x7_1_0_0_1_n_n : DotDims S10000x64 S64x7 S10000x7 where
  lhsContracting := [1]
  rhsContracting := [0]
  lhsNonContracting := [0]
  rhsNonContracting := [1]
  lhsBatch := []
  rhsBatch := []
  wf := dot_S10000x64_S64x7_S10000x7_1_0_0_1_n_n_wf
def gather_S50000x7_S1650000x1_S1650000x7_1_0_n_n_0_1_17 : GatherDims S50000x7 S1650000x1 S1650000x7 where
  offsetDims := [1]
  collapsedSliceDims := [0]
  operandBatchingDims := []
  startIndicesBatchingDims := []
  startIndexMap := [0]
  indexVectorDim := 1
  sliceSizes := ![1, 7]
  wf := gather_S50000x7_S1650000x1_S1650000x7_1_0_n_n_0_1_17_wf
def scatter_S50000x7_S1650000x1_S1650000x7_1_0_0_1 : ScatterDims S50000x7 S1650000x1 S1650000x7 where
  updateWindowDims := [1]
  insertedWindowDims := [0]
  scatterDimsToOperandDims := [0]
  indexVectorDim := 1
  wf := scatter_S50000x7_S1650000x1_S1650000x7_1_0_0_1_wf
def dot_S10000x7_S7x7_S10000x7_1_0_0_1_n_n : DotDims S10000x7 S7x7 S10000x7 where
  lhsContracting := [1]
  rhsContracting := [0]
  lhsNonContracting := [0]
  rhsNonContracting := [1]
  lhsBatch := []
  rhsBatch := []
  wf := dot_S10000x7_S7x7_S10000x7_1_0_0_1_n_n_wf

abbrev win0_0 : Pipeline.Window sig grid0 :=
  Pipeline.Window.ofSpec (Memref.whole main_arg0) S10000x7.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S7x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v28) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v28) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v30) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v44) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v46) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v48) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v49) S10000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v62) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v63) S1x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v64) S10000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v64) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg8) S64x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v66) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v67) S10000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v80) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v81) S1x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v82) S10000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v82) S10000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg10) S64x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v83) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v84) S10000x64.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v84) S10000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg12) S64x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v86) S1x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v87) S10000x64.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_v100) S10000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v101) S1x64.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v102) S10000x64.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v102) S10000x64.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_arg14) S64x64.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v104) S1x64.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v105) S10000x64.size cc10_transform_3 reads10_3 true false 2 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

abbrev win11_0 : Pipeline.Window sig grid11 :=
  Pipeline.Window.ofSpec (Memref.whole main_v118) S10000x64.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v119) S1x64.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v120) S10000x64.size cc11_transform_2 reads11_2 true false 2 stage11_2 sem11_2
    hrank11 hreads11_2 hinb11_2 nbuf11_2 (Memref.isWhole_whole _) hwx11_2 hstage11_2

abbrev win11 : Fin 3 → Pipeline.Window sig grid11 := fun | 0 => win11_0 | 1 => win11_1 | 2 => win11_2 | ⟨_ + 3, h⟩ => absurd h (Nat.not_lt.2 (Nat.le_add_left _ _))
abbrev spec11 : Fin 3 → Pipeline.WinSpec sig grid11.rank := fun w => (win11 w).toWinSpec

abbrev win12_0 : Pipeline.Window sig grid12 :=
  Pipeline.Window.ofSpec (Memref.whole main_v120) S10000x64.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_arg16) S64x7.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v122) S1x7.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v123) S10000x7.size cc12_transform_3 reads12_3 true false 2 stage12_3 sem12_3
    hrank12 hreads12_3 hinb12_3 nbuf12_3 (Memref.isWhole_whole _) hwx12_3 hstage12_3

abbrev win12 : Fin 4 → Pipeline.Window sig grid12 := fun | 0 => win12_0 | 1 => win12_1 | 2 => win12_2 | 3 => win12_3 | ⟨_ + 4, h⟩ => absurd h (Nat.not_lt.2 (Nat.le_add_left _ _))
abbrev spec12 : Fin 4 → Pipeline.WinSpec sig grid12.rank := fun w => (win12 w).toWinSpec

abbrev win13_0 : Pipeline.Window sig grid13 :=
  Pipeline.Window.ofSpec (Memref.whole main_v136) S10000x7.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v137) S1x7.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v138) S10000x7.size cc13_transform_2 reads13_2 true false 2 stage13_2 sem13_2
    hrank13 hreads13_2 hinb13_2 nbuf13_2 (Memref.isWhole_whole _) hwx13_2 hstage13_2

abbrev win13 : Fin 3 → Pipeline.Window sig grid13 := fun | 0 => win13_0 | 1 => win13_1 | 2 => win13_2 | ⟨_ + 3, h⟩ => absurd h (Nat.not_lt.2 (Nat.le_add_left _ _))
abbrev spec13 : Fin 3 → Pipeline.WinSpec sig grid13.rank := fun w => (win13 w).toWinSpec

abbrev win14_0 : Pipeline.Window sig grid14 :=
  Pipeline.Window.ofSpec (Memref.whole main_v138) S10000x7.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_arg18) S7x7.size cc14_transform_1 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_v139) S1x7.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_v140) S10000x7.size cc14_transform_3 reads14_3 true false 2 stage14_3 sem14_3
    hrank14 hreads14_3 hinb14_3 nbuf14_3 (Memref.isWhole_whole _) hwx14_3 hstage14_3

abbrev win14 : Fin 4 → Pipeline.Window sig grid14 := fun | 0 => win14_0 | 1 => win14_1 | 2 => win14_2 | 3 => win14_3 | ⟨_ + 4, h⟩ => absurd h (Nat.not_lt.2 (Nat.le_add_left _ _))
abbrev spec14 : Fin 4 → Pipeline.WinSpec sig grid14.rank := fun w => (win14 w).toWinSpec

class Facts : Prop extends Facts₀ where

variable [Facts]
-- ==== ReferenceIdeal.lean ====
abbrev S50000x7 : Shape := ⟨2, ![50000, 7]⟩
abbrev S2x1600000 : Shape := ⟨2, ![2, 1600000]⟩
abbrev S7x64 : Shape := ⟨2, ![7, 64]⟩
abbrev S64 : Shape := ⟨1, ![64]⟩
abbrev S64x64 : Shape := ⟨2, ![64, 64]⟩
abbrev S64x7 : Shape := ⟨2, ![64, 7]⟩
abbrev S7 : Shape := ⟨1, ![7]⟩
abbrev S7x7 : Shape := ⟨2, ![7, 7]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S50000x64 : Shape := ⟨2, ![50000, 64]⟩
abbrev S1x64 : Shape := ⟨2, ![1, 64]⟩
abbrev S1650000x64 : Shape := ⟨2, ![1650000, 64]⟩
abbrev S1650000x7 : Shape := ⟨2, ![1650000, 7]⟩
abbrev S1x7 : Shape := ⟨2, ![1, 7]⟩

abbrev nBuf : Space → Nat
  | .hbm => 191
  | .vmem => 0
  | .smem => 0
  | _ => 0

abbrev hbmTy0_0 (i : Nat) : BufTy := match i % 128 with
  | 0 => ⟨S50000x7, .f32⟩
  | 1 => ⟨S2x1600000, .i32⟩
  | 2 => ⟨S7x64, .f32⟩
  | 3 => ⟨S64, .f32⟩
  | 4 => ⟨S64x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S64x64, .f32⟩
  | 11 => ⟨S64, .f32⟩
  | 12 => ⟨S64x64, .f32⟩
  | 13 => ⟨S64, .f32⟩
  | 14 => ⟨S64x64, .f32⟩
  | 15 => ⟨S64, .f32⟩
  | 16 => ⟨S64x7, .f32⟩
  | 17 => ⟨S7, .f32⟩
  | 18 => ⟨S7x7, .f32⟩
  | 19 => ⟨S7, .f32⟩
  | 20 => ⟨S50000, .i32⟩
  | 21 => ⟨S1x1600000, .i32⟩
  | 22 => ⟨S1600000, .i32⟩
  | 23 => ⟨S1650000, .i32⟩
  | 24 => ⟨S1x1600000, .i32⟩
  | 25 => ⟨S1600000, .i32⟩
  | 26 => ⟨S1650000, .i32⟩
  | 27 => ⟨S_, .f32⟩
  | 28 => ⟨S1650000, .f32⟩
  | 29 => ⟨S_, .f32⟩
  | 30 => ⟨S50000, .f32⟩
  | 31 => ⟨S1650000x1, .i32⟩
  | 32 => ⟨S50000, .f32⟩
  | 33 => ⟨S50000, .f32⟩
  | 34 => ⟨S_, .i32⟩
  | 35 => ⟨S1650000, .i32⟩
  | 36 => ⟨S1650000, .i1⟩
  | 37 => ⟨S_, .i32⟩
  | 38 => ⟨S1650000, .i32⟩
  | 39 => ⟨S1650000, .i32⟩
  | 40 => ⟨S1650000, .i32⟩
  | 41 => ⟨S1650000x1, .i32⟩
  | 42 => ⟨S1650000, .f32⟩
  | 43 => ⟨S_, .i32⟩
  | 44 => ⟨S1650000, .i32⟩
  | 45 => ⟨S1650000, .i1⟩
  | 46 => ⟨S_, .i32⟩
  | 47 => ⟨S1650000, .i32⟩
  | 48 => ⟨S1650000, .i32⟩
  | 49 => ⟨S1650000, .i32⟩
  | 50 => ⟨S1650000x1, .i32⟩
  | 51 => ⟨S1650000, .f32⟩
  | 52 => ⟨S1650000, .f32⟩
  | 53 => ⟨S50000x64, .f32⟩
  | 54 => ⟨S1x64, .f32⟩
  | 55 => ⟨S50000x64, .f32⟩
  | 56 => ⟨S50000x64, .f32⟩
  | 57 => ⟨S50000x64, .f32⟩
  | 58 => ⟨S50000x64, .f32⟩
  | 59 => ⟨S_, .i32⟩
  | 60 => ⟨S1650000, .i32⟩
  | 61 => ⟨S1650000, .i1⟩
  | 62 => ⟨S_, .i32⟩
  | 63 => ⟨S1650000, .i32⟩
  | 64 => ⟨S1650000, .i32⟩
  | 65 => ⟨S1650000, .i32⟩
  | 66 => ⟨S1650000x1, .i32⟩
  | 67 => ⟨S1650000x64, .f32⟩
  | 68 => ⟨S1650000x1, .f32⟩
  | 69 => ⟨S1650000x64, .f32⟩
  | 70 => ⟨S1650000x64, .f32⟩
  | 71 => ⟨S_, .f32⟩
  | 72 => ⟨S50000x64, .f32⟩
  | 73 => ⟨S1650000x1, .i32⟩
  | 74 => ⟨S50000x64, .f32⟩
  | 75 => ⟨S1x64, .f32⟩
  | 76 => ⟨S50000x64, .f32⟩
  | 77 => ⟨S50000x64, .f32⟩
  | 78 => ⟨S50000x64, .f32⟩
  | 79 => ⟨S50000x64, .f32⟩
  | 80 => ⟨S_, .i32⟩
  | 81 => ⟨S1650000, .i32⟩
  | 82 => ⟨S1650000, .i1⟩
  | 83 => ⟨S_, .i32⟩
  | 84 => ⟨S1650000, .i32⟩
  | 85 => ⟨S1650000, .i32⟩
  | 86 => ⟨S1650000, .i32⟩
  | 87 => ⟨S1650000x1, .i32⟩
  | 88 => ⟨S1650000x64, .f32⟩
  | 89 => ⟨S1650000x1, .f32⟩
  | 90 => ⟨S1650000x64, .f32⟩
  | 91 => ⟨S1650000x64, .f32⟩
  | 92 => ⟨S_, .f32⟩
  | 93 => ⟨S50000x64, .f32⟩
  | 94 => ⟨S1650000x1, .i32⟩
  | 95 => ⟨S50000x64, .f32⟩
  | 96 => ⟨S1x64, .f32⟩
  | 97 => ⟨S50000x64, .f32⟩
  | 98 => ⟨S50000x64, .f32⟩
  | 99 => ⟨S50000x64, .f32⟩
  | 100 => ⟨S50000x64, .f32⟩
  | 101 => ⟨S_, .i32⟩
  | 102 => ⟨S1650000, .i32⟩
  | 103 => ⟨S1650000, .i1⟩
  | 104 => ⟨S_, .i32⟩
  | 105 => ⟨S1650000, .i32⟩
  | 106 => ⟨S1650000, .i32⟩
  | 107 => ⟨S1650000, .i32⟩
  | 108 => ⟨S1650000x1, .i32⟩
  | 109 => ⟨S1650000x64, .f32⟩
  | 110 => ⟨S1650000x1, .f32⟩
  | 111 => ⟨S1650000x64, .f32⟩
  | 112 => ⟨S1650000x64, .f32⟩
  | 113 => ⟨S_, .f32⟩
  | 114 => ⟨S50000x64, .f32⟩
  | 115 => ⟨S1650000x1, .i32⟩
  | 116 => ⟨S50000x64, .f32⟩
  | 117 => ⟨S1x64, .f32⟩
  | 118 => ⟨S50000x64, .f32⟩
  | 119 => ⟨S50000x64, .f32⟩
  | 120 => ⟨S50000x64, .f32⟩
  | 121 => ⟨S50000x64, .f32⟩
  | 122 => ⟨S1x64, .f32⟩
  | 123 => ⟨S50000x64, .f32⟩
  | 124 => ⟨S50000x64, .f32⟩
  | 125 => ⟨S50000x64, .f32⟩
  | 126 => ⟨S_, .i32⟩
  | 127 => ⟨S1650000, .i32⟩
  | _ => ⟨S50000x7, .f32⟩

abbrev hbmTy0_1 (i : Nat) : BufTy := match i % 128 with
  | 0 => ⟨S1650000, .i1⟩
  | 1 => ⟨S_, .i32⟩
  | 2 => ⟨S1650000, .i32⟩
  | 3 => ⟨S1650000, .i32⟩
  | 4 => ⟨S1650000, .i32⟩
  | 5 => ⟨S1650000x1, .i32⟩
  | 6 => ⟨S1650000x64, .f32⟩
  | 7 => ⟨S1650000x1, .f32⟩
  | 8 => ⟨S1650000x64, .f32⟩
  | 9 => ⟨S1650000x64, .f32⟩
  | 10 => ⟨S_, .f32⟩
  | 11 => ⟨S50000x64, .f32⟩
  | 12 => ⟨S1650000x1, .i32⟩
  | 13 => ⟨S50000x64, .f32⟩
  | 14 => ⟨S1x64, .f32⟩
  | 15 => ⟨S50000x64, .f32⟩
  | 16 => ⟨S50000x64, .f32⟩
  | 17 => ⟨S50000x64, .f32⟩
  | 18 => ⟨S50000x64, .f32⟩
  | 19 => ⟨S_, .i32⟩
  | 20 => ⟨S1650000, .i32⟩
  | 21 => ⟨S1650000, .i1⟩
  | 22 => ⟨S_, .i32⟩
  | 23 => ⟨S1650000, .i32⟩
  | 24 => ⟨S1650000, .i32⟩
  | 25 => ⟨S1650000, .i32⟩
  | 26 => ⟨S1650000x1, .i32⟩
  | 27 => ⟨S1650000x64, .f32⟩
  | 28 => ⟨S1650000x1, .f32⟩
  | 29 => ⟨S1650000x64, .f32⟩
  | 30 => ⟨S1650000x64, .f32⟩
  | 31 => ⟨S_, .f32⟩
  | 32 => ⟨S50000x64, .f32⟩
  | 33 => ⟨S1650000x1, .i32⟩
  | 34 => ⟨S50000x64, .f32⟩
  | 35 => ⟨S1x64, .f32⟩
  | 36 => ⟨S50000x64, .f32⟩
  | 37 => ⟨S50000x64, .f32⟩
  | 38 => ⟨S50000x64, .f32⟩
  | 39 => ⟨S50000x7, .f32⟩
  | 40 => ⟨S_, .i32⟩
  | 41 => ⟨S1650000, .i32⟩
  | 42 => ⟨S1650000, .i1⟩
  | 43 => ⟨S_, .i32⟩
  | 44 => ⟨S1650000, .i32⟩
  | 45 => ⟨S1650000, .i32⟩
  | 46 => ⟨S1650000, .i32⟩
  | 47 => ⟨S1650000x1, .i32⟩
  | 48 => ⟨S1650000x7, .f32⟩
  | 49 => ⟨S1650000x1, .f32⟩
  | 50 => ⟨S1650000x7, .f32⟩
  | 51 => ⟨S1650000x7, .f32⟩
  | 52 => ⟨S_, .f32⟩
  | 53 => ⟨S50000x7, .f32⟩
  | 54 => ⟨S1650000x1, .i32⟩
  | 55 => ⟨S50000x7, .f32⟩
  | 56 => ⟨S1x7, .f32⟩
  | 57 => ⟨S50000x7, .f32⟩
  | 58 => ⟨S50000x7, .f32⟩
  | 59 => ⟨S50000x7, .f32⟩
  | 60 => ⟨S1x7, .f32⟩
  | 61 => ⟨S50000x7, .f32⟩
  | 62 => ⟨S50000x7, .f32⟩
  | _ => ⟨S50000x7, .f32⟩

abbrev hbmTy (i : Nat) : BufTy := match i / 128 with
  | 0 => hbmTy0_0 i
  | 1 => hbmTy0_1 i
  | _ => ⟨S50000x7, .f32⟩

abbrev bufTy : (tb : Table) → Fin (tcTables nBuf tb) → BufTy
  | .hbm, ⟨i, _⟩ => hbmTy i
  | _, _ => ⟨S50000x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst : Ref sig .tc := ⟨.hbm, 27, rfl⟩
abbrev main_v7 : Ref sig .tc := ⟨.hbm, 28, rfl⟩
abbrev main_cst_0 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_c : Ref sig .tc := ⟨.hbm, 34, rfl⟩
abbrev main_v12 : Ref sig .tc := ⟨.hbm, 35, rfl⟩
abbrev main_v13 : Ref sig .tc := ⟨.hbm, 36, rfl⟩
abbrev main_c_1 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_c_2 : Ref sig .tc := ⟨.hbm, 43, rfl⟩
abbrev main_v19 : Ref sig .tc := ⟨.hbm, 44, rfl⟩
abbrev main_v20 : Ref sig .tc := ⟨.hbm, 45, rfl⟩
abbrev main_c_3 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_c_4 : Ref sig .tc := ⟨.hbm, 59, rfl⟩
abbrev main_v33 : Ref sig .tc := ⟨.hbm, 60, rfl⟩
abbrev main_v34 : Ref sig .tc := ⟨.hbm, 61, rfl⟩
abbrev main_c_5 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_6 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_c_7 : Ref sig .tc := ⟨.hbm, 80, rfl⟩
abbrev main_v51 : Ref sig .tc := ⟨.hbm, 81, rfl⟩
abbrev main_v52 : Ref sig .tc := ⟨.hbm, 82, rfl⟩
abbrev main_c_8 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_9 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_c_10 : Ref sig .tc := ⟨.hbm, 101, rfl⟩
abbrev main_v69 : Ref sig .tc := ⟨.hbm, 102, rfl⟩
abbrev main_v70 : Ref sig .tc := ⟨.hbm, 103, rfl⟩
abbrev main_c_11 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_cst_12 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_c_13 : Ref sig .tc := ⟨.hbm, 126, rfl⟩
abbrev main_v91 : Ref sig .tc := ⟨.hbm, 127, rfl⟩
abbrev main_v92 : Ref sig .tc := ⟨.hbm, 128, rfl⟩
abbrev main_c_14 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_cst_15 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_c_16 : Ref sig .tc := ⟨.hbm, 147, rfl⟩
abbrev main_v109 : Ref sig .tc := ⟨.hbm, 148, rfl⟩
abbrev main_v110 : Ref sig .tc := ⟨.hbm, 149, rfl⟩
abbrev main_c_17 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_cst_18 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_c_19 : Ref sig .tc := ⟨.hbm, 168, rfl⟩
abbrev main_v127 : Ref sig .tc := ⟨.hbm, 169, rfl⟩
abbrev main_v128 : Ref sig .tc := ⟨.hbm, 170, rfl⟩
abbrev main_c_20 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_cst_21 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  bcast_S1650000x1_S1650000x7_0_1 : S1650000x1.BroadcastsInDim S1650000x7 (![0, 1] : Fin 2 → Fin S1650000x7.rank)
  bcast_S_S50000x7 : S_.BroadcastsInDim S50000x7 (![] : Fin 0 → Fin S50000x7.rank)
  bcast_S7_S1x7_1 : S7.BroadcastsInDim S1x7 (![1] : Fin 1 → Fin S1x7.rank)
  bcast_S1x7_S50000x7_0_1 : S1x7.BroadcastsInDim S50000x7 (![0, 1] : Fin 2 → Fin S50000x7.rank)
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S50000x7_S7x64_S50000x64_1_0_0_1_n_n_wf : DotDims.WF S50000x7 S7x64 S50000x64 [1] [0] [0] [1] [] []
  dot_S50000x64_S64x64_S50000x64_1_0_0_1_n_n_wf : DotDims.WF S50000x64 S64x64 S50000x64 [1] [0] [0] [1] [] []
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1
  dot_S50000x64_S64x7_S50000x7_1_0_0_1_n_n_wf : DotDims.WF S50000x64 S64x7 S50000x7 [1] [0] [0] [1] [] []
  gather_S50000x7_S1650000x1_S1650000x7_1_0_n_n_0_1_17_wf : GatherDims.WF S50000x7 S1650000x1 S1650000x7 [1] [0] [] [0] [] 1 ![1, 7]
  scatter_S50000x7_S1650000x1_S1650000x7_1_0_0_1_wf : ScatterDims.WF S50000x7 S1650000x1 S1650000x7 [1] [0] [0] 1
  dot_S50000x7_S7x7_S50000x7_1_0_0_1_n_n_wf : DotDims.WF S50000x7 S7x7 S50000x7 [1] [0] [0] [1] [] []

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S50000x7_S7x64_S50000x64_1_0_0_1_n_n : DotDims S50000x7 S7x64 S50000x64 where
  lhsContracting := [1]
  rhsContracting := [0]
  lhsNonContracting := [0]
  rhsNonContracting := [1]
  lhsBatch := []
  rhsBatch := []
  wf := dot_S50000x7_S7x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf
def dot_S50000x64_S64x7_S50000x7_1_0_0_1_n_n : DotDims S50000x64 S64x7 S50000x7 where
  lhsContracting := [1]
  rhsContracting := [0]
  lhsNonContracting := [0]
  rhsNonContracting := [1]
  lhsBatch := []
  rhsBatch := []
  wf := dot_S50000x64_S64x7_S50000x7_1_0_0_1_n_n_wf
def gather_S50000x7_S1650000x1_S1650000x7_1_0_n_n_0_1_17 : GatherDims S50000x7 S1650000x1 S1650000x7 where
  offsetDims := [1]
  collapsedSliceDims := [0]
  operandBatchingDims := []
  startIndicesBatchingDims := []
  startIndexMap := [0]
  indexVectorDim := 1
  sliceSizes := ![1, 7]
  wf := gather_S50000x7_S1650000x1_S1650000x7_1_0_n_n_0_1_17_wf
def scatter_S50000x7_S1650000x1_S1650000x7_1_0_0_1 : ScatterDims S50000x7 S1650000x1 S1650000x7 where
  updateWindowDims := [1]
  insertedWindowDims := [0]
  scatterDimsToOperandDims := [0]
  indexVectorDim := 1
  wf := scatter_S50000x7_S1650000x1_S1650000x7_1_0_0_1_wf
def dot_S50000x7_S7x7_S50000x7_1_0_0_1_n_n : DotDims S50000x7 S7x7 S50000x7 where
  lhsContracting := [1]
  rhsContracting := [0]
  lhsNonContracting := [0]
  rhsNonContracting := [1]
  lhsBatch := []
  rhsBatch := []
  wf := dot_S50000x7_S7x7_S50000x7_1_0_0_1_n_n_wf

class Facts : Prop extends Facts₀ where

variable [Facts]
-- ==== Proof.KRun.lean ====
/-
  The idealized kernel's run with its results read.

  The program is fifteen kernel launches among stretches of host operations. Its frame certificate walks the
  buffer contents from the launch memory through every stretch and every launch to the contents at the return.
  The same walk, read at the four result buffers as well as at the arguments, gives: every weakly fair
  execution terminates, nothing faults, each result buffer ends at the walk's final contents of that buffer,
  and the arguments end as launched.
-/
import proofs.«160013_j34815004902081_1_alg».proof.Proof.Gen.KernelIdeal.Frame

set_option maxRecDepth 16384

noncomputable section

namespace Cert.KernelIdeal.GcnRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the four results end at the final
    contents of the walk through the segments, and the arguments end as launched. -/
theorem run_results : θ_run defs (onTc (τ := τ) (main (F := F))) ⟨m, fun _ => 0, ρ⟩ (fun r => ∀ c : Dev nD,
      r.2.mem ((c.tc : Thread nD τ).loc main_v140) = W30 m ρ c (Proc.devRef .tc main_v140)
      ∧ r.2.mem ((c.tc : Thread nD τ).loc main_v84) = W30 m ρ c (Proc.devRef .tc main_v84)
      ∧ r.2.mem ((c.tc : Thread nD τ).loc main_v82) = W30 m ρ c (Proc.devRef .tc main_v82)
      ∧ r.2.mem ((c.tc : Thread nD τ).loc main_v138) = W30 m ρ c (Proc.devRef .tc main_v138)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W30 m ρ c b)
    (hfin := fun c s' => by
      iintro ⟨⟨Hh, -⟩, HSI⟩
      unfold StableHlo.held
      imodintro
      iapply (pointsTo_read_all (Pipeline.ucRefs τ sig) (fun b => (((c : Thread nD τ)).1, b)) (W30 m ρ c) s')
      isplitl [Hh] <;> iassumption)
    (hQ := fun s h c =>
      ⟨h c _ (mem_uc main_v140 (by decide)),
       h c _ (mem_uc main_v84 (by decide)),
       h c _ (mem_uc main_v82 (by decide)),
       h c _ (mem_uc main_v138 (by decide)),
       (h c _ (mem_uc main_arg0 (by decide))).trans (W30_main_arg0 m ρ c),
       (h c _ (mem_uc main_arg1 (by decide))).trans (W30_main_arg1 m ρ c),
       (h c _ (mem_uc main_arg2 (by decide))).trans (W30_main_arg2 m ρ c),
       (h c _ (mem_uc main_arg3 (by decide))).trans (W30_main_arg3 m ρ c),
       (h c _ (mem_uc main_arg4 (by decide))).trans (W30_main_arg4 m ρ c),
       (h c _ (mem_uc main_arg5 (by decide))).trans (W30_main_arg5 m ρ c),
       (h c _ (mem_uc main_arg6 (by decide))).trans (W30_main_arg6 m ρ c),
       (h c _ (mem_uc main_arg7 (by decide))).trans (W30_main_arg7 m ρ c),
       (h c _ (mem_uc main_arg8 (by decide))).trans (W30_main_arg8 m ρ c),
       (h c _ (mem_uc main_arg9 (by decide))).trans (W30_main_arg9 m ρ c),
       (h c _ (mem_uc main_arg10 (by decide))).trans (W30_main_arg10 m ρ c),
       (h c _ (mem_uc main_arg11 (by decide))).trans (W30_main_arg11 m ρ c),
       (h c _ (mem_uc main_arg12 (by decide))).trans (W30_main_arg12 m ρ c),
       (h c _ (mem_uc main_arg13 (by decide))).trans (W30_main_arg13 m ρ c),
       (h c _ (mem_uc main_arg14 (by decide))).trans (W30_main_arg14 m ρ c),
       (h c _ (mem_uc main_arg15 (by decide))).trans (W30_main_arg15 m ρ c),
       (h c _ (mem_uc main_arg16 (by decide))).trans (W30_main_arg16 m ρ c),
       (h c _ (mem_uc main_arg17 (by decide))).trans (W30_main_arg17 m ρ c),
       (h c _ (mem_uc main_arg18 (by decide))).trans (W30_main_arg18 m ρ c),
       (h c _ (mem_uc main_arg19 (by decide))).trans (W30_main_arg19 m ρ c)⟩)

end Cert.KernelIdeal.GcnRun

end
-- ==== Proof.Steps.lean ====
/-
  One step of the walk through the program's segments, for any buffer.

  The program's buffer contents are followed from the launch memory through fifteen stretches of host operations
  and fifteen kernel launches. A stretch of host operations changes the buffers its operations write and no
  other. A launch reads its input arrays through windows and writes its result array block by block: its input
  arrays and every buffer that is not one of its arrays hold after it what they held before. So a buffer's
  contents at any point of the walk are its contents at the last point before which it was written.
-/
import proofs.«160013_j34815004902081_1_alg».proof.Proof.Gen.KernelIdeal.Frame

set_option maxRecDepth 16384

noncomputable section

namespace Cert.KernelIdeal.GcnSteps

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg) (c : Dev nD)

/-- A buffer that stretch 0 of host operations does not write holds after it what it held before. -/
theorem host0 (b : Ref sig .tc) (hb : b ∉ ([main_v0, main_v1, main_v2, main_v3, main_v4, main_v5, main_v6, main_cst, main_v7, main_cst_0, main_v8, main_v9, main_v10, main_v11, main_c, main_v12, main_v13, main_c_1, main_v14, main_v15, main_v16, main_v17, main_v18, main_c_2, main_v19, main_v20, main_c_3, main_v21, main_v22, main_v23, main_v24, main_v25, main_v26, main_v27] : List (Ref sig .tc))) :
    W1 m ρ c (Proc.devRef .tc b) = W0 m ρ c (Proc.devRef .tc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals (refine StableHlo.devRef_ne_of_ne ?_; rintro rfl; exact hb (by decide))))

/-- Launch 0 changes its result array only: every other buffer holds after it what it held before. -/
theorem reg0 (b : Ref sig .tc) (hb : b ≠ main_v28) :
    W2 m ρ c (Proc.devRef .tc b) = W1 m ρ c (Proc.devRef .tc b) := by
  by_cases h0 : b = main_arg0
  · subst h0
    exact (W2_arr m ρ c 0).trans (((dat0 (V1 m ρ) c).arrAt_in 0 rfl _).trans (A_eq0 (V1 m ρ) c 0))
  by_cases h1 : b = main_arg2
  · subst h1
    exact (W2_arr m ρ c 1).trans (((dat0 (V1 m ρ) c).arrAt_in 1 rfl _).trans (A_eq0 (V1 m ρ) c 1))
  by_cases h2 : b = main_v27
  · subst h2
    exact (W2_arr m ρ c 2).trans (((dat0 (V1 m ρ) c).arrAt_in 2 rfl _).trans (A_eq0 (V1 m ρ) c 2))
  refine W2_of_ne m ρ c b (fun w e => ?_)
  fin_cases w
  · exact h0 e.symm
  · exact h1 e.symm
  · exact h2 e.symm
  · exact hb e.symm

/-- A buffer that stretch 1 of host operations does not write holds after it what it held before. -/
theorem host1 (b : Ref sig .tc) (hb : b ∉ ([main_cst_4, main_v29, main_v30] : List (Ref sig .tc))) :
    W3 m ρ c (Proc.devRef .tc b) = W2 m ρ c (Proc.devRef .tc b) :=
  StableHlo.after_of_forall_not_mem (b := Proc.devRef .tc b) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals (refine StableHlo.devRef_ne_of_ne ?_; rintro rfl; exact hb (by decide))))

/-- Launch 1 changes its result array only: every other buffer holds after it what it held before. -/
theorem reg1 (b : Ref sig .tc) (hb : b ≠ main_v31) :
    W4 m ρ c (Proc.devRef .tc b) = W3 m ρ c (Proc.devRef .tc b) := by
  by_cases h0 : b = main_v28
  · subst h0
    exact (W4_arr m ρ c 0).trans (((dat1 (V3 m ρ) c).arrAt_in 0 rfl _).trans (A_eq1 (V3 m ρ) c 0))
  by_cases h1 : b = main_arg4
  · subst h1
    exact (W4_arr m ρ c 1).trans (((dat1 (V3 m ρ) c).arrAt_in 1 rfl _).trans (A_eq1 (V3 m ρ) c 1))
  by_cases h2 : b = main_v30
  · subst h2
    exact (W4_arr m ρ c 2).trans (((dat1 (V3 m ρ) c).arrAt_in 2 rfl _).trans (A_eq1 (V3 m ρ) c 2))
  refine W4_of_ne m ρ c b (fun w e => ?_)
  fin_cases w
  · exact h0 e.symm
  · exact h1 e.symm
  · exact h2 e.symm
  · exact hb e.symm

/-- A buffer that stretch 2 of host operations does not write holds after it what it held before. -/
theorem host2 (b : Ref sig .tc) (hb : b ∉ ([main_c_5, main_v32, main_v33, main_c_6, main_v34, main_v35, main_v36, main_v37, main_v38, main_v39, main_v40, main_v41, main_cst_7, main_v42, main_v43, main_v44, main_v45] : List (Ref sig .tc))) :
    W5 m ρ c (Proc.devRef .tc b) = W4 m ρ c (Proc.devRef .tc b) :=
  StableHlo.after_of_forall_not_mem (b := Proc.devRef .tc b) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals (refine StableHlo.devRef_ne_of_ne ?_; rintro rfl; exact hb (by decide))))

/-- Launch 2 changes its result array only: every other buffer holds after it what it held before. -/
theorem reg2 (b : Ref sig .tc) (hb : b ≠ main_v46) :
    W6 m ρ c (Proc.devRef .tc b) = W5 m ρ c (Proc.devRef .tc b) := by
  by_cases h0 : b = main_v44
  · subst h0
    exact (W6_arr m ρ c 0).trans (((dat2 (V5 m ρ) c).arrAt_in 0 rfl _).trans (A_eq2 (V5 m ρ) c 0))
  by_cases h1 : b = main_v45
  · subst h1
    exact (W6_arr m ρ c 1).trans (((dat2 (V5 m ρ) c).arrAt_in 1 rfl _).trans (A_eq2 (V5 m ρ) c 1))
  refine W6_of_ne m ρ c b (fun w e => ?_)
  fin_cases w
  · exact h0 e.symm
  · exact h1 e.symm
  · exact hb e.symm

/-- A buffer that stretch 3 of host operations does not write holds after it what it held before. -/
theorem host3 (b : Ref sig .tc) (hb : b ∉ ([main_cst_8, main_v47, main_v48] : List (Ref sig .tc))) :
    W7 m ρ c (Proc.devRef .tc b) = W6 m ρ c (Proc.devRef .tc b) :=
  StableHlo.after_of_forall_not_mem (b := Proc.devRef .tc b) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals (refine StableHlo.devRef_ne_of_ne ?_; rintro rfl; exact hb (by decide))))

/-- Launch 3 changes its result array only: every other buffer holds after it what it held before. -/
theorem reg3 (b : Ref sig .tc) (hb : b ≠ main_v49) :
    W8 m ρ c (Proc.devRef .tc b) = W7 m ρ c (Proc.devRef .tc b) := by
  by_cases h0 : b = main_v46
  · subst h0
    exact (W8_arr m ρ c 0).trans (((dat3 (V7 m ρ) c).arrAt_in 0 rfl _).trans (A_eq3 (V7 m ρ) c 0))
  by_cases h1 : b = main_arg6
  · subst h1
    exact (W8_arr m ρ c 1).trans (((dat3 (V7 m ρ) c).arrAt_in 1 rfl _).trans (A_eq3 (V7 m ρ) c 1))
  by_cases h2 : b = main_v48
  · subst h2
    exact (W8_arr m ρ c 2).trans (((dat3 (V7 m ρ) c).arrAt_in 2 rfl _).trans (A_eq3 (V7 m ρ) c 2))
  refine W8_of_ne m ρ c b (fun w e => ?_)
  fin_cases w
  · exact h0 e.symm
  · exact h1 e.symm
  · exact h2 e.symm
  · exact hb e.symm

/-- A buffer that stretch 4 of host operations does not write holds after it what it held before. -/
theorem host4 (b : Ref sig .tc) (hb : b ∉ ([main_c_9, main_v50, main_v51, main_c_10, main_v52, main_v53, main_v54, main_v55, main_v56, main_v57, main_v58, main_v59, main_cst_11, main_v60, main_v61, main_v62, main_v63] : List (Ref sig .tc))) :
    W9 m ρ c (Proc.devRef .tc b) = W8 m ρ c (Proc.devRef .tc b) :=
  StableHlo.after_of_forall_not_mem (b := Proc.devRef .tc b) _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals (refine StableHlo.devRef_ne_of_ne ?_; rintro rfl; exact hb (by decide))))

/-- Launch 4 changes its result array only: every other buffer holds after it what it held before. -/
theorem reg4 (b : Ref sig .tc) (hb : b ≠ main_v64) :
    W10 m ρ c (Proc.devRef .tc b) = W9 m ρ c (Proc.devRef .tc b) := by
  by_cases h0 : b = main_v62
  · subst h0
    exact (W10_arr m ρ c 0).trans (((dat4 (V9 m ρ) c).arrAt_in 0 rfl _).trans (A_eq4 (V9 m ρ) c 0))
  by_cases h1 : b = main_v63
  · subst h1
    exact (W10_arr m ρ c 1).trans (((dat4 (V9 m ρ) c).arrAt_in 1 rfl _).trans (A_eq4 (V9 m ρ) c 1))
  refine W10_of_ne m ρ c b (fun w e => ?_)
  fin_cases w
  · exact h0 e.symm
  · exact h1 e.symm
  · exact hb e.symm

/-- A buffer that stretch 5 of host operations does not write holds after it what it held before. -/
theorem host5 (b : Ref sig .tc) (hb : b ∉ ([main_cst_12, main_v65, main_v66] : List (Ref sig .tc))) :
    W11 m ρ c (Proc.devRef .tc b) = W10 m ρ c (Proc.devRef .tc b) :=
  StableHlo.after_of_forall_not_mem (b := Proc.devRef .tc b) _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals (refine StableHlo.devRef_ne_of_ne ?_; rintro rfl; exact hb (by decide))))

/-- Launch 5 changes its result array only: every other buffer holds after it what it held before. -/
theorem reg5 (b : Ref sig .tc) (hb : b ≠ main_v67) :
    W12 m ρ c (Proc.devRef .tc b) = W11 m ρ c (Proc.devRef .tc b) := by
  by_cases h0 : b = main_v64
  · subst h0
    exact (W12_arr m ρ c 0).trans (((dat5 (V11 m ρ) c).arrAt_in 0 rfl _).trans (A_eq5 (V11 m ρ) c 0))
  by_cases h1 : b = main_arg8
  · subst h1
    exact (W12_arr m ρ c 1).trans (((dat5 (V11 m ρ) c).arrAt_in 1 rfl _).trans (A_eq5 (V11 m ρ) c 1))
  by_cases h2 : b = main_v66
  · subst h2
    exact (W12_arr m ρ c 2).trans (((dat5 (V11 m ρ) c).arrAt_in 2 rfl _).trans (A_eq5 (V11 m ρ) c 2))
  refine W12_of_ne m ρ c b (fun w e => ?_)
  fin_cases w
  · exact h0 e.symm
  · exact h1 e.symm
  · exact h2 e.symm
  · exact hb e.symm

/-- A buffer that stretch 6 of host operations does not write holds after it what it held before. -/
theorem host6 (b : Ref sig .tc) (hb : b ∉ ([main_c_13, main_v68, main_v69, main_c_14, main_v70, main_v71, main_v72, main_v73, main_v74, main_v75, main_v76, main_v77, main_cst_15, main_v78, main_v79, main_v80, main_v81] : List (Ref sig .tc))) :
    W13 m ρ c (Proc.devRef .tc b) = W12 m ρ c (Proc.devRef .tc b) :=
  StableHlo.after_of_forall_not_mem (b := Proc.devRef .tc b) _ _ (List.forall_iff_forall_mem.mp (by
    simp only [hostOps6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals (refine StableHlo.devRef_ne_of_ne ?_; rintro rfl; exact hb (by decide))))

/-- Launch 6 changes its result array only: every other buffer holds after it what it held before. -/
theorem reg6 (b : Ref sig .tc) (hb : b ≠ main_v82) :
    W14 m ρ c (Proc.devRef .tc b) = W13 m ρ c (Proc.devRef .tc b) := by
  by_cases h0 : b = main_v80
  · subst h0
    exact (W14_arr m ρ c 0).trans (((dat6 (V13 m ρ) c).arrAt_in 0 rfl _).trans (A_eq6 (V13 m ρ) c 0))
  by_cases h1 : b = main_v81
  · subst h1
    exact (W14_arr m ρ c 1).trans (((dat6 (V13 m ρ) c).arrAt_in 1 rfl _).trans (A_eq6 (V13 m ρ) c 1))
  refine W14_of_ne m ρ c b (fun w e => ?_)
  fin_cases w
  · exact h0 e.symm
  · exact h1 e.symm
  · exact hb e.symm

/-- A buffer that stretch 7 of host operations does not write holds after it what it held before. -/
theorem host7 (b : Ref sig .tc) (hb : b ∉ ([main_v83] : List (Ref sig .tc))) :
    W15 m ρ c (Proc.devRef .tc b) = W14 m ρ c (Proc.devRef .tc b) :=
  StableHlo.after_of_forall_not_mem (b := Proc.devRef .tc b) _ _ (List.forall_iff_forall_mem.mp (by
    simp only [hostOps7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals (refine StableHlo.devRef_ne_of_ne ?_; rintro rfl; exact hb (by decide))))

/-- Launch 7 changes its result array only: every other buffer holds after it what it held before. -/
theorem reg7 (b : Ref sig .tc) (hb : b ≠ main_v84) :
    W16 m ρ c (Proc.devRef .tc b) = W15 m ρ c (Proc.devRef .tc b) := by
  by_cases h0 : b = main_v82
  · subst h0
    exact (W16_arr m ρ c 0).trans (((dat7 (V15 m ρ) c).arrAt_in 0 rfl _).trans (A_eq7 (V15 m ρ) c 0))
  by_cases h1 : b = main_arg10
  · subst h1
    exact (W16_arr m ρ c 1).trans (((dat7 (V15 m ρ) c).arrAt_in 1 rfl _).trans (A_eq7 (V15 m ρ) c 1))
  by_cases h2 : b = main_v83
  · subst h2
    exact (W16_arr m ρ c 2).trans (((dat7 (V15 m ρ) c).arrAt_in 2 rfl _).trans (A_eq7 (V15 m ρ) c 2))
  refine W16_of_ne m ρ c b (fun w e => ?_)
  fin_cases w
  · exact h0 e.symm
  · exact h1 e.symm
  · exact h2 e.symm
  · exact hb e.symm

/-- A buffer that stretch 8 of host operations does not write holds after it what it held before. -/
theorem host8 (b : Ref sig .tc) (hb : b ∉ ([main_cst_16, main_v85, main_v86] : List (Ref sig .tc))) :
    W17 m ρ c (Proc.devRef .tc b) = W16 m ρ c (Proc.devRef .tc b) :=
  StableHlo.after_of_forall_not_mem (b := Proc.devRef .tc b) _ _ (List.forall_iff_forall_mem.mp (by
    simp only [hostOps8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals (refine StableHlo.devRef_ne_of_ne ?_; rintro rfl; exact hb (by decide))))

/-- Launch 8 changes its result array only: every other buffer holds after it what it held before. -/
theorem reg8 (b : Ref sig .tc) (hb : b ≠ main_v87) :
    W18 m ρ c (Proc.devRef .tc b) = W17 m ρ c (Proc.devRef .tc b) := by
  by_cases h0 : b = main_v84
  · subst h0
    exact (W18_arr m ρ c 0).trans (((dat8 (V17 m ρ) c).arrAt_in 0 rfl _).trans (A_eq8 (V17 m ρ) c 0))
  by_cases h1 : b = main_arg12
  · subst h1
    exact (W18_arr m ρ c 1).trans (((dat8 (V17 m ρ) c).arrAt_in 1 rfl _).trans (A_eq8 (V17 m ρ) c 1))
  by_cases h2 : b = main_v86
  · subst h2
    exact (W18_arr m ρ c 2).trans (((dat8 (V17 m ρ) c).arrAt_in 2 rfl _).trans (A_eq8 (V17 m ρ) c 2))
  refine W18_of_ne m ρ c b (fun w e => ?_)
  fin_cases w
  · exact h0 e.symm
  · exact h1 e.symm
  · exact h2 e.symm
  · exact hb e.symm

/-- A buffer that stretch 9 of host operations does not write holds after it what it held before. -/
theorem host9 (b : Ref sig .tc) (hb : b ∉ ([main_c_17, main_v88, main_v89, main_c_18, main_v90, main_v91, main_v92, main_v93, main_v94, main_v95, main_v96, main_v97, main_cst_19, main_v98, main_v99, main_v100, main_v101] : List (Ref sig .tc))) :
    W19 m ρ c (Proc.devRef .tc b) = W18 m ρ c (Proc.devRef .tc b) :=
  StableHlo.after_of_forall_not_mem (b := Proc.devRef .tc b) _ _ (List.forall_iff_forall_mem.mp (by
    simp only [hostOps9, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals (refine StableHlo.devRef_ne_of_ne ?_; rintro rfl; exact hb (by decide))))

/-- Launch 9 changes its result array only: every other buffer holds after it what it held before. -/
theorem reg9 (b : Ref sig .tc) (hb : b ≠ main_v102) :
    W20 m ρ c (Proc.devRef .tc b) = W19 m ρ c (Proc.devRef .tc b) := by
  by_cases h0 : b = main_v100
  · subst h0
    exact (W20_arr m ρ c 0).trans (((dat9 (V19 m ρ) c).arrAt_in 0 rfl _).trans (A_eq9 (V19 m ρ) c 0))
  by_cases h1 : b = main_v101
  · subst h1
    exact (W20_arr m ρ c 1).trans (((dat9 (V19 m ρ) c).arrAt_in 1 rfl _).trans (A_eq9 (V19 m ρ) c 1))
  refine W20_of_ne m ρ c b (fun w e => ?_)
  fin_cases w
  · exact h0 e.symm
  · exact h1 e.symm
  · exact hb e.symm

/-- A buffer that stretch 10 of host operations does not write holds after it what it held before. -/
theorem host10 (b : Ref sig .tc) (hb : b ∉ ([main_cst_20, main_v103, main_v104] : List (Ref sig .tc))) :
    W21 m ρ c (Proc.devRef .tc b) = W20 m ρ c (Proc.devRef .tc b) :=
  StableHlo.after_of_forall_not_mem (b := Proc.devRef .tc b) _ _ (List.forall_iff_forall_mem.mp (by
    simp only [hostOps10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals (refine StableHlo.devRef_ne_of_ne ?_; rintro rfl; exact hb (by decide))))

/-- Launch 10 changes its result array only: every other buffer holds after it what it held before. -/
theorem reg10 (b : Ref sig .tc) (hb : b ≠ main_v105) :
    W22 m ρ c (Proc.devRef .tc b) = W21 m ρ c (Proc.devRef .tc b) := by
  by_cases h0 : b = main_v102
  · subst h0
    exact (W22_arr m ρ c 0).trans (((dat10 (V21 m ρ) c).arrAt_in 0 rfl _).trans (A_eq10 (V21 m ρ) c 0))
  by_cases h1 : b = main_arg14
  · subst h1
    exact (W22_arr m ρ c 1).trans (((dat10 (V21 m ρ) c).arrAt_in 1 rfl _).trans (A_eq10 (V21 m ρ) c 1))
  by_cases h2 : b = main_v104
  · subst h2
    exact (W22_arr m ρ c 2).trans (((dat10 (V21 m ρ) c).arrAt_in 2 rfl _).trans (A_eq10 (V21 m ρ) c 2))
  refine W22_of_ne m ρ c b (fun w e => ?_)
  fin_cases w
  · exact h0 e.symm
  · exact h1 e.symm
  · exact h2 e.symm
  · exact hb e.symm

/-- A buffer that stretch 11 of host operations does not write holds after it what it held before. -/
theorem host11 (b : Ref sig .tc) (hb : b ∉ ([main_c_21, main_v106, main_v107, main_c_22, main_v108, main_v109, main_v110, main_v111, main_v112, main_v113, main_v114, main_v115, main_cst_23, main_v116, main_v117, main_v118, main_v119] : List (Ref sig .tc))) :
    W23 m ρ c (Proc.devRef .tc b) = W22 m ρ c (Proc.devRef .tc b) :=
  StableHlo.after_of_forall_not_mem (b := Proc.devRef .tc b) _ _ (List.forall_iff_forall_mem.mp (by
    simp only [hostOps11, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals (refine StableHlo.devRef_ne_of_ne ?_; rintro rfl; exact hb (by decide))))

/-- Launch 11 changes its result array only: every other buffer holds after it what it held before. -/
theorem reg11 (b : Ref sig .tc) (hb : b ≠ main_v120) :
    W24 m ρ c (Proc.devRef .tc b) = W23 m ρ c (Proc.devRef .tc b) := by
  by_cases h0 : b = main_v118
  · subst h0
    exact (W24_arr m ρ c 0).trans (((dat11 (V23 m ρ) c).arrAt_in 0 rfl _).trans (A_eq11 (V23 m ρ) c 0))
  by_cases h1 : b = main_v119
  · subst h1
    exact (W24_arr m ρ c 1).trans (((dat11 (V23 m ρ) c).arrAt_in 1 rfl _).trans (A_eq11 (V23 m ρ) c 1))
  refine W24_of_ne m ρ c b (fun w e => ?_)
  fin_cases w
  · exact h0 e.symm
  · exact h1 e.symm
  · exact hb e.symm

/-- A buffer that stretch 12 of host operations does not write holds after it what it held before. -/
theorem host12 (b : Ref sig .tc) (hb : b ∉ ([main_cst_24, main_v121, main_v122] : List (Ref sig .tc))) :
    W25 m ρ c (Proc.devRef .tc b) = W24 m ρ c (Proc.devRef .tc b) :=
  StableHlo.after_of_forall_not_mem (b := Proc.devRef .tc b) _ _ (List.forall_iff_forall_mem.mp (by
    simp only [hostOps12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals (refine StableHlo.devRef_ne_of_ne ?_; rintro rfl; exact hb (by decide))))

/-- Launch 12 changes its result array only: every other buffer holds after it what it held before. -/
theorem reg12 (b : Ref sig .tc) (hb : b ≠ main_v123) :
    W26 m ρ c (Proc.devRef .tc b) = W25 m ρ c (Proc.devRef .tc b) := by
  by_cases h0 : b = main_v120
  · subst h0
    exact (W26_arr m ρ c 0).trans (((dat12 (V25 m ρ) c).arrAt_in 0 rfl _).trans (A_eq12 (V25 m ρ) c 0))
  by_cases h1 : b = main_arg16
  · subst h1
    exact (W26_arr m ρ c 1).trans (((dat12 (V25 m ρ) c).arrAt_in 1 rfl _).trans (A_eq12 (V25 m ρ) c 1))
  by_cases h2 : b = main_v122
  · subst h2
    exact (W26_arr m ρ c 2).trans (((dat12 (V25 m ρ) c).arrAt_in 2 rfl _).trans (A_eq12 (V25 m ρ) c 2))
  refine W26_of_ne m ρ c b (fun w e => ?_)
  fin_cases w
  · exact h0 e.symm
  · exact h1 e.symm
  · exact h2 e.symm
  · exact hb e.symm

/-- A buffer that stretch 13 of host operations does not write holds after it what it held before. -/
theorem host13 (b : Ref sig .tc) (hb : b ∉ ([main_c_25, main_v124, main_v125, main_c_26, main_v126, main_v127, main_v128, main_v129, main_v130, main_v131, main_v132, main_v133, main_cst_27, main_v134, main_v135, main_v136, main_v137] : List (Ref sig .tc))) :
    W27 m ρ c (Proc.devRef .tc b) = W26 m ρ c (Proc.devRef .tc b) :=
  StableHlo.after_of_forall_not_mem (b := Proc.devRef .tc b) _ _ (List.forall_iff_forall_mem.mp (by
    simp only [hostOps13, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals (refine StableHlo.devRef_ne_of_ne ?_; rintro rfl; exact hb (by decide))))

/-- Launch 13 changes its result array only: every other buffer holds after it what it held before. -/
theorem reg13 (b : Ref sig .tc) (hb : b ≠ main_v138) :
    W28 m ρ c (Proc.devRef .tc b) = W27 m ρ c (Proc.devRef .tc b) := by
  by_cases h0 : b = main_v136
  · subst h0
    exact (W28_arr m ρ c 0).trans (((dat13 (V27 m ρ) c).arrAt_in 0 rfl _).trans (A_eq13 (V27 m ρ) c 0))
  by_cases h1 : b = main_v137
  · subst h1
    exact (W28_arr m ρ c 1).trans (((dat13 (V27 m ρ) c).arrAt_in 1 rfl _).trans (A_eq13 (V27 m ρ) c 1))
  refine W28_of_ne m ρ c b (fun w e => ?_)
  fin_cases w
  · exact h0 e.symm
  · exact h1 e.symm
  · exact hb e.symm

/-- A buffer that stretch 14 of host operations does not write holds after it what it held before. -/
theorem host14 (b : Ref sig .tc) (hb : b ∉ ([main_v139] : List (Ref sig .tc))) :
    W29 m ρ c (Proc.devRef .tc b) = W28 m ρ c (Proc.devRef .tc b) :=
  StableHlo.after_of_forall_not_mem (b := Proc.devRef .tc b) _ _ (List.forall_iff_forall_mem.mp (by
    simp only [hostOps14, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals (refine StableHlo.devRef_ne_of_ne ?_; rintro rfl; exact hb (by decide))))

/-- Launch 14 changes its result array only: every other buffer holds after it what it held before. -/
theorem reg14 (b : Ref sig .tc) (hb : b ≠ main_v140) :
    W30 m ρ c (Proc.devRef .tc b) = W29 m ρ c (Proc.devRef .tc b) := by
  by_cases h0 : b = main_v138
  · subst h0
    exact (W30_arr m ρ c 0).trans (((dat14 (V29 m ρ) c).arrAt_in 0 rfl _).trans (A_eq14 (V29 m ρ) c 0))
  by_cases h1 : b = main_arg18
  · subst h1
    exact (W30_arr m ρ c 1).trans (((dat14 (V29 m ρ) c).arrAt_in 1 rfl _).trans (A_eq14 (V29 m ρ) c 1))
  by_cases h2 : b = main_v139
  · subst h2
    exact (W30_arr m ρ c 2).trans (((dat14 (V29 m ρ) c).arrAt_in 2 rfl _).trans (A_eq14 (V29 m ρ) c 2))
  refine W30_of_ne m ρ c b (fun w e => ?_)
  fin_cases w
  · exact h0 e.symm
  · exact h1 e.symm
  · exact h2 e.symm
  · exact hb e.symm

end Cert.KernelIdeal.GcnSteps

end
-- ==== Proof.LibContract.lean ====
/-
  A matrix product's contraction as a plain sum.

  A product of an [n0, K] matrix with a [K, n1] matrix whose dimension numbers contract the left operand's
  second axis with the right operand's first sums, at the result index (r, c), over the positions of a
  one-axis contraction shape. Re-indexed by that axis' coordinate it is the textbook sum
  ∑ k < K, l (r, k) · r (k, c). The statement is for any dimension record of those shapes: what the record
  owes is that it has one contracting axis of extent K (left axis 1, right axis 0) and that the two free
  axes read the result's coordinates.
-/
import Idealize.ShloMosaic.Lib.ValueIdx

noncomputable section

open scoped BigOperators

namespace Idealize.ShloMosaic.Contract2

open Idealize.ShloMosaic Idealize.ShloMosaic.ValueIdx

/-- The contraction sum of a matrix product at a result index is the sum over the shared coordinate. -/
theorem sum_contr_eq_sum_fin {n0 n1 K : ℕ} {M : Type*} [AddCommMonoid M] [Mul M]
    (D : DotDims (⟨2, ![n0, K]⟩ : Shape) (⟨2, ![K, n1]⟩ : Shape) (⟨2, ![n0, n1]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (l : (⟨2, ![n0, K]⟩ : Shape).Idx → M) (r : (⟨2, ![K, n1]⟩ : Shape).Idx → M) (j : (⟨2, ![n0, n1]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have h1 := D.lhsIdx_val_of_single hlc j ((contrEquiv1 D K hr hs).symm k)
  have h2 := D.rhsIdx_val_of_single hrc j ((contrEquiv1 D K hr hs).symm k)
  have el : D.lhsIdx j ((contrEquiv1 D K hr hs).symm k) = ix2 (j 0) k := funext fun a => Fin.ext (by
    match a with
    | ⟨0, _⟩ => exact hl0 _ _
    | ⟨1, _⟩ => exact h1.trans hk)
  have er : D.rhsIdx j ((contrEquiv1 D K hr hs).symm k) = ix2 k (j 1) := funext fun a => Fin.ext (by
    match a with
    | ⟨0, _⟩ => exact h2.trans hk
    | ⟨1, _⟩ => exact hr1 _ _)
  exact congrArg₂ (· * ·) (congrArg l el) (congrArg r er)

end Idealize.ShloMosaic.Contract2

end
-- ==== Proof.LibDenseRow.lean ====
/-
  A dense layer of a graph network read at an entry, in the two spellings a program gives it.

  For a feature matrix x : [n, K], weights w : [K, N] and a bias row b : [1, N], entry (r, j) of the layer is
  (∑ k, x (r, k) · w (k, j)) + b (0, j). A vector program computes it as a matrix product into the zero
  accumulator plus the bias row spread over the n rows; a host program as a dot_general plus the bias row
  broadcast along axis 0. Both are that sum at every entry. The same holds for the bias step alone,
  x (r, j) + b (0, j). A bias row that is zero everywhere adds nothing, on every extended real.
  A vector [N] set under a unit axis by a reshape or by a broadcast is the same row.
-/
import Idealize.ShloMosaic.Lib.ValueIdx
import Idealize.ShloMosaic.Lib.ValueLayout
import Idealize.ShloMosaic.Lib.Pipeline.Value
import Idealize.ShloMosaic.PureOps.Ideal.Laws
import proofs.«160013_j34815004902081_1_alg».proof.Proof.LibContract

noncomputable section

open scoped BigOperators

namespace Idealize.ShloMosaic.GcnDense

open Idealize.ShloMosaic Idealize.ShloMosaic.ValueIdx

/-- Entry (r, j) of x · w + b for a bias row b : [1, N]. -/
def entry {n K N : ℕ} (x : (⟨2, ![n, K]⟩ : Shape).Idx → EReal) (w : (⟨2, ![K, N]⟩ : Shape).Idx → EReal)
    (b : (⟨2, ![1, N]⟩ : Shape).Idx → EReal) (r : Fin n) (j : Fin N) : EReal :=
  (∑ k : Fin K, x (ix2 r k) * w (ix2 k j)) + b (ix2 (0 : Fin 1) j)

/-- An entry of the layer depends on row r of x, column j of w and entry j of the bias only, whatever the row counts. -/
theorem entry_congr {n n' K N : ℕ} (x : (⟨2, ![n, K]⟩ : Shape).Idx → EReal) (w : (⟨2, ![K, N]⟩ : Shape).Idx → EReal)
    (b : (⟨2, ![1, N]⟩ : Shape).Idx → EReal) (x' : (⟨2, ![n', K]⟩ : Shape).Idx → EReal) (w' : (⟨2, ![K, N]⟩ : Shape).Idx → EReal)
    (b' : (⟨2, ![1, N]⟩ : Shape).Idx → EReal) (r : Fin n) (r' : Fin n') (j : Fin N)
    (h0 : ∀ k, x (ix2 r k) = x' (ix2 r' k)) (h1 : ∀ k, w (ix2 k j) = w' (ix2 k j))
    (h2 : b (ix2 (0 : Fin 1) j) = b' (ix2 (0 : Fin 1) j)) :
    entry x w b r j = entry x' w' b' r' j := by
  unfold entry
  rw [h2]
  exact congrArg (· + b' (ix2 (0 : Fin 1) j)) (Finset.sum_congr rfl fun k _ => by rw [h0 k, h1 k])

/-- A bias row broadcast along axis 0 reads, at (r, j), the row's entry j. -/
theorem bias_rows_apply {α : Type} {n N : ℕ} (h2 : (⟨2, ![1, N]⟩ : Shape).BroadcastsInDim ⟨2, ![n, N]⟩ ![0, 1])
    (b : (⟨2, ![1, N]⟩ : Shape).Idx → α) (r : Fin n) (j : Fin N) :
    broadcastInDim (⟨2, ![n, N]⟩ : Shape) ![0, 1] h2 b (ix2 r j) = b (ix2 (0 : Fin 1) j) := by
  refine broadcastInDim_apply _ h2 b (ix2 r j) (ix2 (0 : Fin 1) j) (fun x => ?_)
  match x with
  | ⟨0, _⟩ =>
    show 0 = if (1 : Nat) = 1 then 0 else r.val
    rw [if_pos rfl]
  | ⟨1, _⟩ =>
    show j.val = if N = 1 then 0 else j.val
    split_ifs with h
    · have := j.isLt; omega
    · rfl

/-- The layer as a vector program computes it. -/
theorem kernel_layer_apply {n K N : ℕ} {φ₁ φ₂ : FTy}
    (D : DotDims (⟨2, ![n, K]⟩ : Shape) (⟨2, ![K, N]⟩ : Shape) (⟨2, ![n, N]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (prec : Option ContractPrecision)
    (x : FVec Ideal (⟨2, ![n, K]⟩ : Shape) φ₁) (w : FVec Ideal (⟨2, ![K, N]⟩ : Shape) φ₂)
    (b : FVec Ideal (⟨2, ![1, N]⟩ : Shape) .f32)
    (hc : (⟨2, ![1, N]⟩ : Shape).ShapeCasts ⟨2, ![1, N]⟩) (hb : (⟨2, ![1, N]⟩ : Shape).Broadcasts ⟨2, ![n, N]⟩)
    (r : Fin n) (j : Fin N) :
    addf (matmul D prec x w (constant (F := Ideal) (⟨2, ![n, N]⟩ : Shape) .f32 0x00000000#32))
        (broadcastTo (⟨2, ![n, N]⟩ : Shape) (shapeCast (⟨2, ![1, N]⟩ : Shape) b hc) hb) (ix2 r j)
      = entry x w b r j := by
  rw [addf_apply, broadcastTo_1b_ab_apply, shapeCast_self]
  refine congrArg (· + b (ix2 (0 : Fin 1) j)) ?_
  refine (Ideal.matmul_constant_zero_apply D prec x w (ix2 r j)).trans ?_
  exact Contract2.sum_contr_eq_sum_fin D hr hs hlc hrc hl0 hr1 x w (ix2 r j)

/-- The layer as a host program computes it. -/
theorem host_layer_apply {n K N : ℕ} {φ₁ φ₂ : FTy}
    (D : DotDims (⟨2, ![n, K]⟩ : Shape) (⟨2, ![K, N]⟩ : Shape) (⟨2, ![n, N]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (prec : Option ContractPrecision)
    (x : FVec Ideal (⟨2, ![n, K]⟩ : Shape) φ₁) (w : FVec Ideal (⟨2, ![K, N]⟩ : Shape) φ₂)
    (b : FVec Ideal (⟨2, ![1, N]⟩ : Shape) .f32)
    (h2 : (⟨2, ![1, N]⟩ : Shape).BroadcastsInDim ⟨2, ![n, N]⟩ ![0, 1])
    (r : Fin n) (j : Fin N) :
    addf (Host.dotGeneral D prec x w) (broadcastInDim (⟨2, ![n, N]⟩ : Shape) ![0, 1] h2 b) (ix2 r j)
      = entry x w b r j := by
  rw [addf_apply, bias_rows_apply h2 b r j]
  refine congrArg (· + b (ix2 (0 : Fin 1) j)) ?_
  simp only [Host.dotGeneral]
  refine (Ideal.dotGeneral_apply D prec _ x w (ix2 r j)).trans ?_
  exact Contract2.sum_contr_eq_sum_fin D hr hs hlc hrc hl0 hr1 x w (ix2 r j)

/-- The bias step as a vector program computes it: x (r, j) + b (0, j). -/
theorem kernel_bias_apply {n N : ℕ}
    (x : FVec Ideal (⟨2, ![n, N]⟩ : Shape) .f32) (b : FVec Ideal (⟨2, ![1, N]⟩ : Shape) .f32)
    (hx : (⟨2, ![n, N]⟩ : Shape).ShapeCasts ⟨2, ![n, N]⟩)
    (hc : (⟨2, ![1, N]⟩ : Shape).ShapeCasts ⟨2, ![1, N]⟩) (hb : (⟨2, ![1, N]⟩ : Shape).Broadcasts ⟨2, ![n, N]⟩)
    (r : Fin n) (j : Fin N) :
    addf (shapeCast (⟨2, ![n, N]⟩ : Shape) x hx)
        (broadcastTo (⟨2, ![n, N]⟩ : Shape) (shapeCast (⟨2, ![1, N]⟩ : Shape) b hc) hb) (ix2 r j)
      = x (ix2 r j) + b (ix2 (0 : Fin 1) j) := by
  rw [addf_apply, broadcastTo_1b_ab_apply, shapeCast_self, shapeCast_self]

/-- The bias step as a host program computes it. -/
theorem host_bias_apply {n N : ℕ}
    (x : FVec Ideal (⟨2, ![n, N]⟩ : Shape) .f32) (b : FVec Ideal (⟨2, ![1, N]⟩ : Shape) .f32)
    (h2 : (⟨2, ![1, N]⟩ : Shape).BroadcastsInDim ⟨2, ![n, N]⟩ ![0, 1]) (r : Fin n) (j : Fin N) :
    addf x (broadcastInDim (⟨2, ![n, N]⟩ : Shape) ![0, 1] h2 b) (ix2 r j) = x (ix2 r j) + b (ix2 (0 : Fin 1) j) := by
  rw [addf_apply, bias_rows_apply h2 b r j]

/-- A vector set under a unit axis by a reshape is the vector set there by a broadcast. -/
theorem row_reshape_eq_broadcast {α : Type} {N : ℕ} (v : (⟨1, ![N]⟩ : Shape).Idx → α)
    (hc : (⟨1, ![N]⟩ : Shape).ShapeCasts ⟨2, ![1, N]⟩) (h1 : (⟨1, ![N]⟩ : Shape).BroadcastsInDim ⟨2, ![1, N]⟩ ![1]) :
    shapeCast (⟨2, ![1, N]⟩ : Shape) v hc = broadcastInDim (⟨2, ![1, N]⟩ : Shape) ![1] h1 v := by
  funext i
  obtain ⟨p, q, rfl⟩ : ∃ (p : Fin 1) (q : Fin N), i = ix2 p q := ⟨i 0, i 1, eq_ix2 i⟩
  have hp : p = 0 := Subsingleton.elim _ _
  subst hp
  rw [shapeCast_a_1a_apply]
  refine (broadcastInDim_apply _ h1 v (ix2 (0 : Fin 1) q) (ix1 q) (fun x => ?_)).symm
  match x with
  | ⟨0, _⟩ =>
    show q.val = if N = 1 then 0 else q.val
    split_ifs with h
    · have := q.isLt; omega
    · rfl

/-- Adding a bias row that is the zero constant, spread from a scalar to [N], set under a unit axis and broadcast
    down the rows, changes nothing: x + 0 = x on every extended real. -/
theorem add_zero_row {n N : ℕ} (x : FVec Ideal (⟨2, ![n, N]⟩ : Shape) .f32)
    (h0 : (⟨0, ![]⟩ : Shape).BroadcastsInDim ⟨1, ![N]⟩ ![])
    (hc : (⟨1, ![N]⟩ : Shape).ShapeCasts ⟨2, ![1, N]⟩)
    (h2 : (⟨2, ![1, N]⟩ : Shape).BroadcastsInDim ⟨2, ![n, N]⟩ ![0, 1]) :
    addf x (broadcastInDim (⟨2, ![n, N]⟩ : Shape) ![0, 1] h2
      (shapeCast (⟨2, ![1, N]⟩ : Shape)
        (broadcastInDim (⟨1, ![N]⟩ : Shape) ![] h0 (constant (F := Ideal) (⟨0, ![]⟩ : Shape) .f32 0x00000000#32)) hc)) = x := by
  funext i
  obtain ⟨r, j, rfl⟩ : ∃ (r : Fin n) (j : Fin N), i = ix2 r j := ⟨i 0, i 1, eq_ix2 i⟩
  rw [addf_apply, bias_rows_apply h2 _ r j, shapeCast_a_1a_apply]
  rw [broadcastInDim_apply _ h0 _ (ix1 j) (fun a => a.elim0) (fun a => a.elim0)]
  rw [constant_apply, Ideal.ofBits_zero_f32, add_zero]

end Idealize.ShloMosaic.GcnDense

end
-- ==== Proof.Spec.lean ====
/-
  The graph autoencoder as one composition of whole-array functions.

  Nodes carry feature rows; the edge list (source row, destination row of a [2, E] integer array) is extended by
  one self-loop per node. With deg the number of extended edges into a node, an extended edge e from s to d has
  weight norm e = deg(s)^(-1/2) · deg(d)^(-1/2). One graph-convolution layer sends features h to
  agg (h · W) + b, where agg gathers the projected row of every edge's source, scales it by the edge's weight and
  adds it into the edge's destination row. The encoder is a dense layer with tanh, three convolutions with tanh
  and a dense layer; the decoder three convolutions (tanh after the first two) and a dense layer. The four
  results are the reconstruction, the code z, the encoder's last hidden features and the decoder's last
  hidden features.

  Every function here is spelt with the host operations of the reference program, so that the reference's
  result terms are these compositions syntactically; the dense and bias layers are also read at an entry.
-/
import proofs.«160013_j34815004902081_1_alg».proof.Proof.Gen.ReferenceIdeal
import proofs.«160013_j34815004902081_1_alg».proof.Proof.LibDenseRow

noncomputable section

namespace Cert.GcnSpec

open Idealize.ShloMosaic Idealize.ShloMosaic.ValueIdx Cert.ReferenceIdeal Cert.ReferenceIdeal.Gen

/-! ## The edge list with self-loops, and the edge weights -/

/-- Row `k` of the edge array followed by the node numbers 0 … N−1 (the self-loops). -/
def endpoints (k : Fin 2 → Nat) (hk : S2x1600000.Slices k S1x1600000) (ei : IVec S2x1600000 32) : IVec S1650000 32 :=
  concatenate S1650000 0 [⟨S1600000, (shapeCast _ (extractStridedSlice S1x1600000 k ei hk) shapeCasts_S1x1600000_S1600000)⟩, ⟨S50000, (iotaInDim S50000 32 0)⟩] concatenates_S1600000_S50000_S1650000_d0

/-- The source node of every extended edge. -/
def src (ei : IVec S2x1600000 32) : IVec S1650000 32 := endpoints ![0, 0] slices_S2x1600000_S1x1600000_0_0 ei
/-- The destination node of every extended edge. -/
def dst (ei : IVec S2x1600000 32) : IVec S1650000 32 := endpoints ![1, 0] slices_S2x1600000_S1x1600000_1_0 ei

/-- An index vector as a gather's index column: a negative index counts from the end. -/
def wrapCol (v : IVec S1650000 32) : IVec S1650000x1 32 :=
  broadcastInDim S1650000x1 ![0] bcast_S1650000_S1650000x1_0
    (select (cmpi .slt v (broadcastInDim S1650000 ![] bcast_S_S1650000 (constantI S_ 32 0#32)))
      (addi v (broadcastInDim S1650000 ![] bcast_S_S1650000 (constantI S_ 32 50000#32))) v)

/-- An index vector as a scatter's index column. -/
def col (v : IVec S1650000 32) : IVec S1650000x1 32 :=
  broadcastInDim S1650000x1 ![0] bcast_S1650000_S1650000x1_0 v

/-- deg^(-1/2) per node: ones added into each edge's destination, then the reciprocal square root. -/
def dinv (ei : IVec S2x1600000 32) : FVec Ideal S50000 .f32 :=
  Host.rsqrt (Host.scatterAdd scatter_S50000_S1650000x1_S1650000_n_0_0_1
    (broadcastInDim S50000 ![] bcast_S_S50000 (constant S_ .f32 0x00000000#32)) (col (dst ei))
    (broadcastInDim S1650000 ![] bcast_S_S1650000 (constant S_ .f32 0x3F800000#32)))

/-- The weight of every extended edge. -/
def norm (ei : IVec S2x1600000 32) : FVec Ideal S1650000 .f32 :=
  mulf (Host.gather gather_S50000_S1650000x1_S1650000_n_0_n_n_0_1_1 (dinv ei) (wrapCol (src ei)))
    (Host.gather gather_S50000_S1650000x1_S1650000_n_0_n_n_0_1_1 (dinv ei) (wrapCol (dst ei)))

/-! ## Aggregation over the edges -/

/-- Weighted sum of the source rows into the destination rows, width 64. -/
def agg64 (s d : IVec S1650000 32) (nrm : FVec Ideal S1650000 .f32) (h : FVec Ideal S50000x64 .f32) : FVec Ideal S50000x64 .f32 :=
  Host.scatterAdd scatter_S50000x64_S1650000x1_S1650000x64_1_0_0_1
    (broadcastInDim S50000x64 ![] bcast_S_S50000x64 (constant S_ .f32 0x00000000#32)) (col d)
    (mulf (Host.gather gather_S50000x64_S1650000x1_S1650000x64_1_0_n_n_0_1_164 h (wrapCol s))
      (broadcastInDim S1650000x64 ![0, 1] bcast_S1650000x1_S1650000x64_0_1 (broadcastInDim S1650000x1 ![0] bcast_S1650000_S1650000x1_0 nrm)))

/-- Weighted sum of the source rows into the destination rows, width 7. -/
def agg7 (s d : IVec S1650000 32) (nrm : FVec Ideal S1650000 .f32) (h : FVec Ideal S50000x7 .f32) : FVec Ideal S50000x7 .f32 :=
  Host.scatterAdd scatter_S50000x7_S1650000x1_S1650000x7_1_0_0_1
    (broadcastInDim S50000x7 ![] bcast_S_S50000x7 (constant S_ .f32 0x00000000#32)) (col d)
    (mulf (Host.gather gather_S50000x7_S1650000x1_S1650000x7_1_0_n_n_0_1_17 h (wrapCol s))
      (broadcastInDim S1650000x7 ![0, 1] bcast_S1650000x1_S1650000x7_0_1 (broadcastInDim S1650000x1 ![0] bcast_S1650000_S1650000x1_0 nrm)))

/-! ## Dense and bias layers, the bias a row [1, N] -/

def row64 (b : FVec Ideal S64 .f32) : FVec Ideal S1x64 .f32 := broadcastInDim S1x64 ![1] bcast_S64_S1x64_1 b
def row7 (b : FVec Ideal S7 .f32) : FVec Ideal S1x7 .f32 := broadcastInDim S1x7 ![1] bcast_S7_S1x7_1 b

def rows64 (b : FVec Ideal S1x64 .f32) : FVec Ideal S50000x64 .f32 := broadcastInDim S50000x64 ![0, 1] bcast_S1x64_S50000x64_0_1 b
def rows7 (b : FVec Ideal S1x7 .f32) : FVec Ideal S50000x7 .f32 := broadcastInDim S50000x7 ![0, 1] bcast_S1x7_S50000x7_0_1 b

def dot7x64 (x : FVec Ideal S50000x7 .f32) (w : FVec Ideal S7x64 .f32) : FVec Ideal S50000x64 .f32 :=
  Host.dotGeneral dot_S50000x7_S7x64_S50000x64_1_0_0_1_n_n none x w
def dot64x64 (x : FVec Ideal S50000x64 .f32) (w : FVec Ideal S64x64 .f32) : FVec Ideal S50000x64 .f32 :=
  Host.dotGeneral dot_S50000x64_S64x64_S50000x64_1_0_0_1_n_n none x w
def dot64x7 (x : FVec Ideal S50000x64 .f32) (w : FVec Ideal S64x7 .f32) : FVec Ideal S50000x7 .f32 :=
  Host.dotGeneral dot_S50000x64_S64x7_S50000x7_1_0_0_1_n_n none x w
def dot7x7 (x : FVec Ideal S50000x7 .f32) (w : FVec Ideal S7x7 .f32) : FVec Ideal S50000x7 .f32 :=
  Host.dotGeneral dot_S50000x7_S7x7_S50000x7_1_0_0_1_n_n none x w

theorem dot_S50000x7_S7x64_S50000x64_1_0_0_1_n_n_l (j : S50000x64.Idx) (q : dot_S50000x7_S7x64_S50000x64_1_0_0_1_n_n.contr.Idx) : (dot_S50000x7_S7x64_S50000x64_1_0_0_1_n_n.lhsIdx j q 0).val = (j 0).val := by
  unfold DotDims.lhsIdx
  rw [dif_neg (show ¬(0 : Fin S50000x7.rank) ∈ dot_S50000x7_S7x64_S50000x64_1_0_0_1_n_n.lhsBatch by decide), dif_pos (show (0 : Fin S50000x7.rank) ∈ dot_S50000x7_S7x64_S50000x64_1_0_0_1_n_n.lhsNonContracting by decide)]
  rfl
theorem dot_S50000x7_S7x64_S50000x64_1_0_0_1_n_n_r (j : S50000x64.Idx) (q : dot_S50000x7_S7x64_S50000x64_1_0_0_1_n_n.contr.Idx) : (dot_S50000x7_S7x64_S50000x64_1_0_0_1_n_n.rhsIdx j q 1).val = (j 1).val := by
  unfold DotDims.rhsIdx
  rw [dif_neg (show ¬(1 : Fin S7x64.rank) ∈ dot_S50000x7_S7x64_S50000x64_1_0_0_1_n_n.rhsBatch by decide), dif_pos (show (1 : Fin S7x64.rank) ∈ dot_S50000x7_S7x64_S50000x64_1_0_0_1_n_n.rhsNonContracting by decide)]
  rfl

/-- The dense layer [50000, 7] · [7, 64] + bias row. -/
def layer7x64 (x : FVec Ideal S50000x7 .f32) (w : FVec Ideal S7x64 .f32) (b : FVec Ideal S1x64 .f32) : FVec Ideal S50000x64 .f32 :=
  addf (dot7x64 x w) (rows64 b)

theorem layer7x64_apply (x : FVec Ideal S50000x7 .f32) (w : FVec Ideal S7x64 .f32) (b : FVec Ideal S1x64 .f32) (r : Fin 50000) (j : Fin 64) :
    layer7x64 x w b (ix2 r j) = GcnDense.entry x w b r j :=
  GcnDense.host_layer_apply (φ₁ := .f32) (φ₂ := .f32) dot_S50000x7_S7x64_S50000x64_1_0_0_1_n_n rfl rfl rfl rfl dot_S50000x7_S7x64_S50000x64_1_0_0_1_n_n_l dot_S50000x7_S7x64_S50000x64_1_0_0_1_n_n_r none x w b bcast_S1x64_S50000x64_0_1 r j

theorem dot_S50000x64_S64x64_S50000x64_1_0_0_1_n_n_l (j : S50000x64.Idx) (q : dot_S50000x64_S64x64_S50000x64_1_0_0_1_n_n.contr.Idx) : (dot_S50000x64_S64x64_S50000x64_1_0_0_1_n_n.lhsIdx j q 0).val = (j 0).val := by
  unfold DotDims.lhsIdx
  rw [dif_neg (show ¬(0 : Fin S50000x64.rank) ∈ dot_S50000x64_S64x64_S50000x64_1_0_0_1_n_n.lhsBatch by decide), dif_pos (show (0 : Fin S50000x64.rank) ∈ dot_S50000x64_S64x64_S50000x64_1_0_0_1_n_n.lhsNonContracting by decide)]
  rfl
theorem dot_S50000x64_S64x64_S50000x64_1_0_0_1_n_n_r (j : S50000x64.Idx) (q : dot_S50000x64_S64x64_S50000x64_1_0_0_1_n_n.contr.Idx) : (dot_S50000x64_S64x64_S50000x64_1_0_0_1_n_n.rhsIdx j q 1).val = (j 1).val := by
  unfold DotDims.rhsIdx
  rw [dif_neg (show ¬(1 : Fin S64x64.rank) ∈ dot_S50000x64_S64x64_S50000x64_1_0_0_1_n_n.rhsBatch by decide), dif_pos (show (1 : Fin S64x64.rank) ∈ dot_S50000x64_S64x64_S50000x64_1_0_0_1_n_n.rhsNonContracting by decide)]
  rfl

/-- The dense layer [50000, 64] · [64, 64] + bias row. -/
def layer64x64 (x : FVec Ideal S50000x64 .f32) (w : FVec Ideal S64x64 .f32) (b : FVec Ideal S1x64 .f32) : FVec Ideal S50000x64 .f32 :=
  addf (dot64x64 x w) (rows64 b)

theorem layer64x64_apply (x : FVec Ideal S50000x64 .f32) (w : FVec Ideal S64x64 .f32) (b : FVec Ideal S1x64 .f32) (r : Fin 50000) (j : Fin 64) :
    layer64x64 x w b (ix2 r j) = GcnDense.entry x w b r j :=
  GcnDense.host_layer_apply (φ₁ := .f32) (φ₂ := .f32) dot_S50000x64_S64x64_S50000x64_1_0_0_1_n_n rfl rfl rfl rfl dot_S50000x64_S64x64_S50000x64_1_0_0_1_n_n_l dot_S50000x64_S64x64_S50000x64_1_0_0_1_n_n_r none x w b bcast_S1x64_S50000x64_0_1 r j

theorem dot_S50000x64_S64x7_S50000x7_1_0_0_1_n_n_l (j : S50000x7.Idx) (q : dot_S50000x64_S64x7_S50000x7_1_0_0_1_n_n.contr.Idx) : (dot_S50000x64_S64x7_S50000x7_1_0_0_1_n_n.lhsIdx j q 0).val = (j 0).val := by
  unfold DotDims.lhsIdx
  rw [dif_neg (show ¬(0 : Fin S50000x64.rank) ∈ dot_S50000x64_S64x7_S50000x7_1_0_0_1_n_n.lhsBatch by decide), dif_pos (show (0 : Fin S50000x64.rank) ∈ dot_S50000x64_S64x7_S50000x7_1_0_0_1_n_n.lhsNonContracting by decide)]
  rfl
theorem dot_S50000x64_S64x7_S50000x7_1_0_0_1_n_n_r (j : S50000x7.Idx) (q : dot_S50000x64_S64x7_S50000x7_1_0_0_1_n_n.contr.Idx) : (dot_S50000x64_S64x7_S50000x7_1_0_0_1_n_n.rhsIdx j q 1).val = (j 1).val := by
  unfold DotDims.rhsIdx
  rw [dif_neg (show ¬(1 : Fin S64x7.rank) ∈ dot_S50000x64_S64x7_S50000x7_1_0_0_1_n_n.rhsBatch by decide), dif_pos (show (1 : Fin S64x7.rank) ∈ dot_S50000x64_S64x7_S50000x7_1_0_0_1_n_n.rhsNonContracting by decide)]
  rfl

/-- The dense layer [50000, 64] · [64, 7] + bias row. -/
def layer64x7 (x : FVec Ideal S50000x64 .f32) (w : FVec Ideal S64x7 .f32) (b : FVec Ideal S1x7 .f32) : FVec Ideal S50000x7 .f32 :=
  addf (dot64x7 x w) (rows7 b)

theorem layer64x7_apply (x : FVec Ideal S50000x64 .f32) (w : FVec Ideal S64x7 .f32) (b : FVec Ideal S1x7 .f32) (r : Fin 50000) (j : Fin 7) :
    layer64x7 x w b (ix2 r j) = GcnDense.entry x w b r j :=
  GcnDense.host_layer_apply (φ₁ := .f32) (φ₂ := .f32) dot_S50000x64_S64x7_S50000x7_1_0_0_1_n_n rfl rfl rfl rfl dot_S50000x64_S64x7_S50000x7_1_0_0_1_n_n_l dot_S50000x64_S64x7_S50000x7_1_0_0_1_n_n_r none x w b bcast_S1x7_S50000x7_0_1 r j

theorem dot_S50000x7_S7x7_S50000x7_1_0_0_1_n_n_l (j : S50000x7.Idx) (q : dot_S50000x7_S7x7_S50000x7_1_0_0_1_n_n.contr.Idx) : (dot_S50000x7_S7x7_S50000x7_1_0_0_1_n_n.lhsIdx j q 0).val = (j 0).val := by
  unfold DotDims.lhsIdx
  rw [dif_neg (show ¬(0 : Fin S50000x7.rank) ∈ dot_S50000x7_S7x7_S50000x7_1_0_0_1_n_n.lhsBatch by decide), dif_pos (show (0 : Fin S50000x7.rank) ∈ dot_S50000x7_S7x7_S50000x7_1_0_0_1_n_n.lhsNonContracting by decide)]
  rfl
theorem dot_S50000x7_S7x7_S50000x7_1_0_0_1_n_n_r (j : S50000x7.Idx) (q : dot_S50000x7_S7x7_S50000x7_1_0_0_1_n_n.contr.Idx) : (dot_S50000x7_S7x7_S50000x7_1_0_0_1_n_n.rhsIdx j q 1).val = (j 1).val := by
  unfold DotDims.rhsIdx
  rw [dif_neg (show ¬(1 : Fin S7x7.rank) ∈ dot_S50000x7_S7x7_S50000x7_1_0_0_1_n_n.rhsBatch by decide), dif_pos (show (1 : Fin S7x7.rank) ∈ dot_S50000x7_S7x7_S50000x7_1_0_0_1_n_n.rhsNonContracting by decide)]
  rfl

/-- The dense layer [50000, 7] · [7, 7] + bias row. -/
def layer7x7 (x : FVec Ideal S50000x7 .f32) (w : FVec Ideal S7x7 .f32) (b : FVec Ideal S1x7 .f32) : FVec Ideal S50000x7 .f32 :=
  addf (dot7x7 x w) (rows7 b)

theorem layer7x7_apply (x : FVec Ideal S50000x7 .f32) (w : FVec Ideal S7x7 .f32) (b : FVec Ideal S1x7 .f32) (r : Fin 50000) (j : Fin 7) :
    layer7x7 x w b (ix2 r j) = GcnDense.entry x w b r j :=
  GcnDense.host_layer_apply (φ₁ := .f32) (φ₂ := .f32) dot_S50000x7_S7x7_S50000x7_1_0_0_1_n_n rfl rfl rfl rfl dot_S50000x7_S7x7_S50000x7_1_0_0_1_n_n_l dot_S50000x7_S7x7_S50000x7_1_0_0_1_n_n_r none x w b bcast_S1x7_S50000x7_0_1 r j

/-- The bias step on [50000, 64]. -/
def bias64 (x : FVec Ideal S50000x64 .f32) (b : FVec Ideal S1x64 .f32) : FVec Ideal S50000x64 .f32 := addf x (rows64 b)

theorem bias64_apply (x : FVec Ideal S50000x64 .f32) (b : FVec Ideal S1x64 .f32) (r : Fin 50000) (j : Fin 64) :
    bias64 x b (ix2 r j) = x (ix2 r j) + b (ix2 (0 : Fin 1) j) :=
  GcnDense.host_bias_apply x b bcast_S1x64_S50000x64_0_1 r j

/-- The bias step on [50000, 7]. -/
def bias7 (x : FVec Ideal S50000x7 .f32) (b : FVec Ideal S1x7 .f32) : FVec Ideal S50000x7 .f32 := addf x (rows7 b)

theorem bias7_apply (x : FVec Ideal S50000x7 .f32) (b : FVec Ideal S1x7 .f32) (r : Fin 50000) (j : Fin 7) :
    bias7 x b (ix2 r j) = x (ix2 r j) + b (ix2 (0 : Fin 1) j) :=
  GcnDense.host_bias_apply x b bcast_S1x7_S50000x7_0_1 r j

/-! ## The network -/

/-- The encoder's input layer: tanh (x · W + b). -/
def enc0 (x : FVec Ideal S50000x7 .f32) (w : FVec Ideal S7x64 .f32) (b : FVec Ideal S64 .f32) : FVec Ideal S50000x64 .f32 :=
  Host.tanh (layer7x64 x w (row64 b))

/-- One graph convolution of width 64 before its activation: agg (h · W) + b. -/
def conv64 (s d : IVec S1650000 32) (nrm : FVec Ideal S1650000 .f32) (h : FVec Ideal S50000x64 .f32) (w : FVec Ideal S64x64 .f32) (b : FVec Ideal S64 .f32) : FVec Ideal S50000x64 .f32 :=
  bias64 (agg64 s d nrm (dot64x64 h w)) (row64 b)

/-- The last convolution, to width 7: agg (h · W) + b. -/
def conv7 (s d : IVec S1650000 32) (nrm : FVec Ideal S1650000 .f32) (h : FVec Ideal S50000x64 .f32) (w : FVec Ideal S64x7 .f32) (b : FVec Ideal S7 .f32) : FVec Ideal S50000x7 .f32 :=
  bias7 (agg7 s d nrm (dot64x7 h w)) (row7 b)

/-- The encoder's last hidden features. -/
def hidL (ei : IVec S2x1600000 32) (x : FVec Ideal S50000x7 .f32) (w0 : FVec Ideal S7x64 .f32) (b0 : FVec Ideal S64 .f32) (w1 : FVec Ideal S64x64 .f32) (b1 : FVec Ideal S64 .f32) (w2 : FVec Ideal S64x64 .f32) (b2 : FVec Ideal S64 .f32) (w3 : FVec Ideal S64x64 .f32) (b3 : FVec Ideal S64 .f32) : FVec Ideal S50000x64 .f32 :=
  Host.tanh (conv64 (src ei) (dst ei) (norm ei) (Host.tanh (conv64 (src ei) (dst ei) (norm ei) (Host.tanh (conv64 (src ei) (dst ei) (norm ei) (enc0 x w0 b0) w1 b1)) w2 b2)) w3 b3)

/-- The code. -/
def code (ei : IVec S2x1600000 32) (x : FVec Ideal S50000x7 .f32) (w0 : FVec Ideal S7x64 .f32) (b0 : FVec Ideal S64 .f32) (w1 : FVec Ideal S64x64 .f32) (b1 : FVec Ideal S64 .f32) (w2 : FVec Ideal S64x64 .f32) (b2 : FVec Ideal S64 .f32) (w3 : FVec Ideal S64x64 .f32) (b3 : FVec Ideal S64 .f32) (w4 : FVec Ideal S64x64 .f32) (b4 : FVec Ideal S64 .f32) : FVec Ideal S50000x64 .f32 :=
  layer64x64 (hidL ei x w0 b0 w1 b1 w2 b2 w3 b3) w4 (row64 b4)

/-- The decoder's last hidden features. -/
def decL (ei : IVec S2x1600000 32) (x : FVec Ideal S50000x7 .f32) (w0 : FVec Ideal S7x64 .f32) (b0 : FVec Ideal S64 .f32) (w1 : FVec Ideal S64x64 .f32) (b1 : FVec Ideal S64 .f32) (w2 : FVec Ideal S64x64 .f32) (b2 : FVec Ideal S64 .f32) (w3 : FVec Ideal S64x64 .f32) (b3 : FVec Ideal S64 .f32) (w4 : FVec Ideal S64x64 .f32) (b4 : FVec Ideal S64 .f32) (w5 : FVec Ideal S64x64 .f32) (b5 : FVec Ideal S64 .f32) (w6 : FVec Ideal S64x64 .f32) (b6 : FVec Ideal S64 .f32) (w7 : FVec Ideal S64x7 .f32) (b7 : FVec Ideal S7 .f32) : FVec Ideal S50000x7 .f32 :=
  conv7 (src ei) (dst ei) (norm ei) (Host.tanh (conv64 (src ei) (dst ei) (norm ei) (Host.tanh (conv64 (src ei) (dst ei) (norm ei) (code ei x w0 b0 w1 b1 w2 b2 w3 b3 w4 b4) w5 b5)) w6 b6)) w7 b7

/-- The reconstruction. -/
def recon (ei : IVec S2x1600000 32) (x : FVec Ideal S50000x7 .f32) (w0 : FVec Ideal S7x64 .f32) (b0 : FVec Ideal S64 .f32) (w1 : FVec Ideal S64x64 .f32) (b1 : FVec Ideal S64 .f32) (w2 : FVec Ideal S64x64 .f32) (b2 : FVec Ideal S64 .f32) (w3 : FVec Ideal S64x64 .f32) (b3 : FVec Ideal S64 .f32) (w4 : FVec Ideal S64x64 .f32) (b4 : FVec Ideal S64 .f32) (w5 : FVec Ideal S64x64 .f32) (b5 : FVec Ideal S64 .f32) (w6 : FVec Ideal S64x64 .f32) (b6 : FVec Ideal S64 .f32) (w7 : FVec Ideal S64x7 .f32) (b7 : FVec Ideal S7 .f32) (w8 : FVec Ideal S7x7 .f32) (b8 : FVec Ideal S7 .f32) : FVec Ideal S50000x7 .f32 :=
  layer7x7 (decL ei x w0 b0 w1 b1 w2 b2 w3 b3 w4 b4 w5 b5 w6 b6 w7 b7) w8 (row7 b8)

end Cert.GcnSpec

end
-- ==== Proof.Reg0.lean ====
/-
  Launch 0 of the program, a dense layer tiled over the rows.

  The grid has five points; point t loads rows 10000 t … 10000 t + 9999 of the [50000, 7] feature matrix, the whole
  [7, 64] weight matrix and the whole [1, 64] bias row, and writes back rows 10000 t … of the result. Entry (p, j) of
  the block it stores is tanh of (∑ k, x (10000 t + p, k) · w (k, j)) + b (0, j): entry (10000 t + p, j) of the layer of
  the whole matrices. The five blocks tile the 50000 rows, so after the launch the result array is the layer of the
  arrays the launch found, whatever they are.
-/
import proofs.«160013_j34815004902081_1_alg».proof.Proof.Gen.KernelIdeal.Frame
import proofs.«160013_j34815004902081_1_alg».proof.Proof.Spec
import Idealize.ShloMosaic.Lib.Pipeline.Value

set_option maxRecDepth 16384

noncomputable section

namespace Cert.KernelIdeal.GcnRegion0

open Cert.KernelIdeal Cert.KernelIdeal.Gen
open Idealize.ShloMosaic Idealize.ShloMosaic.ValueIdx Idealize.ShloMosaic.TcCoe Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

theorem dot_S10000x7_S7x64_S10000x64_1_0_0_1_n_n_l (j : S10000x64.Idx) (q : dot_S10000x7_S7x64_S10000x64_1_0_0_1_n_n.contr.Idx) : (dot_S10000x7_S7x64_S10000x64_1_0_0_1_n_n.lhsIdx j q 0).val = (j 0).val := by
  unfold DotDims.lhsIdx
  rw [dif_neg (show ¬(0 : Fin S10000x7.rank) ∈ dot_S10000x7_S7x64_S10000x64_1_0_0_1_n_n.lhsBatch by decide), dif_pos (show (0 : Fin S10000x7.rank) ∈ dot_S10000x7_S7x64_S10000x64_1_0_0_1_n_n.lhsNonContracting by decide)]
  rfl
theorem dot_S10000x7_S7x64_S10000x64_1_0_0_1_n_n_r (j : S10000x64.Idx) (q : dot_S10000x7_S7x64_S10000x64_1_0_0_1_n_n.contr.Idx) : (dot_S10000x7_S7x64_S10000x64_1_0_0_1_n_n.rhsIdx j q 1).val = (j 1).val := by
  unfold DotDims.rhsIdx
  rw [dif_neg (show ¬(1 : Fin S7x64.rank) ∈ dot_S10000x7_S7x64_S10000x64_1_0_0_1_n_n.rhsBatch by decide), dif_pos (show (1 : Fin S7x64.rank) ∈ dot_S10000x7_S7x64_S10000x64_1_0_0_1_n_n.rhsNonContracting by decide)]
  rfl

/-- The block the body stores, at an entry: the layer of the loaded blocks. -/
theorem pay_apply (x0 : FVec Ideal S10000x7 .f32) (x1 : FVec Ideal S7x64 .f32) (x2 : FVec Ideal S1x64 .f32) (p : Fin 10000) (q : Fin 64) :
    k0_pay1 (F := Ideal) x0 x1 x2 (ix2 p q) = Ideal.tanh (GcnDense.entry x0 x1 x2 p q) := by
  unfold k0_pay1
  exact congrArg Ideal.tanh (GcnDense.kernel_layer_apply (φ₁ := .bf16) (φ₂ := .bf16) dot_S10000x7_S7x64_S10000x64_1_0_0_1_n_n rfl rfl rfl rfl dot_S10000x7_S7x64_S10000x64_1_0_0_1_n_n_l dot_S10000x7_S7x64_S10000x64_1_0_0_1_n_n_r none (truncf .bf16 x0 bitsLt_bf16_f32) (truncf .bf16 x1 bitsLt_bf16_f32) x2 shapeCasts_S1x64_S1x64 broadcasts_S1x64_S10000x64 p q)

/-- The index maps over the grid: the row windows move with the point, the weight and bias windows stay. -/
theorem idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of the layer of the arrays as the launch finds them. -/
theorem flushed_eq (c : Dev nD) (t : Fin cfg0.N) :
    (dat0 V c).flushed 3 t = ((cfg0.win 3).blk t).view.read (Elt Ideal) (Host.tanh (GcnSpec.layer7x64 (V c main_arg0) (V c main_arg2) (V c main_v27)) : S50000x64.Idx → EReal) := by
  show (cfg0.win 3).cut (grid0.coords t) ((dat0 V c).after 3 t) = _
  rw [after0_3]
  unfold out0_3
  rw [View.canon_unit_zero hz]
  simp only [View.ld_unit_zero (S := S10000x7) hz, View.ld_unit_zero (S := S7x64) hz, View.ld_unit_zero (S := S1x64) hz]
  obtain ⟨e00, e01, e10, e11, e20, e21, e30, e31⟩ := idx t
  have ht : t.val < 5 := lt_of_lt_of_eq t.isLt N_0
  funext y
  obtain ⟨p, q, rfl⟩ : ∃ (p : Fin 10000) (q : Fin 64), y = ix2 p q := ⟨y 0, y 1, eq_ix2 y⟩
  have hp : p.val < 10000 := p.isLt
  let r : Fin 50000 := ⟨t.val * 10000 + p.val, by omega⟩
  have hemb : ((cfg0.win 3).blk t).view.emb (ix2 p q) = ix2 r q := by
    funext a; apply Fin.ext
    match a with
    | ⟨0, _⟩ => show win0_3.index t (0 : Fin 2) * 10000 + 1 * p.val = t.val * 10000 + p.val; rw [e30]; omega
    | ⟨1, _⟩ => show win0_3.index t (1 : Fin 2) * 64 + 1 * q.val = q.val; rw [e31]; omega
  have h0 : ∀ k : Fin 7, iblk0 V c 0 t (ix2 p k) = V c main_arg0 (ix2 r k) := fun k => by
    show V c main_arg0 (((cfg0.win 0).blk t).view.emb (ix2 p k)) = _
    refine congrArg (V c main_arg0) (funext fun a => Fin.ext ?_)
    match a with
    | ⟨0, _⟩ => show win0_0.index t (0 : Fin 2) * 10000 + 1 * p.val = t.val * 10000 + p.val; rw [e00]; omega
    | ⟨1, _⟩ => show win0_0.index t (1 : Fin 2) * 7 + 1 * k.val = k.val; rw [e01]; omega
  have h1 : ∀ k : Fin 7, iblk0 V c 1 t (ix2 k q) = V c main_arg2 (ix2 k q) := fun k => by
    show V c main_arg2 (((cfg0.win 1).blk t).view.emb (ix2 k q)) = _
    refine congrArg (V c main_arg2) (funext fun a => Fin.ext ?_)
    match a with
    | ⟨0, _⟩ => show win0_1.index t (0 : Fin 2) * 7 + 1 * k.val = k.val; rw [e10]; omega
    | ⟨1, _⟩ => show win0_1.index t (1 : Fin 2) * 64 + 1 * q.val = q.val; rw [e11]; omega
  have h2 : iblk0 V c 2 t (ix2 (0 : Fin 1) q) = V c main_v27 (ix2 (0 : Fin 1) q) := by
    show V c main_v27 (((cfg0.win 2).blk t).view.emb (ix2 (0 : Fin 1) q)) = _
    refine congrArg (V c main_v27) (funext fun a => Fin.ext ?_)
    match a with
    | ⟨0, _⟩ => show win0_2.index t (0 : Fin 2) * 1 + 1 * 0 = 0; rw [e20]
    | ⟨1, _⟩ => show win0_2.index t (1 : Fin 2) * 64 + 1 * q.val = q.val; rw [e21]; omega
  show k0_pay1 (F := Ideal) (iblk0 V c 0 t) (iblk0 V c 1 t) (iblk0 V c 2 t) (ix2 p q) = (Host.tanh (GcnSpec.layer7x64 (V c main_arg0) (V c main_arg2) (V c main_v27)) : S50000x64.Idx → EReal) (((cfg0.win 3).blk t).view.emb (ix2 p q))
  rw [hemb]
  refine (pay_apply (iblk0 V c 0 t) (iblk0 V c 1 t) (iblk0 V c 2 t) p q).trans ?_
  refine (congrArg Ideal.tanh (GcnDense.entry_congr (iblk0 V c 0 t) (iblk0 V c 1 t) (iblk0 V c 2 t) (V c main_arg0) (V c main_arg2) (V c main_v27) p r q h0 h1 h2)).trans ?_
  exact (congrArg Ideal.tanh (GcnSpec.layer7x64_apply (V c main_arg0) (V c main_arg2) (V c main_v27) r q)).symm

/-- An index of the result array is in point t's block iff each coordinate is in the block's range. -/
theorem mem_blk (t : Fin cfg0.N) (i : S50000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v28).slice (win0_3.rect t)).set ↔ _
  rw [View.set_slice_whole, Rect.mem_set_unit]
  exact Iff.rfl

/-- Every row is in the block of the point numbered by its ten-thousands. -/
theorem cover (i : S50000x64.Idx) : ∃ t : Fin cfg0.N, (cfg0.win 3).flush t = true ∧ i ∈ ((cfg0.win 3).blk t).view.set := by
  have hi0 : (i 0).val < 50000 := (i 0).isLt
  have hi1 : (i 1).val < 64 := (i 1).isLt
  have hN : cfg0.N = 5 := N_0
  have hlt : (i 0).val / 10000 < cfg0.N := by rw [hN]; omega
  obtain ⟨_, _, _, _, _, _, e30, e31⟩ := idx ⟨(i 0).val / 10000, hlt⟩
  refine ⟨⟨(i 0).val / 10000, hlt⟩, flush0_3 _, ?_⟩
  rw [mem_blk]
  intro a
  match a with
  | ⟨0, _⟩ =>
    show win0_3.index ⟨(i 0).val / 10000, hlt⟩ (0 : Fin 2) * 10000 ≤ (i 0).val ∧ (i 0).val < win0_3.index ⟨(i 0).val / 10000, hlt⟩ (0 : Fin 2) * 10000 + 10000
    rw [e30]
    show (i 0).val / 10000 * 10000 ≤ (i 0).val ∧ (i 0).val < (i 0).val / 10000 * 10000 + 10000
    omega
  | ⟨1, _⟩ =>
    show win0_3.index ⟨(i 0).val / 10000, hlt⟩ (1 : Fin 2) * 64 ≤ (i 1).val ∧ (i 1).val < win0_3.index ⟨(i 0).val / 10000, hlt⟩ (1 : Fin 2) * 64 + 64
    rw [e31]
    omega

/-- THE RESULT ARRAY after the launch: the layer of the arrays the launch found. -/
theorem result (c : Dev nD) : (dat0 V c).arrAt 3 cfg0.N = (Host.tanh (GcnSpec.layer7x64 (V c main_arg0) (V c main_arg2) (V c main_v27)) : S50000x64.Idx → EReal) :=
  (dat0 V c).arrAt_eq_of_cover 3 _ (fun t _ => flushed_eq V c t) cover

end Cert.KernelIdeal.GcnRegion0

end
-- ==== Proof.Reg1.lean ====
/-
  Launch 1 of the program, a dense layer tiled over the rows.

  The grid has five points; point t loads rows 10000 t … 10000 t + 9999 of the [50000, 64] feature matrix, the whole
  [64, 64] weight matrix and the whole [1, 64] bias row, and writes back rows 10000 t … of the result. Entry (p, j) of
  the block it stores is (∑ k, x (10000 t + p, k) · w (k, j)) + b (0, j): entry (10000 t + p, j) of the layer of
  the whole matrices. The five blocks tile the 50000 rows, so after the launch the result array is the layer of the
  arrays the launch found, whatever they are.
-/
import proofs.«160013_j34815004902081_1_alg».proof.Proof.Gen.KernelIdeal.Frame
import proofs.«160013_j34815004902081_1_alg».proof.Proof.Spec
import Idealize.ShloMosaic.Lib.Pipeline.Value

set_option maxRecDepth 16384

noncomputable section

namespace Cert.KernelIdeal.GcnRegion1

open Cert.KernelIdeal Cert.KernelIdeal.Gen
open Idealize.ShloMosaic Idealize.ShloMosaic.ValueIdx Idealize.ShloMosaic.TcCoe Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

theorem dot_S10000x64_S64x64_S10000x64_1_0_0_1_n_n_l (j : S10000x64.Idx) (q : dot_S10000x64_S64x64_S10000x64_1_0_0_1_n_n.contr.Idx) : (dot_S10000x64_S64x64_S10000x64_1_0_0_1_n_n.lhsIdx j q 0).val = (j 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem dot_S10000x64_S64x64_S10000x64_1_0_0_1_n_n_r (j : S10000x64.Idx) (q : dot_S10000x64_S64x64_S10000x64_1_0_0_1_n_n.contr.Idx) : (dot_S10000x64_S64x64_S10000x64_1_0_0_1_n_n.rhsIdx j q 1).val = (j 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The block the body stores, at an entry: the layer of the loaded blocks. -/
theorem pay_apply (x0 : FVec Ideal S10000x64 .f32) (x1 : FVec Ideal S64x64 .f32) (x2 : FVec Ideal S1x64 .f32) (p : Fin 10000) (q : Fin 64) :
    k1_pay1 (F := Ideal) x0 x1 x2 (ix2 p q) = GcnDense.entry x0 x1 x2 p q := by
  unfold k1_pay1
  refine (GcnDense.kernel_layer_apply (φ₁ := .bf16) (φ₂ := .bf16) dot_S10000x64_S64x64_S10000x64_1_0_0_1_n_n rfl rfl rfl rfl dot_S10000x64_S64x64_S10000x64_1_0_0_1_n_n_l dot_S10000x64_S64x64_S10000x64_1_0_0_1_n_n_r none (truncf .bf16 (shapeCast S10000x64 x0 shapeCasts_S10000x64_S10000x64) bitsLt_bf16_f32) (truncf .bf16 x1 bitsLt_bf16_f32) x2 shapeCasts_S1x64_S1x64 broadcasts_S1x64_S10000x64 p q).trans ?_
  show GcnDense.entry (shapeCast S10000x64 x0 shapeCasts_S10000x64_S10000x64) x1 x2 p q = _
  rw [shapeCast_self]

/-- The index maps over the grid: the row windows move with the point, the weight and bias windows stay. -/
theorem idx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of the layer of the arrays as the launch finds them. -/
theorem flushed_eq (c : Dev nD) (t : Fin cfg1.N) :
    (dat1 V c).flushed 3 t = ((cfg1.win 3).blk t).view.read (Elt Ideal) (GcnSpec.layer64x64 (V c main_v28) (V c main_arg4) (V c main_v30) : S50000x64.Idx → EReal) := by
  show (cfg1.win 3).cut (grid1.coords t) ((dat1 V c).after 3 t) = _
  rw [after1_3]
  unfold out1_3
  rw [View.canon_unit_zero hz]
  simp only [View.ld_unit_zero (S := S10000x64) hz, View.ld_unit_zero (S := S64x64) hz, View.ld_unit_zero (S := S1x64) hz]
  obtain ⟨e00, e01, e10, e11, e20, e21, e30, e31⟩ := idx t
  have ht : t.val < 5 := lt_of_lt_of_eq t.isLt N_1
  funext y
  obtain ⟨p, q, rfl⟩ : ∃ (p : Fin 10000) (q : Fin 64), y = ix2 p q := ⟨y 0, y 1, eq_ix2 y⟩
  have hp : p.val < 10000 := p.isLt
  let r : Fin 50000 := ⟨t.val * 10000 + p.val, by omega⟩
  have hemb : ((cfg1.win 3).blk t).view.emb (ix2 p q) = ix2 r q := by
    funext a; apply Fin.ext
    match a with
    | ⟨0, _⟩ => show win1_3.index t (0 : Fin 2) * 10000 + 1 * p.val = t.val * 10000 + p.val; rw [e30]; omega
    | ⟨1, _⟩ => show win1_3.index t (1 : Fin 2) * 64 + 1 * q.val = q.val; rw [e31]; omega
  have h0 : ∀ k : Fin 64, iblk1 V c 0 t (ix2 p k) = V c main_v28 (ix2 r k) := fun k => by
    show V c main_v28 (((cfg1.win 0).blk t).view.emb (ix2 p k)) = _
    refine congrArg (V c main_v28) (funext fun a => Fin.ext ?_)
    match a with
    | ⟨0, _⟩ => show win1_0.index t (0 : Fin 2) * 10000 + 1 * p.val = t.val * 10000 + p.val; rw [e00]; omega
    | ⟨1, _⟩ => show win1_0.index t (1 : Fin 2) * 64 + 1 * k.val = k.val; rw [e01]; omega
  have h1 : ∀ k : Fin 64, iblk1 V c 1 t (ix2 k q) = V c main_arg4 (ix2 k q) := fun k => by
    show V c main_arg4 (((cfg1.win 1).blk t).view.emb (ix2 k q)) = _
    refine congrArg (V c main_arg4) (funext fun a => Fin.ext ?_)
    match a with
    | ⟨0, _⟩ => show win1_1.index t (0 : Fin 2) * 64 + 1 * k.val = k.val; rw [e10]; omega
    | ⟨1, _⟩ => show win1_1.index t (1 : Fin 2) * 64 + 1 * q.val = q.val; rw [e11]; omega
  have h2 : iblk1 V c 2 t (ix2 (0 : Fin 1) q) = V c main_v30 (ix2 (0 : Fin 1) q) := by
    show V c main_v30 (((cfg1.win 2).blk t).view.emb (ix2 (0 : Fin 1) q)) = _
    refine congrArg (V c main_v30) (funext fun a => Fin.ext ?_)
    match a with
    | ⟨0, _⟩ => show win1_2.index t (0 : Fin 2) * 1 + 1 * 0 = 0; rw [e20]
    | ⟨1, _⟩ => show win1_2.index t (1 : Fin 2) * 64 + 1 * q.val = q.val; rw [e21]; omega
  show k1_pay1 (F := Ideal) (iblk1 V c 0 t) (iblk1 V c 1 t) (iblk1 V c 2 t) (ix2 p q) = (GcnSpec.layer64x64 (V c main_v28) (V c main_arg4) (V c main_v30) : S50000x64.Idx → EReal) (((cfg1.win 3).blk t).view.emb (ix2 p q))
  rw [hemb]
  refine (pay_apply (iblk1 V c 0 t) (iblk1 V c 1 t) (iblk1 V c 2 t) p q).trans ?_
  refine (GcnDense.entry_congr (iblk1 V c 0 t) (iblk1 V c 1 t) (iblk1 V c 2 t) (V c main_v28) (V c main_arg4) (V c main_v30) p r q h0 h1 h2).trans ?_
  exact (GcnSpec.layer64x64_apply (V c main_v28) (V c main_arg4) (V c main_v30) r q).symm

/-- An index of the result array is in point t's block iff each coordinate is in the block's range. -/
theorem mem_blk (t : Fin cfg1.N) (i : S50000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v31).slice (win1_3.rect t)).set ↔ _
  rw [View.set_slice_whole, Rect.mem_set_unit]
  exact Iff.rfl

/-- Every row is in the block of the point numbered by its ten-thousands. -/
theorem cover (i : S50000x64.Idx) : ∃ t : Fin cfg1.N, (cfg1.win 3).flush t = true ∧ i ∈ ((cfg1.win 3).blk t).view.set := by
  have hi0 : (i 0).val < 50000 := (i 0).isLt
  have hi1 : (i 1).val < 64 := (i 1).isLt
  have hN : cfg1.N = 5 := N_1
  have hlt : (i 0).val / 10000 < cfg1.N := by rw [hN]; omega
  obtain ⟨_, _, _, _, _, _, e30, e31⟩ := idx ⟨(i 0).val / 10000, hlt⟩
  refine ⟨⟨(i 0).val / 10000, hlt⟩, flush1_3 _, ?_⟩
  rw [mem_blk]
  intro a
  match a with
  | ⟨0, _⟩ =>
    show win1_3.index ⟨(i 0).val / 10000, hlt⟩ (0 : Fin 2) * 10000 ≤ (i 0).val ∧ (i 0).val < win1_3.index ⟨(i 0).val / 10000, hlt⟩ (0 : Fin 2) * 10000 + 10000
    rw [e30]
    show (i 0).val / 10000 * 10000 ≤ (i 0).val ∧ (i 0).val < (i 0).val / 10000 * 10000 + 10000
    omega
  | ⟨1, _⟩ =>
    show win1_3.index ⟨(i 0).val / 10000, hlt⟩ (1 : Fin 2) * 64 ≤ (i 1).val ∧ (i 1).val < win1_3.index ⟨(i 0).val / 10000, hlt⟩ (1 : Fin 2) * 64 + 64
    rw [e31]
    omega

/-- THE RESULT ARRAY after the launch: the layer of the arrays the launch found. -/
theorem result (c : Dev nD) : (dat1 V c).arrAt 3 cfg1.N = (GcnSpec.layer64x64 (V c main_v28) (V c main_arg4) (V c main_v30) : S50000x64.Idx → EReal) :=
  (dat1 V c).arrAt_eq_of_cover 3 _ (fun t _ => flushed_eq V c t) cover

end Cert.KernelIdeal.GcnRegion1

end
-- ==== Proof.Reg2.lean ====
/-
  Launch 2 of the program, a bias step tiled over the rows.

  The grid has five points; point t loads rows 10000 t … 10000 t + 9999 of the [50000, 64] matrix and the whole
  [1, 64] bias row and writes back the same rows of the result. Entry (p, j) of the block it stores is
  tanh of x (10000 t + p, j) + b (0, j). The five blocks tile the 50000 rows, so after the launch the result array is
  tanh of the matrix plus the bias row on every row, for whatever arrays the launch found.
-/
import proofs.«160013_j34815004902081_1_alg».proof.Proof.Gen.KernelIdeal.Frame
import proofs.«160013_j34815004902081_1_alg».proof.Proof.Spec
import Idealize.ShloMosaic.Lib.Pipeline.Value

set_option maxRecDepth 16384

noncomputable section

namespace Cert.KernelIdeal.GcnRegion2

open Cert.KernelIdeal Cert.KernelIdeal.Gen
open Idealize.ShloMosaic Idealize.ShloMosaic.ValueIdx Idealize.ShloMosaic.TcCoe Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The block the body stores, at an entry. -/
theorem pay_apply (x0 : FVec Ideal S10000x64 .f32) (x2 : FVec Ideal S1x64 .f32) (p : Fin 10000) (q : Fin 64) :
    k2_pay1 (F := Ideal) x0 x2 (ix2 p q) = Ideal.tanh (x0 (ix2 p q) + x2 (ix2 (0 : Fin 1) q)) := by
  unfold k2_pay1
  exact congrArg Ideal.tanh (GcnDense.kernel_bias_apply x0 x2 shapeCasts_S10000x64_S10000x64 shapeCasts_S1x64_S1x64 broadcasts_S1x64_S10000x64 p q)

/-- The index maps over the grid: the row windows move with the point, the bias window stays. -/
theorem idx : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the bias step of the arrays as the launch finds them. -/
theorem flushed_eq (c : Dev nD) (t : Fin cfg2.N) :
    (dat2 V c).flushed 2 t = ((cfg2.win 2).blk t).view.read (Elt Ideal) (Host.tanh (GcnSpec.bias64 (V c main_v44) (V c main_v45)) : S50000x64.Idx → EReal) := by
  show (cfg2.win 2).cut (grid2.coords t) ((dat2 V c).after 2 t) = _
  rw [after2_2]
  unfold out2_2
  rw [View.canon_unit_zero hz]
  simp only [View.ld_unit_zero (S := S10000x64) hz, View.ld_unit_zero (S := S1x64) hz]
  obtain ⟨e00, e01, e10, e11, e20, e21⟩ := idx t
  have ht : t.val < 5 := lt_of_lt_of_eq t.isLt N_2
  funext y
  obtain ⟨p, q, rfl⟩ : ∃ (p : Fin 10000) (q : Fin 64), y = ix2 p q := ⟨y 0, y 1, eq_ix2 y⟩
  have hp : p.val < 10000 := p.isLt
  let r : Fin 50000 := ⟨t.val * 10000 + p.val, by omega⟩
  have hemb : ((cfg2.win 2).blk t).view.emb (ix2 p q) = ix2 r q := by
    funext a; apply Fin.ext
    match a with
    | ⟨0, _⟩ => show win2_2.index t (0 : Fin 2) * 10000 + 1 * p.val = t.val * 10000 + p.val; rw [e20]; omega
    | ⟨1, _⟩ => show win2_2.index t (1 : Fin 2) * 64 + 1 * q.val = q.val; rw [e21]; omega
  have h0 : iblk2 V c 0 t (ix2 p q) = V c main_v44 (ix2 r q) := by
    show V c main_v44 (((cfg2.win 0).blk t).view.emb (ix2 p q)) = _
    refine congrArg (V c main_v44) (funext fun a => Fin.ext ?_)
    match a with
    | ⟨0, _⟩ => show win2_0.index t (0 : Fin 2) * 10000 + 1 * p.val = t.val * 10000 + p.val; rw [e00]; omega
    | ⟨1, _⟩ => show win2_0.index t (1 : Fin 2) * 64 + 1 * q.val = q.val; rw [e01]; omega
  have h1 : iblk2 V c 1 t (ix2 (0 : Fin 1) q) = V c main_v45 (ix2 (0 : Fin 1) q) := by
    show V c main_v45 (((cfg2.win 1).blk t).view.emb (ix2 (0 : Fin 1) q)) = _
    refine congrArg (V c main_v45) (funext fun a => Fin.ext ?_)
    match a with
    | ⟨0, _⟩ => show win2_1.index t (0 : Fin 2) * 1 + 1 * 0 = 0; rw [e10]
    | ⟨1, _⟩ => show win2_1.index t (1 : Fin 2) * 64 + 1 * q.val = q.val; rw [e11]; omega
  show k2_pay1 (F := Ideal) (iblk2 V c 0 t) (iblk2 V c 1 t) (ix2 p q) = (Host.tanh (GcnSpec.bias64 (V c main_v44) (V c main_v45)) : S50000x64.Idx → EReal) (((cfg2.win 2).blk t).view.emb (ix2 p q))
  rw [hemb]
  refine (pay_apply (iblk2 V c 0 t) (iblk2 V c 1 t) p q).trans ?_
  rw [h0, h1]
  exact (congrArg Ideal.tanh (GcnSpec.bias64_apply (V c main_v44) (V c main_v45) r q)).symm

/-- An index of the result array is in point t's block iff each coordinate is in the block's range. -/
theorem mem_blk (t : Fin cfg2.N) (i : S50000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v46).slice (win2_2.rect t)).set ↔ _
  rw [View.set_slice_whole, Rect.mem_set_unit]
  exact Iff.rfl

/-- Every row is in the block of the point numbered by its ten-thousands. -/
theorem cover (i : S50000x64.Idx) : ∃ t : Fin cfg2.N, (cfg2.win 2).flush t = true ∧ i ∈ ((cfg2.win 2).blk t).view.set := by
  have hi0 : (i 0).val < 50000 := (i 0).isLt
  have hi1 : (i 1).val < 64 := (i 1).isLt
  have hN : cfg2.N = 5 := N_2
  have hlt : (i 0).val / 10000 < cfg2.N := by rw [hN]; omega
  obtain ⟨_, _, _, _, e20, e21⟩ := idx ⟨(i 0).val / 10000, hlt⟩
  refine ⟨⟨(i 0).val / 10000, hlt⟩, flush2_2 _, ?_⟩
  rw [mem_blk]
  intro a
  match a with
  | ⟨0, _⟩ =>
    show win2_2.index ⟨(i 0).val / 10000, hlt⟩ (0 : Fin 2) * 10000 ≤ (i 0).val ∧ (i 0).val < win2_2.index ⟨(i 0).val / 10000, hlt⟩ (0 : Fin 2) * 10000 + 10000
    rw [e20]
    show (i 0).val / 10000 * 10000 ≤ (i 0).val ∧ (i 0).val < (i 0).val / 10000 * 10000 + 10000
    omega
  | ⟨1, _⟩ =>
    show win2_2.index ⟨(i 0).val / 10000, hlt⟩ (1 : Fin 2) * 64 ≤ (i 1).val ∧ (i 1).val < win2_2.index ⟨(i 0).val / 10000, hlt⟩ (1 : Fin 2) * 64 + 64
    rw [e21]
    omega

/-- THE RESULT ARRAY after the launch: the bias step of the arrays the launch found. -/
theorem result (c : Dev nD) : (dat2 V c).arrAt 2 cfg2.N = (Host.tanh (GcnSpec.bias64 (V c main_v44) (V c main_v45)) : S50000x64.Idx → EReal) :=
  (dat2 V c).arrAt_eq_of_cover 2 _ (fun t _ => flushed_eq V c t) cover

end Cert.KernelIdeal.GcnRegion2

end
-- ==== Proof.Reg3.lean ====
/-
  Launch 3 of the program, a dense layer tiled over the rows.

  The grid has five points; point t loads rows 10000 t … 10000 t + 9999 of the [50000, 64] feature matrix, the whole
  [64, 64] weight matrix and the whole [1, 64] bias row, and writes back rows 10000 t … of the result. Entry (p, j) of
  the block it stores is (∑ k, x (10000 t + p, k) · w (k, j)) + b (0, j): entry (10000 t + p, j) of the layer of
  the whole matrices. The five blocks tile the 50000 rows, so after the launch the result array is the layer of the
  arrays the launch found, whatever they are.
-/
import proofs.«160013_j34815004902081_1_alg».proof.Proof.Gen.KernelIdeal.Frame
import proofs.«160013_j34815004902081_1_alg».proof.Proof.Spec
import Idealize.ShloMosaic.Lib.Pipeline.Value

set_option maxRecDepth 16384

noncomputable section

namespace Cert.KernelIdeal.GcnRegion3

open Cert.KernelIdeal Cert.KernelIdeal.Gen
open Idealize.ShloMosaic Idealize.ShloMosaic.ValueIdx Idealize.ShloMosaic.TcCoe Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

theorem dot_S10000x64_S64x64_S10000x64_1_0_0_1_n_n_l (j : S10000x64.Idx) (q : dot_S10000x64_S64x64_S10000x64_1_0_0_1_n_n.contr.Idx) : (dot_S10000x64_S64x64_S10000x64_1_0_0_1_n_n.lhsIdx j q 0).val = (j 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem dot_S10000x64_S64x64_S10000x64_1_0_0_1_n_n_r (j : S10000x64.Idx) (q : dot_S10000x64_S64x64_S10000x64_1_0_0_1_n_n.contr.Idx) : (dot_S10000x64_S64x64_S10000x64_1_0_0_1_n_n.rhsIdx j q 1).val = (j 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The block the body stores, at an entry: the layer of the loaded blocks. -/
theorem pay_apply (x0 : FVec Ideal S10000x64 .f32) (x1 : FVec Ideal S64x64 .f32) (x2 : FVec Ideal S1x64 .f32) (p : Fin 10000) (q : Fin 64) :
    k3_pay1 (F := Ideal) x0 x1 x2 (ix2 p q) = GcnDense.entry x0 x1 x2 p q := by
  unfold k3_pay1
  refine (GcnDense.kernel_layer_apply (φ₁ := .bf16) (φ₂ := .bf16) dot_S10000x64_S64x64_S10000x64_1_0_0_1_n_n rfl rfl rfl rfl dot_S10000x64_S64x64_S10000x64_1_0_0_1_n_n_l dot_S10000x64_S64x64_S10000x64_1_0_0_1_n_n_r none (truncf .bf16 (shapeCast S10000x64 x0 shapeCasts_S10000x64_S10000x64) bitsLt_bf16_f32) (truncf .bf16 x1 bitsLt_bf16_f32) x2 shapeCasts_S1x64_S1x64 broadcasts_S1x64_S10000x64 p q).trans ?_
  show GcnDense.entry (shapeCast S10000x64 x0 shapeCasts_S10000x64_S10000x64) x1 x2 p q = _
  rw [shapeCast_self]

/-- The index maps over the grid: the row windows move with the point, the weight and bias windows stay. -/
theorem idx : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- What point t writes back is block t of the layer of the arrays as the launch finds them. -/
theorem flushed_eq (c : Dev nD) (t : Fin cfg3.N) :
    (dat3 V c).flushed 3 t = ((cfg3.win 3).blk t).view.read (Elt Ideal) (GcnSpec.layer64x64 (V c main_v46) (V c main_arg6) (V c main_v48) : S50000x64.Idx → EReal) := by
  show (cfg3.win 3).cut (grid3.coords t) ((dat3 V c).after 3 t) = _
  rw [after3_3]
  unfold out3_3
  rw [View.canon_unit_zero hz]
  simp only [View.ld_unit_zero (S := S10000x64) hz, View.ld_unit_zero (S := S64x64) hz, View.ld_unit_zero (S := S1x64) hz]
  obtain ⟨e00, e01, e10, e11, e20, e21, e30, e31⟩ := idx t
  have ht : t.val < 5 := lt_of_lt_of_eq t.isLt N_3
  funext y
  obtain ⟨p, q, rfl⟩ : ∃ (p : Fin 10000) (q : Fin 64), y = ix2 p q := ⟨y 0, y 1, eq_ix2 y⟩
  have hp : p.val < 10000 := p.isLt
  let r : Fin 50000 := ⟨t.val * 10000 + p.val, by omega⟩
  have hemb : ((cfg3.win 3).blk t).view.emb (ix2 p q) = ix2 r q := by
    funext a; apply Fin.ext
    match a with
    | ⟨0, _⟩ => show win3_3.index t (0 : Fin 2) * 10000 + 1 * p.val = t.val * 10000 + p.val; rw [e30]; omega
    | ⟨1, _⟩ => show win3_3.index t (1 : Fin 2) * 64 + 1 * q.val = q.val; rw [e31]; omega
  have h0 : ∀ k : Fin 64, iblk3 V c 0 t (ix2 p k) = V c main_v46 (ix2 r k) := fun k => by
    show V c main_v46 (((cfg3.win 0).blk t).view.emb (ix2 p k)) = _
    refine congrArg (V c main_v46) (funext fun a => Fin.ext ?_)
    match a with
    | ⟨0, _⟩ => show win3_0.index t (0 : Fin 2) * 10000 + 1 * p.val = t.val * 10000 + p.val; rw [e00]; omega
    | ⟨1, _⟩ => show win3_0.index t (1 : Fin 2) * 64 + 1 * k.val = k.val; rw [e01]; omega
  have h1 : ∀ k : Fin 64, iblk3 V c 1 t (ix2 k q) = V c main_arg6 (ix2 k q) := fun k => by
    show V c main_arg6 (((cfg3.win 1).blk t).view.emb (ix2 k q)) = _
    refine congrArg (V c main_arg6) (funext fun a => Fin.ext ?_)
    match a with
    | ⟨0, _⟩ => show win3_1.index t (0 : Fin 2) * 64 + 1 * k.val = k.val; rw [e10]; omega
    | ⟨1, _⟩ => show win3_1.index t (1 : Fin 2) * 64 + 1 * q.val = q.val; rw [e11]; omega
  have h2 : iblk3 V c 2 t (ix2 (0 : Fin 1) q) = V c main_v48 (ix2 (0 : Fin 1) q) := by
    show V c main_v48 (((cfg3.win 2).blk t).view.emb (ix2 (0 : Fin 1) q)) = _
    refine congrArg (V c main_v48) (funext fun a => Fin.ext ?_)
    match a with
    | ⟨0, _⟩ => show win3_2.index t (0 : Fin 2) * 1 + 1 * 0 = 0; rw [e20]
    | ⟨1, _⟩ => show win3_2.index t (1 : Fin 2) * 64 + 1 * q.val = q.val; rw [e21]; omega
  show k3_pay1 (F := Ideal) (iblk3 V c 0 t) (iblk3 V c 1 t) (iblk3 V c 2 t) (ix2 p q) = (GcnSpec.layer64x64 (V c main_v46) (V c main_arg6) (V c main_v48) : S50000x64.Idx → EReal) (((cfg3.win 3).blk t).view.emb (ix2 p q))
  rw [hemb]
  refine (pay_apply (iblk3 V c 0 t) (iblk3 V c 1 t) (iblk3 V c 2 t) p q).trans ?_
  refine (GcnDense.entry_congr (iblk3 V c 0 t) (iblk3 V c 1 t) (iblk3 V c 2 t) (V c main_v46) (V c main_arg6) (V c main_v48) p r q h0 h1 h2).trans ?_
  exact (GcnSpec.layer64x64_apply (V c main_v46) (V c main_arg6) (V c main_v48) r q).symm

/-- An index of the result array is in point t's block iff each coordinate is in the block's range. -/
theorem mem_blk (t : Fin cfg3.N) (i : S50000x64.Idx) :
    i ∈ ((cfg3.win 3).blk t).view.set ↔ ∀ a : Fin 2, win3_3.index t a * S10000x64.size a ≤ (i a).val ∧ (i a).val < win3_3.index t a * S10000x64.size a + S10000x64.size a := by
  show i ∈ ((View.whole main_v49).slice (win3_3.rect t)).set ↔ _
  rw [View.set_slice_whole, Rect.mem_set_unit]
  exact Iff.rfl

/-- Every row is in the block of the point numbered by its ten-thousands. -/
theorem cover (i : S50000x64.Idx) : ∃ t : Fin cfg3.N, (cfg3.win 3).flush t = true ∧ i ∈ ((cfg3.win 3).blk t).view.set := by
  have hi0 : (i 0).val < 50000 := (i 0).isLt
  have hi1 : (i 1).val < 64 := (i 1).isLt
  have hN : cfg3.N = 5 := N_3
  have hlt : (i 0).val / 10000 < cfg3.N := by rw [hN]; omega
  obtain ⟨_, _, _, _, _, _, e30, e31⟩ := idx ⟨(i 0).val / 10000, hlt⟩
  refine ⟨⟨(i 0).val / 10000, hlt⟩, flush3_3 _, ?_⟩
  rw [mem_blk]
  intro a
  match a with
  | ⟨0, _⟩ =>
    show win3_3.index ⟨(i 0).val / 10000, hlt⟩ (0 : Fin 2) * 10000 ≤ (i 0).val ∧ (i 0).val < win3_3.index ⟨(i 0).val / 10000, hlt⟩ (0 : Fin 2) * 10000 + 10000
    rw [e30]
    show (i 0).val / 10000 * 10000 ≤ (i 0).val ∧ (i 0).val < (i 0).val / 10000 * 10000 + 10000
    omega
  | ⟨1, _⟩ =>
    show win3_3.index ⟨(i 0).val / 10000, hlt⟩ (1 : Fin 2) * 64 ≤ (i 1).val ∧ (i 1).val < win3_3.index ⟨(i 0).val / 10000, hlt⟩ (1 : Fin 2) * 64 + 64
    rw [e31]
    omega

/-- THE RESULT ARRAY after the launch: the layer of the arrays the launch found. -/
theorem result (c : Dev nD) : (dat3 V c).arrAt 3 cfg3.N = (GcnSpec.layer64x64 (V c main_v46) (V c main_arg6) (V c main_v48) : S50000x64.Idx → EReal) :=
  (dat3 V c).arrAt_eq_of_cover 3 _ (fun t _ => flushed_eq V c t) cover

end Cert.KernelIdeal.GcnRegion3

end
-- ==== Proof.Reg4.lean ====
/-
  Launch 4 of the program, a bias step tiled over the rows.

  The grid has five points; point t loads rows 10000 t … 10000 t + 9999 of the [50000, 64] matrix and the whole
  [1, 64] bias row and writes back the same rows of the result. Entry (p, j) of the block it stores is
  tanh of x (10000 t + p, j) + b (0, j). The five blocks tile the 50000 rows, so after the launch the result array is
  tanh of the matrix plus the bias row on every row, for whatever arrays the launch found.
-/
import proofs.«160013_j34815004902081_1_alg».proof.Proof.Gen.KernelIdeal.Frame
import proofs.«160013_j34815004902081_1_alg».proof.Proof.Spec
import Idealize.ShloMosaic.Lib.Pipeline.Value

set_option maxRecDepth 16384

noncomputable section

namespace Cert.KernelIdeal.GcnRegion4

open Cert.KernelIdeal Cert.KernelIdeal.Gen
open Idealize.ShloMosaic Idealize.ShloMosaic.ValueIdx Idealize.ShloMosaic.TcCoe Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The block the body stores, at an entry. -/
theorem pay_apply (x0 : FVec Ideal S10000x64 .f32) (x2 : FVec Ideal S1x64 .f32) (p : Fin 10000) (q : Fin 64) :
    k4_pay1 (F := Ideal) x0 x2 (ix2 p q) = Ideal.tanh (x0 (ix2 p q) + x2 (ix2 (0 : Fin 1) q)) := by
  unfold k4_pay1
  exact congrArg Ideal.tanh (GcnDense.kernel_bias_apply x0 x2 shapeCasts_S10000x64_S10000x64 shapeCasts_S1x64_S1x64 broadcasts_S1x64_S10000x64 p q)

/-- The index maps over the grid: the row windows move with the point, the bias window stays. -/
theorem idx : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point t writes back is block t of the bias step of the arrays as the launch finds them. -/
theorem flushed_eq (c : Dev nD) (t : Fin cfg4.N) :
    (dat4 V c).flushed 2 t = ((cfg4.win 2).blk t).view.read (Elt Ideal) (Host.tanh (GcnSpec.bias64 (V c main_v62) (V c main_v63)) : S50000x64.Idx → EReal) := by
  show (cfg4.win 2).cut (grid4.coords t) ((dat4 V c).after 2 t) = _
  rw [after4_2]
  unfold out4_2
  rw [View.canon_unit_zero hz]
  simp only [View.ld_unit_zero (S := S10000x64) hz, View.ld_unit_zero (S := S1x64) hz]
  obtain ⟨e00, e01, e10, e11, e20, e21⟩ := idx t
  have ht : t.val < 5 := lt_of_lt_of_eq t.isLt N_4
  funext y
  obtain ⟨p, q, rfl⟩ : ∃ (p : Fin 10000) (q : Fin 64), y = ix2 p q := ⟨y 0, y 1, eq_ix2 y⟩
  have hp : p.val < 10000 := p.isLt
  let r : Fin 50000 := ⟨t.val * 10000 + p.val, by omega⟩
  have hemb : ((cfg4.win 2).blk t).view.emb (ix2 p q) = ix2 r q := by
    funext a; apply Fin.ext
    match a with
    | ⟨0, _⟩ => show win4_2.index t (0 : Fin 2) * 10000 + 1 * p.val = t.val * 10000 + p.val; rw [e20]; omega
    | ⟨1, _⟩ => show win4_2.index t (1 : Fin 2) * 64 + 1 * q.val = q.val; rw [e21]; omega
  have h0 : iblk4 V c 0 t (ix2 p q) = V c main_v62 (ix2 r q) := by
    show V c main_v62 (((cfg4.win 0).blk t).view.emb (ix2 p q)) = _
    refine congrArg (V c main_v62) (funext fun a => Fin.ext ?_)
    match a with
    | ⟨0, _⟩ => show win4_0.index t (0 : Fin 2) * 10000 + 1 * p.val = t.val * 10000 + p.val; rw [e00]; omega
    | ⟨1, _⟩ => show win4_0.index t (1 : Fin 2) * 64 + 1 * q.val = q.val; rw [e01]; omega
  have h1 : iblk4 V c 1 t (ix2 (0 : Fin 1) q) = V c main_v63 (ix2 (0 : Fin 1) q) := by
    show V c main_v63 (((cfg4.win 1).blk t).view.emb (ix2 (0 : Fin 1) q)) = _
    refine congrArg (V c main_v63) (funext fun a => Fin.ext ?_)
    match a with
    | ⟨0, _⟩ => show win4_1.index t (0 : Fin 2) * 1 + 1 * 0 = 0; rw [e10]
    | ⟨1, _⟩ => show win4_1.index t (1 : Fin 2) * 64 + 1 * q.val = q.val; rw [e11]; omega
  show k4_pay1 (F := Ideal) (iblk4 V c 0 t) (iblk4 V c 1 t) (ix2 p q) = (Host.tanh (GcnSpec.bias64 (V c main_v62) (V c main_v63)) : S50000x64.Idx → EReal) (((cfg4.win 2).blk t).view.emb (ix2 p q))
  rw [hemb]
  refine (pay_apply (iblk4 V c 0 t) (iblk4 V c 1 t) p q).trans ?_
  rw [h0, h1]
  exact (congrArg Ideal.tanh (GcnSpec.bias64_apply (V c main_v62) (V c main_v63) r q)).symm

/-- An index of the result array is in point t's block iff each coordinate is in the block's range. -/
theorem mem_blk (t : Fin cfg4.N) (i : S50000x64.Idx) :
    i ∈ ((cfg4.win 2).blk t).view.set ↔ ∀ a : Fin 2, win4_2.index t a * S10000x64.size a ≤ (i a).val ∧ (i a).val < win4_2.index t a * S10000x64.size a + S10000x64.size a := by
  show i ∈ ((View.whole main_v64).slice (win4_2.rect t)).set ↔ _
  rw [View.set_slice_whole, Rect.mem_set_unit]
  exact Iff.rfl

/-- Every row is in the block of the point numbered by its ten-thousands. -/
theorem cover (i : S50000x64.Idx) : ∃ t : Fin cfg4.N, (cfg4.win 2).flush t = true ∧ i ∈ ((cfg4.win 2).blk t).view.set := by
  have hi0 : (i 0).val < 50000 := (i 0).isLt
  have hi1 : (i 1).val < 64 := (i 1).isLt
  have hN : cfg4.N = 5 := N_4
  have hlt : (i 0).val / 10000 < cfg4.N := by rw [hN]; omega
  obtain ⟨_, _, _, _, e20, e21⟩ := idx ⟨(i 0).val / 10000, hlt⟩
  refine ⟨⟨(i 0).val / 10000, hlt⟩, flush4_2 _, ?_⟩
  rw [mem_blk]
  intro a
  match a with
  | ⟨0, _⟩ =>
    show win4_2.index ⟨(i 0).val / 10000, hlt⟩ (0 : Fin 2) * 10000 ≤ (i 0).val ∧ (i 0).val < win4_2.index ⟨(i 0).val / 10000, hlt⟩ (0 : Fin 2) * 10000 + 10000
    rw [e20]
    show (i 0).val / 10000 * 10000 ≤ (i 0).val ∧ (i 0).val < (i 0).val / 10000 * 10000 + 10000
    omega
  | ⟨1, _⟩ =>
    show win4_2.index ⟨(i 0).val / 10000, hlt⟩ (1 : Fin 2) * 64 ≤ (i 1).val ∧ (i 1).val < win4_2.index ⟨(i 0).val / 10000, hlt⟩ (1 : Fin 2) * 64 + 64
    rw [e21]
    omega

/-- THE RESULT ARRAY after the launch: the bias step of the arrays the launch found. -/
theorem result (c : Dev nD) : (dat4 V c).arrAt 2 cfg4.N = (Host.tanh (GcnSpec.bias64 (V c main_v62) (V c main_v63)) : S50000x64.Idx → EReal) :=
  (dat4 V c).arrAt_eq_of_cover 2 _ (fun t _ => flushed_eq V c t) cover

end Cert.KernelIdeal.GcnRegion4

end
-- ==== Proof.Reg5.lean ====
/-
  Launch 5 of the program, a dense layer tiled over the rows.

  The grid has five points; point t loads rows 10000 t … 10000 t + 9999 of the [50000, 64] feature matrix, the whole
  [64, 64] weight matrix and the whole [1, 64] bias row, and writes back rows 10000 t … of the result. Entry (p, j) of
  the block it stores is (∑ k, x (10000 t + p, k) · w (k, j)) + b (0, j): entry (10000 t + p, j) of the layer of
  the whole matrices. The five blocks tile the 50000 rows, so after the launch the result array is the layer of the
  arrays the launch found, whatever they are.
-/
import proofs.«160013_j34815004902081_1_alg».proof.Proof.Gen.KernelIdeal.Frame
import proofs.«160013_j34815004902081_1_alg».proof.Proof.Spec
import Idealize.ShloMosaic.Lib.Pipeline.Value

set_option maxRecDepth 16384

noncomputable section

namespace Cert.KernelIdeal.GcnRegion5

open Cert.KernelIdeal Cert.KernelIdeal.Gen
open Idealize.ShloMosaic Idealize.ShloMosaic.ValueIdx Idealize.ShloMosaic.TcCoe Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

theorem dot_S10000x64_S64x64_S10000x64_1_0_0_1_n_n_l (j : S10000x64.Idx) (q : dot_S10000x64_S64x64_S10000x64_1_0_0_1_n_n.contr.Idx) : (dot_S10000x64_S64x64_S10000x64_1_0_0_1_n_n.lhsIdx j q 0).val = (j 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem dot_S10000x64_S64x64_S10000x64_1_0_0_1_n_n_r (j : S10000x64.Idx) (q : dot_S10000x64_S64x64_S10000x64_1_0_0_1_n_n.contr.Idx) : (dot_S10000x64_S64x64_S10000x64_1_0_0_1_n_n.rhsIdx j q 1).val = (j 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The block the body stores, at an entry: the layer of the loaded blocks. -/
theorem pay_apply (x0 : FVec Ideal S10000x64 .f32) (x1 : FVec Ideal S64x64 .f32) (x2 : FVec Ideal S1x64 .f32) (p : Fin 10000) (q : Fin 64) :
    k5_pay1 (F := Ideal) x0 x1 x2 (ix2 p q) = GcnDense.entry x0 x1 x2 p q := by
  unfold k5_pay1
  refine (GcnDense.kernel_layer_apply (φ₁ := .bf16) (φ₂ := .bf16) dot_S10000x64_S64x64_S10000x64_1_0_0_1_n_n rfl rfl rfl rfl dot_S10000x64_S64x64_S10000x64_1_0_0_1_n_n_l dot_S10000x64_S64x64_S10000x64_1_0_0_1_n_n_r none (truncf .bf16 (shapeCast S10000x64 x0 shapeCasts_S10000x64_S10000x64) bitsLt_bf16_f32) (truncf .bf16 x1 bitsLt_bf16_f32) x2 shapeCasts_S1x64_S1x64 broadcasts_S1x64_S10000x64 p q).trans ?_
  show GcnDense.entry (shapeCast S10000x64 x0 shapeCasts_S10000x64_S10000x64) x1 x2 p q = _
  rw [shapeCast_self]

/-- The index maps over the grid: the row windows move with the point, the weight and bias windows stay. -/
theorem idx : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- What point t writes back is block t of the layer of the arrays as the launch finds them. -/
theorem flushed_eq (c : Dev nD) (t : Fin cfg5.N) :
    (dat5 V c).flushed 3 t = ((cfg5.win 3).blk t).view.read (Elt Ideal) (GcnSpec.layer64x64 (V c main_v64) (V c main_arg8) (V c main_v66) : S50000x64.Idx → EReal) := by
  show (cfg5.win 3).cut (grid5.coords t) ((dat5 V c).after 3 t) = _
  rw [after5_3]
  unfold out5_3
  rw [View.canon_unit_zero hz]
  simp only [View.ld_unit_zero (S := S10000x64) hz, View.ld_unit_zero (S := S64x64) hz, View.ld_unit_zero (S := S1x64) hz]
  obtain ⟨e00, e01, e10, e11, e20, e21, e30, e31⟩ := idx t
  have ht : t.val < 5 := lt_of_lt_of_eq t.isLt N_5
  funext y
  obtain ⟨p, q, rfl⟩ : ∃ (p : Fin 10000) (q : Fin 64), y = ix2 p q := ⟨y 0, y 1, eq_ix2 y⟩
  have hp : p.val < 10000 := p.isLt
  let r : Fin 50000 := ⟨t.val * 10000 + p.val, by omega⟩
  have hemb : ((cfg5.win 3).blk t).view.emb (ix2 p q) = ix2 r q := by
    funext a; apply Fin.ext
    match a with
    | ⟨0, _⟩ => show win5_3.index t (0 : Fin 2) * 10000 + 1 * p.val = t.val * 10000 + p.val; rw [e30]; omega
    | ⟨1, _⟩ => show win5_3.index t (1 : Fin 2) * 64 + 1 * q.val = q.val; rw [e31]; omega
  have h0 : ∀ k : Fin 64, iblk5 V c 0 t (ix2 p k) = V c main_v64 (ix2 r k) := fun k => by
    show V c main_v64 (((cfg5.win 0).blk t).view.emb (ix2 p k)) = _
    refine congrArg (V c main_v64) (funext fun a => Fin.ext ?_)
    match a with
    | ⟨0, _⟩ => show win5_0.index t (0 : Fin 2) * 10000 + 1 * p.val = t.val * 10000 + p.val; rw [e00]; omega
    | ⟨1, _⟩ => show win5_0.index t (1 : Fin 2) * 64 + 1 * k.val = k.val; rw [e01]; omega
  have h1 : ∀ k : Fin 64, iblk5 V c 1 t (ix2 k q) = V c main_arg8 (ix2 k q) := fun k => by
    show V c main_arg8 (((cfg5.win 1).blk t).view.emb (ix2 k q)) = _
    refine congrArg (V c main_arg8) (funext fun a => Fin.ext ?_)
    match a with
    | ⟨0, _⟩ => show win5_1.index t (0 : Fin 2) * 64 + 1 * k.val = k.val; rw [e10]; omega
    | ⟨1, _⟩ => show win5_1.index t (1 : Fin 2) * 64 + 1 * q.val = q.val; rw [e11]; omega
  have h2 : iblk5 V c 2 t (ix2 (0 : Fin 1) q) = V c main_v66 (ix2 (0 : Fin 1) q) := by
    show V c main_v66 (((cfg5.win 2).blk t).view.emb (ix2 (0 : Fin 1) q)) = _
    refine congrArg (V c main_v66) (funext fun a => Fin.ext ?_)
    match a with
    | ⟨0, _⟩ => show win5_2.index t (0 : Fin 2) * 1 + 1 * 0 = 0; rw [e20]
    | ⟨1, _⟩ => show win5_2.index t (1 : Fin 2) * 64 + 1 * q.val = q.val; rw [e21]; omega
  show k5_pay1 (F := Ideal) (iblk5 V c 0 t) (iblk5 V c 1 t) (iblk5 V c 2 t) (ix2 p q) = (GcnSpec.layer64x64 (V c main_v64) (V c main_arg8) (V c main_v66) : S50000x64.Idx → EReal) (((cfg5.win 3).blk t).view.emb (ix2 p q))
  rw [hemb]
  refine (pay_apply (iblk5 V c 0 t) (iblk5 V c 1 t) (iblk5 V c 2 t) p q).trans ?_
  refine (GcnDense.entry_congr (iblk5 V c 0 t) (iblk5 V c 1 t) (iblk5 V c 2 t) (V c main_v64) (V c main_arg8) (V c main_v66) p r q h0 h1 h2).trans ?_
  exact (GcnSpec.layer64x64_apply (V c main_v64) (V c main_arg8) (V c main_v66) r q).symm

/-- An index of the result array is in point t's block iff each coordinate is in the block's range. -/
theorem mem_blk (t : Fin cfg5.N) (i : S50000x64.Idx) :
    i ∈ ((cfg5.win 3).blk t).view.set ↔ ∀ a : Fin 2, win5_3.index t a * S10000x64.size a ≤ (i a).val ∧ (i a).val < win5_3.index t a * S10000x64.size a + S10000x64.size a := by
  show i ∈ ((View.whole main_v67).slice (win5_3.rect t)).set ↔ _
  rw [View.set_slice_whole, Rect.mem_set_unit]
  exact Iff.rfl

/-- Every row is in the block of the point numbered by its ten-thousands. -/
theorem cover (i : S50000x64.Idx) : ∃ t : Fin cfg5.N, (cfg5.win 3).flush t = true ∧ i ∈ ((cfg5.win 3).blk t).view.set := by
  have hi0 : (i 0).val < 50000 := (i 0).isLt
  have hi1 : (i 1).val < 64 := (i 1).isLt
  have hN : cfg5.N = 5 := N_5
  have hlt : (i 0).val / 10000 < cfg5.N := by rw [hN]; omega
  obtain ⟨_, _, _, _, _, _, e30, e31⟩ := idx ⟨(i 0).val / 10000, hlt⟩
  refine ⟨⟨(i 0).val / 10000, hlt⟩, flush5_3 _, ?_⟩
  rw [mem_blk]
  intro a
  match a with
  | ⟨0, _⟩ =>
    show win5_3.index ⟨(i 0).val / 10000, hlt⟩ (0 : Fin 2) * 10000 ≤ (i 0).val ∧ (i 0).val < win5_3.index ⟨(i 0).val / 10000, hlt⟩ (0 : Fin 2) * 10000 + 10000
    rw [e30]
    show (i 0).val / 10000 * 10000 ≤ (i 0).val ∧ (i 0).val < (i 0).val / 10000 * 10000 + 10000
    omega
  | ⟨1, _⟩ =>
    show win5_3.index ⟨(i 0).val / 10000, hlt⟩ (1 : Fin 2) * 64 ≤ (i 1).val ∧ (i 1).val < win5_3.index ⟨(i 0).val / 10000, hlt⟩ (1 : Fin 2) * 64 + 64
    rw [e31]
    omega

/-- THE RESULT ARRAY after the launch: the layer of the arrays the launch found. -/
theorem result (c : Dev nD) : (dat5 V c).arrAt 3 cfg5.N = (GcnSpec.layer64x64 (V c main_v64) (V c main_arg8) (V c main_v66) : S50000x64.Idx → EReal) :=
  (dat5 V c).arrAt_eq_of_cover 3 _ (fun t _ => flushed_eq V c t) cover

end Cert.KernelIdeal.GcnRegion5

end
-- ==== Proof.Reg6.lean ====
/-
  Launch 6 of the program, a bias step tiled over the rows.

  The grid has five points; point t loads rows 10000 t … 10000 t + 9999 of the [50000, 64] matrix and the whole
  [1, 64] bias row and writes back the same rows of the result. Entry (p, j) of the block it stores is
  tanh of x (10000 t + p, j) + b (0, j). The five blocks tile the 50000 rows, so after the launch the result array is
  tanh of the matrix plus the bias row on every row, for whatever arrays the launch found.
-/
import proofs.«160013_j34815004902081_1_alg».proof.Proof.Gen.KernelIdeal.Frame
import proofs.«160013_j34815004902081_1_alg».proof.Proof.Spec
import Idealize.ShloMosaic.Lib.Pipeline.Value

set_option maxRecDepth 16384

noncomputable section

namespace Cert.KernelIdeal.GcnRegion6

open Cert.KernelIdeal Cert.KernelIdeal.Gen
open Idealize.ShloMosaic Idealize.ShloMosaic.ValueIdx Idealize.ShloMosaic.TcCoe Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The block the body stores, at an entry. -/
theorem pay_apply (x0 : FVec Ideal S10000x64 .f32) (x2 : FVec Ideal S1x64 .f32) (p : Fin 10000) (q : Fin 64) :
    k6_pay1 (F := Ideal) x0 x2 (ix2 p q) = Ideal.tanh (x0 (ix2 p q) + x2 (ix2 (0 : Fin 1) q)) := by
  unfold k6_pay1
  exact congrArg Ideal.tanh (GcnDense.kernel_bias_apply x0 x2 shapeCasts_S10000x64_S10000x64 shapeCasts_S1x64_S1x64 broadcasts_S1x64_S10000x64 p q)

/-- The index maps over the grid: the row windows move with the point, the bias window stays. -/
theorem idx : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- What point t writes back is block t of the bias step of the arrays as the launch finds them. -/
theorem flushed_eq (c : Dev nD) (t : Fin cfg6.N) :
    (dat6 V c).flushed 2 t = ((cfg6.win 2).blk t).view.read (Elt Ideal) (Host.tanh (GcnSpec.bias64 (V c main_v80) (V c main_v81)) : S50000x64.Idx → EReal) := by
  show (cfg6.win 2).cut (grid6.coords t) ((dat6 V c).after 2 t) = _
  rw [after6_2]
  unfold out6_2
  rw [View.canon_unit_zero hz]
  simp only [View.ld_unit_zero (S := S10000x64) hz, View.ld_unit_zero (S := S1x64) hz]
  obtain ⟨e00, e01, e10, e11, e20, e21⟩ := idx t
  have ht : t.val < 5 := lt_of_lt_of_eq t.isLt N_6
  funext y
  obtain ⟨p, q, rfl⟩ : ∃ (p : Fin 10000) (q : Fin 64), y = ix2 p q := ⟨y 0, y 1, eq_ix2 y⟩
  have hp : p.val < 10000 := p.isLt
  let r : Fin 50000 := ⟨t.val * 10000 + p.val, by omega⟩
  have hemb : ((cfg6.win 2).blk t).view.emb (ix2 p q) = ix2 r q := by
    funext a; apply Fin.ext
    match a with
    | ⟨0, _⟩ => show win6_2.index t (0 : Fin 2) * 10000 + 1 * p.val = t.val * 10000 + p.val; rw [e20]; omega
    | ⟨1, _⟩ => show win6_2.index t (1 : Fin 2) * 64 + 1 * q.val = q.val; rw [e21]; omega
  have h0 : iblk6 V c 0 t (ix2 p q) = V c main_v80 (ix2 r q) := by
    show V c main_v80 (((cfg6.win 0).blk t).view.emb (ix2 p q)) = _
    refine congrArg (V c main_v80) (funext fun a => Fin.ext ?_)
    match a with
    | ⟨0, _⟩ => show win6_0.index t (0 : Fin 2) * 10000 + 1 * p.val = t.val * 10000 + p.val; rw [e00]; omega
    | ⟨1, _⟩ => show win6_0.index t (1 : Fin 2) * 64 + 1 * q.val = q.val; rw [e01]; omega
  have h1 : iblk6 V c 1 t (ix2 (0 : Fin 1) q) = V c main_v81 (ix2 (0 : Fin 1) q) := by
    show V c main_v81 (((cfg6.win 1).blk t).view.emb (ix2 (0 : Fin 1) q)) = _
    refine congrArg (V c main_v81) (funext fun a => Fin.ext ?_)
    match a with
    | ⟨0, _⟩ => show win6_1.index t (0 : Fin 2) * 1 + 1 * 0 = 0; rw [e10]
    | ⟨1, _⟩ => show win6_1.index t (1 : Fin 2) * 64 + 1 * q.val = q.val; rw [e11]; omega
  show k6_pay1 (F := Ideal) (iblk6 V c 0 t) (iblk6 V c 1 t) (ix2 p q) = (Host.tanh (GcnSpec.bias64 (V c main_v80) (V c main_v81)) : S50000x64.Idx → EReal) (((cfg6.win 2).blk t).view.emb (ix2 p q))
  rw [hemb]
  refine (pay_apply (iblk6 V c 0 t) (iblk6 V c 1 t) p q).trans ?_
  rw [h0, h1]
  exact (congrArg Ideal.tanh (GcnSpec.bias64_apply (V c main_v80) (V c main_v81) r q)).symm

/-- An index of the result array is in point t's block iff each coordinate is in the block's range. -/
theorem mem_blk (t : Fin cfg6.N) (i : S50000x64.Idx) :
    i ∈ ((cfg6.win 2).blk t).view.set ↔ ∀ a : Fin 2, win6_2.index t a * S10000x64.size a ≤ (i a).val ∧ (i a).val < win6_2.index t a * S10000x64.size a + S10000x64.size a := by
  show i ∈ ((View.whole main_v82).slice (win6_2.rect t)).set ↔ _
  rw [View.set_slice_whole, Rect.mem_set_unit]
  exact Iff.rfl

/-- Every row is in the block of the point numbered by its ten-thousands. -/
theorem cover (i : S50000x64.Idx) : ∃ t : Fin cfg6.N, (cfg6.win 2).flush t = true ∧ i ∈ ((cfg6.win 2).blk t).view.set := by
  have hi0 : (i 0).val < 50000 := (i 0).isLt
  have hi1 : (i 1).val < 64 := (i 1).isLt
  have hN : cfg6.N = 5 := N_6
  have hlt : (i 0).val / 10000 < cfg6.N := by rw [hN]; omega
  obtain ⟨_, _, _, _, e20, e21⟩ := idx ⟨(i 0).val / 10000, hlt⟩
  refine ⟨⟨(i 0).val / 10000, hlt⟩, flush6_2 _, ?_⟩
  rw [mem_blk]
  intro a
  match a with
  | ⟨0, _⟩ =>
    show win6_2.index ⟨(i 0).val / 10000, hlt⟩ (0 : Fin 2) * 10000 ≤ (i 0).val ∧ (i 0).val < win6_2.index ⟨(i 0).val / 10000, hlt⟩ (0 : Fin 2) * 10000 + 10000
    rw [e20]
    show (i 0).val / 10000 * 10000 ≤ (i 0).val ∧ (i 0).val < (i 0).val / 10000 * 10000 + 10000
    omega
  | ⟨1, _⟩ =>
    show win6_2.index ⟨(i 0).val / 10000, hlt⟩ (1 : Fin 2) * 64 ≤ (i 1).val ∧ (i 1).val < win6_2.index ⟨(i 0).val / 10000, hlt⟩ (1 : Fin 2) * 64 + 64
    rw [e21]
    omega

/-- THE RESULT ARRAY after the launch: the bias step of the arrays the launch found. -/
theorem result (c : Dev nD) : (dat6 V c).arrAt 2 cfg6.N = (Host.tanh (GcnSpec.bias64 (V c main_v80) (V c main_v81)) : S50000x64.Idx → EReal) :=
  (dat6 V c).arrAt_eq_of_cover 2 _ (fun t _ => flushed_eq V c t) cover

end Cert.KernelIdeal.GcnRegion6

end
-- ==== Proof.Reg7.lean ====
/-
  Launch 7 of the program, a dense layer tiled over the rows.

  The grid has five points; point t loads rows 10000 t … 10000 t + 9999 of the [50000, 64] feature matrix, the whole
  [64, 64] weight matrix and the whole [1, 64] bias row, and writes back rows 10000 t … of the result. Entry (p, j) of
  the block it stores is (∑ k, x (10000 t + p, k) · w (k, j)) + b (0, j): entry (10000 t + p, j) of the layer of
  the whole matrices. The five blocks tile the 50000 rows, so after the launch the result array is the layer of the
  arrays the launch found, whatever they are.
-/
import proofs.«160013_j34815004902081_1_alg».proof.Proof.Gen.KernelIdeal.Frame
import proofs.«160013_j34815004902081_1_alg».proof.Proof.Spec
import Idealize.ShloMosaic.Lib.Pipeline.Value

set_option maxRecDepth 16384

noncomputable section

namespace Cert.KernelIdeal.GcnRegion7

open Cert.KernelIdeal Cert.KernelIdeal.Gen
open Idealize.ShloMosaic Idealize.ShloMosaic.ValueIdx Idealize.ShloMosaic.TcCoe Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

theorem dot_S10000x64_S64x64_S10000x64_1_0_0_1_n_n_l (j : S10000x64.Idx) (q : dot_S10000x64_S64x64_S10000x64_1_0_0_1_n_n.contr.Idx) : (dot_S10000x64_S64x64_S10000x64_1_0_0_1_n_n.lhsIdx j q 0).val = (j 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem dot_S10000x64_S64x64_S10000x64_1_0_0_1_n_n_r (j : S10000x64.Idx) (q : dot_S10000x64_S64x64_S10000x64_1_0_0_1_n_n.contr.Idx) : (dot_S10000x64_S64x64_S10000x64_1_0_0_1_n_n.rhsIdx j q 1).val = (j 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The block the body stores, at an entry: the layer of the loaded blocks. -/
theorem pay_apply (x0 : FVec Ideal S10000x64 .f32) (x1 : FVec Ideal S64x64 .f32) (x2 : FVec Ideal S1x64 .f32) (p : Fin 10000) (q : Fin 64) :
    k7_pay1 (F := Ideal) x0 x1 x2 (ix2 p q) = GcnDense.entry x0 x1 x2 p q := by
  unfold k7_pay1
  refine (GcnDense.kernel_layer_apply (φ₁ := .bf16) (φ₂ := .bf16) dot_S10000x64_S64x64_S10000x64_1_0_0_1_n_n rfl rfl rfl rfl dot_S10000x64_S64x64_S10000x64_1_0_0_1_n_n_l dot_S10000x64_S64x64_S10000x64_1_0_0_1_n_n_r none (truncf .bf16 (shapeCast S10000x64 x0 shapeCasts_S10000x64_S10000x64) bitsLt_bf16_f32) (truncf .bf16 x1 bitsLt_bf16_f32) x2 shapeCasts_S1x64_S1x64 broadcasts_S1x64_S10000x64 p q).trans ?_
  show GcnDense.entry (shapeCast S10000x64 x0 shapeCasts_S10000x64_S10000x64) x1 x2 p q = _
  rw [shapeCast_self]

/-- The index maps over the grid: the row windows move with the point, the weight and bias windows stay. -/
theorem idx : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

/-- What point t writes back is block t of the layer of the arrays as the launch finds them. -/
theorem flushed_eq (c : Dev nD) (t : Fin cfg7.N) :
    (dat7 V c).flushed 3 t = ((cfg7.win 3).blk t).view.read (Elt Ideal) (GcnSpec.layer64x64 (V c main_v82) (V c main_arg10) (V c main_v83) : S50000x64.Idx → EReal) := by
  show (cfg7.win 3).cut (grid7.coords t) ((dat7 V c).after 3 t) = _
  rw [after7_3]
  unfold out7_3
  rw [View.canon_unit_zero hz]
  simp only [View.ld_unit_zero (S := S10000x64) hz, View.ld_unit_zero (S := S64x64) hz, View.ld_unit_zero (S := S1x64) hz]
  obtain ⟨e00, e01, e10, e11, e20, e21, e30, e31⟩ := idx t
  have ht : t.val < 5 := lt_of_lt_of_eq t.isLt N_7
  funext y
  obtain ⟨p, q, rfl⟩ : ∃ (p : Fin 10000) (q : Fin 64), y = ix2 p q := ⟨y 0, y 1, eq_ix2 y⟩
  have hp : p.val < 10000 := p.isLt
  let r : Fin 50000 := ⟨t.val * 10000 + p.val, by omega⟩
  have hemb : ((cfg7.win 3).blk t).view.emb (ix2 p q) = ix2 r q := by
    funext a; apply Fin.ext
    match a with
    | ⟨0, _⟩ => show win7_3.index t (0 : Fin 2) * 10000 + 1 * p.val = t.val * 10000 + p.val; rw [e30]; omega
    | ⟨1, _⟩ => show win7_3.index t (1 : Fin 2) * 64 + 1 * q.val = q.val; rw [e31]; omega
  have h0 : ∀ k : Fin 64, iblk7 V c 0 t (ix2 p k) = V c main_v82 (ix2 r k) := fun k => by
    show V c main_v82 (((cfg7.win 0).blk t).view.emb (ix2 p k)) = _
    refine congrArg (V c main_v82) (funext fun a => Fin.ext ?_)
    match a with
    | ⟨0, _⟩ => show win7_0.index t (0 : Fin 2) * 10000 + 1 * p.val = t.val * 10000 + p.val; rw [e00]; omega
    | ⟨1, _⟩ => show win7_0.index t (1 : Fin 2) * 64 + 1 * k.val = k.val; rw [e01]; omega
  have h1 : ∀ k : Fin 64, iblk7 V c 1 t (ix2 k q) = V c main_arg10 (ix2 k q) := fun k => by
    show V c main_arg10 (((cfg7.win 1).blk t).view.emb (ix2 k q)) = _
    refine congrArg (V c main_arg10) (funext fun a => Fin.ext ?_)
    match a with
    | ⟨0, _⟩ => show win7_1.index t (0 : Fin 2) * 64 + 1 * k.val = k.val; rw [e10]; omega
    | ⟨1, _⟩ => show win7_1.index t (1 : Fin 2) * 64 + 1 * q.val = q.val; rw [e11]; omega
  have h2 : iblk7 V c 2 t (ix2 (0 : Fin 1) q) = V c main_v83 (ix2 (0 : Fin 1) q) := by
    show V c main_v83 (((cfg7.win 2).blk t).view.emb (ix2 (0 : Fin 1) q)) = _
    refine congrArg (V c main_v83) (funext fun a => Fin.ext ?_)
    match a with
    | ⟨0, _⟩ => show win7_2.index t (0 : Fin 2) * 1 + 1 * 0 = 0; rw [e20]
    | ⟨1, _⟩ => show win7_2.index t (1 : Fin 2) * 64 + 1 * q.val = q.val; rw [e21]; omega
  show k7_pay1 (F := Ideal) (iblk7 V c 0 t) (iblk7 V c 1 t) (iblk7 V c 2 t) (ix2 p q) = (GcnSpec.layer64x64 (V c main_v82) (V c main_arg10) (V c main_v83) : S50000x64.Idx → EReal) (((cfg7.win 3).blk t).view.emb (ix2 p q))
  rw [hemb]
  refine (pay_apply (iblk7 V c 0 t) (iblk7 V c 1 t) (iblk7 V c 2 t) p q).trans ?_
  refine (GcnDense.entry_congr (iblk7 V c 0 t) (iblk7 V c 1 t) (iblk7 V c 2 t) (V c main_v82) (V c main_arg10) (V c main_v83) p r q h0 h1 h2).trans ?_
  exact (GcnSpec.layer64x64_apply (V c main_v82) (V c main_arg10) (V c main_v83) r q).symm

/-- An index of the result array is in point t's block iff each coordinate is in the block's range. -/
theorem mem_blk (t : Fin cfg7.N) (i : S50000x64.Idx) :
    i ∈ ((cfg7.win 3).blk t).view.set ↔ ∀ a : Fin 2, win7_3.index t a * S10000x64.size a ≤ (i a).val ∧ (i a).val < win7_3.index t a * S10000x64.size a + S10000x64.size a := by
  show i ∈ ((View.whole main_v84).slice (win7_3.rect t)).set ↔ _
  rw [View.set_slice_whole, Rect.mem_set_unit]
  exact Iff.rfl

/-- Every row is in the block of the point numbered by its ten-thousands. -/
theorem cover (i : S50000x64.Idx) : ∃ t : Fin cfg7.N, (cfg7.win 3).flush t = true ∧ i ∈ ((cfg7.win 3).blk t).view.set := by
  have hi0 : (i 0).val < 50000 := (i 0).isLt
  have hi1 : (i 1).val < 64 := (i 1).isLt
  have hN : cfg7.N = 5 := N_7
  have hlt : (i 0).val / 10000 < cfg7.N := by rw [hN]; omega
  obtain ⟨_, _, _, _, _, _, e30, e31⟩ := idx ⟨(i 0).val / 10000, hlt⟩
  refine ⟨⟨(i 0).val / 10000, hlt⟩, flush7_3 _, ?_⟩
  rw [mem_blk]
  intro a
  match a with
  | ⟨0, _⟩ =>
    show win7_3.index ⟨(i 0).val / 10000, hlt⟩ (0 : Fin 2) * 10000 ≤ (i 0).val ∧ (i 0).val < win7_3.index ⟨(i 0).val / 10000, hlt⟩ (0 : Fin 2) * 10000 + 10000
    rw [e30]
    show (i 0).val / 10000 * 10000 ≤ (i 0).val ∧ (i 0).val < (i 0).val / 10000 * 10000 + 10000
    omega
  | ⟨1, _⟩ =>
    show win7_3.index ⟨(i 0).val / 10000, hlt⟩ (1 : Fin 2) * 64 ≤ (i 1).val ∧ (i 1).val < win7_3.index ⟨(i 0).val / 10000, hlt⟩ (1 : Fin 2) * 64 + 64
    rw [e31]
    omega

/-- THE RESULT ARRAY after the launch: the layer of the arrays the launch found. -/
theorem result (c : Dev nD) : (dat7 V c).arrAt 3 cfg7.N = (GcnSpec.layer64x64 (V c main_v82) (V c main_arg10) (V c main_v83) : S50000x64.Idx → EReal) :=
  (dat7 V c).arrAt_eq_of_cover 3 _ (fun t _ => flushed_eq V c t) cover

end Cert.KernelIdeal.GcnRegion7

end
-- ==== Proof.Reg8.lean ====
/-
  Launch 8 of the program, a dense layer tiled over the rows.

  The grid has five points; point t loads rows 10000 t … 10000 t + 9999 of the [50000, 64] feature matrix, the whole
  [64, 64] weight matrix and the whole [1, 64] bias row, and writes back rows 10000 t … of the result. Entry (p, j) of
  the block it stores is (∑ k, x (10000 t + p, k) · w (k, j)) + b (0, j): entry (10000 t + p, j) of the layer of
  the whole matrices. The five blocks tile the 50000 rows, so after the launch the result array is the layer of the
  arrays the launch found, whatever they are.
-/
import proofs.«160013_j34815004902081_1_alg».proof.Proof.Gen.KernelIdeal.Frame
import proofs.«160013_j34815004902081_1_alg».proof.Proof.Spec
import Idealize.ShloMosaic.Lib.Pipeline.Value

set_option maxRecDepth 16384

noncomputable section

namespace Cert.KernelIdeal.GcnRegion8

open Cert.KernelIdeal Cert.KernelIdeal.Gen
open Idealize.ShloMosaic Idealize.ShloMosaic.ValueIdx Idealize.ShloMosaic.TcCoe Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

theorem dot_S10000x64_S64x64_S10000x64_1_0_0_1_n_n_l (j : S10000x64.Idx) (q : dot_S10000x64_S64x64_S10000x64_1_0_0_1_n_n.contr.Idx) : (dot_S10000x64_S64x64_S10000x64_1_0_0_1_n_n.lhsIdx j q 0).val = (j 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem dot_S10000x64_S64x64_S10000x64_1_0_0_1_n_n_r (j : S10000x64.Idx) (q : dot_S10000x64_S64x64_S10000x64_1_0_0_1_n_n.contr.Idx) : (dot_S10000x64_S64x64_S10000x64_1_0_0_1_n_n.rhsIdx j q 1).val = (j 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The block the body stores, at an entry: the layer of the loaded blocks. -/
theorem pay_apply (x0 : FVec Ideal S10000x64 .f32) (x1 : FVec Ideal S64x64 .f32) (x2 : FVec Ideal S1x64 .f32) (p : Fin 10000) (q : Fin 64) :
    k8_pay1 (F := Ideal) x0 x1 x2 (ix2 p q) = GcnDense.entry x0 x1 x2 p q := by
  unfold k8_pay1
  refine (GcnDense.kernel_layer_apply (φ₁ := .bf16) (φ₂ := .bf16) dot_S10000x64_S64x64_S10000x64_1_0_0_1_n_n rfl rfl rfl rfl dot_S10000x64_S64x64_S10000x64_1_0_0_1_n_n_l dot_S10000x64_S64x64_S10000x64_1_0_0_1_n_n_r none (truncf .bf16 (shapeCast S10000x64 x0 shapeCasts_S10000x64_S10000x64) bitsLt_bf16_f32) (truncf .bf16 x1 bitsLt_bf16_f32) x2 shapeCasts_S1x64_S1x64 broadcasts_S1x64_S10000x64 p q).trans ?_
  show GcnDense.entry (shapeCast S10000x64 x0 shapeCasts_S10000x64_S10000x64) x1 x2 p q = _
  rw [shapeCast_self]

/-- The index maps over the grid: the row windows move with the point, the weight and bias windows stay. -/
theorem idx : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = t.val ∧ win8_3.index t (1 : Fin 2) = 0 :=
  (by decide +kernel : ∀ t : Fin grid8.N, _)

/-- What point t writes back is block t of the layer of the arrays as the launch finds them. -/
theorem flushed_eq (c : Dev nD) (t : Fin cfg8.N) :
    (dat8 V c).flushed 3 t = ((cfg8.win 3).blk t).view.read (Elt Ideal) (GcnSpec.layer64x64 (V c main_v84) (V c main_arg12) (V c main_v86) : S50000x64.Idx → EReal) := by
  show (cfg8.win 3).cut (grid8.coords t) ((dat8 V c).after 3 t) = _
  rw [after8_3]
  unfold out8_3
  rw [View.canon_unit_zero hz]
  simp only [View.ld_unit_zero (S := S10000x64) hz, View.ld_unit_zero (S := S64x64) hz, View.ld_unit_zero (S := S1x64) hz]
  obtain ⟨e00, e01, e10, e11, e20, e21, e30, e31⟩ := idx t
  have ht : t.val < 5 := lt_of_lt_of_eq t.isLt N_8
  funext y
  obtain ⟨p, q, rfl⟩ : ∃ (p : Fin 10000) (q : Fin 64), y = ix2 p q := ⟨y 0, y 1, eq_ix2 y⟩
  have hp : p.val < 10000 := p.isLt
  let r : Fin 50000 := ⟨t.val * 10000 + p.val, by omega⟩
  have hemb : ((cfg8.win 3).blk t).view.emb (ix2 p q) = ix2 r q := by
    funext a; apply Fin.ext
    match a with
    | ⟨0, _⟩ => show win8_3.index t (0 : Fin 2) * 10000 + 1 * p.val = t.val * 10000 + p.val; rw [e30]; omega
    | ⟨1, _⟩ => show win8_3.index t (1 : Fin 2) * 64 + 1 * q.val = q.val; rw [e31]; omega
  have h0 : ∀ k : Fin 64, iblk8 V c 0 t (ix2 p k) = V c main_v84 (ix2 r k) := fun k => by
    show V c main_v84 (((cfg8.win 0).blk t).view.emb (ix2 p k)) = _
    refine congrArg (V c main_v84) (funext fun a => Fin.ext ?_)
    match a with
    | ⟨0, _⟩ => show win8_0.index t (0 : Fin 2) * 10000 + 1 * p.val = t.val * 10000 + p.val; rw [e00]; omega
    | ⟨1, _⟩ => show win8_0.index t (1 : Fin 2) * 64 + 1 * k.val = k.val; rw [e01]; omega
  have h1 : ∀ k : Fin 64, iblk8 V c 1 t (ix2 k q) = V c main_arg12 (ix2 k q) := fun k => by
    show V c main_arg12 (((cfg8.win 1).blk t).view.emb (ix2 k q)) = _
    refine congrArg (V c main_arg12) (funext fun a => Fin.ext ?_)
    match a with
    | ⟨0, _⟩ => show win8_1.index t (0 : Fin 2) * 64 + 1 * k.val = k.val; rw [e10]; omega
    | ⟨1, _⟩ => show win8_1.index t (1 : Fin 2) * 64 + 1 * q.val = q.val; rw [e11]; omega
  have h2 : iblk8 V c 2 t (ix2 (0 : Fin 1) q) = V c main_v86 (ix2 (0 : Fin 1) q) := by
    show V c main_v86 (((cfg8.win 2).blk t).view.emb (ix2 (0 : Fin 1) q)) = _
    refine congrArg (V c main_v86) (funext fun a => Fin.ext ?_)
    match a with
    | ⟨0, _⟩ => show win8_2.index t (0 : Fin 2) * 1 + 1 * 0 = 0; rw [e20]
    | ⟨1, _⟩ => show win8_2.index t (1 : Fin 2) * 64 + 1 * q.val = q.val; rw [e21]; omega
  show k8_pay1 (F := Ideal) (iblk8 V c 0 t) (iblk8 V c 1 t) (iblk8 V c 2 t) (ix2 p q) = (GcnSpec.layer64x64 (V c main_v84) (V c main_arg12) (V c main_v86) : S50000x64.Idx → EReal) (((cfg8.win 3).blk t).view.emb (ix2 p q))
  rw [hemb]
  refine (pay_apply (iblk8 V c 0 t) (iblk8 V c 1 t) (iblk8 V c 2 t) p q).trans ?_
  refine (GcnDense.entry_congr (iblk8 V c 0 t) (iblk8 V c 1 t) (iblk8 V c 2 t) (V c main_v84) (V c main_arg12) (V c main_v86) p r q h0 h1 h2).trans ?_
  exact (GcnSpec.layer64x64_apply (V c main_v84) (V c main_arg12) (V c main_v86) r q).symm

/-- An index of the result array is in point t's block iff each coordinate is in the block's range. -/
theorem mem_blk (t : Fin cfg8.N) (i : S50000x64.Idx) :
    i ∈ ((cfg8.win 3).blk t).view.set ↔ ∀ a : Fin 2, win8_3.index t a * S10000x64.size a ≤ (i a).val ∧ (i a).val < win8_3.index t a * S10000x64.size a + S10000x64.size a := by
  show i ∈ ((View.whole main_v87).slice (win8_3.rect t)).set ↔ _
  rw [View.set_slice_whole, Rect.mem_set_unit]
  exact Iff.rfl

/-- Every row is in the block of the point numbered by its ten-thousands. -/
theorem cover (i : S50000x64.Idx) : ∃ t : Fin cfg8.N, (cfg8.win 3).flush t = true ∧ i ∈ ((cfg8.win 3).blk t).view.set := by
  have hi0 : (i 0).val < 50000 := (i 0).isLt
  have hi1 : (i 1).val < 64 := (i 1).isLt
  have hN : cfg8.N = 5 := N_8
  have hlt : (i 0).val / 10000 < cfg8.N := by rw [hN]; omega
  obtain ⟨_, _, _, _, _, _, e30, e31⟩ := idx ⟨(i 0).val / 10000, hlt⟩
  refine ⟨⟨(i 0).val / 10000, hlt⟩, flush8_3 _, ?_⟩
  rw [mem_blk]
  intro a
  match a with
  | ⟨0, _⟩ =>
    show win8_3.index ⟨(i 0).val / 10000, hlt⟩ (0 : Fin 2) * 10000 ≤ (i 0).val ∧ (i 0).val < win8_3.index ⟨(i 0).val / 10000, hlt⟩ (0 : Fin 2) * 10000 + 10000
    rw [e30]
    show (i 0).val / 10000 * 10000 ≤ (i 0).val ∧ (i 0).val < (i 0).val / 10000 * 10000 + 10000
    omega
  | ⟨1, _⟩ =>
    show win8_3.index ⟨(i 0).val / 10000, hlt⟩ (1 : Fin 2) * 64 ≤ (i 1).val ∧ (i 1).val < win8_3.index ⟨(i 0).val / 10000, hlt⟩ (1 : Fin 2) * 64 + 64
    rw [e31]
    omega

/-- THE RESULT ARRAY after the launch: the layer of the arrays the launch found. -/
theorem result (c : Dev nD) : (dat8 V c).arrAt 3 cfg8.N = (GcnSpec.layer64x64 (V c main_v84) (V c main_arg12) (V c main_v86) : S50000x64.Idx → EReal) :=
  (dat8 V c).arrAt_eq_of_cover 3 _ (fun t _ => flushed_eq V c t) cover

end Cert.KernelIdeal.GcnRegion8

end
-- ==== Proof.Reg9.lean ====
/-
  Launch 9 of the program, a bias step tiled over the rows.

  The grid has five points; point t loads rows 10000 t … 10000 t + 9999 of the [50000, 64] matrix and the whole
  [1, 64] bias row and writes back the same rows of the result. Entry (p, j) of the block it stores is
  tanh of x (10000 t + p, j) + b (0, j). The five blocks tile the 50000 rows, so after the launch the result array is
  tanh of the matrix plus the bias row on every row, for whatever arrays the launch found.
-/
import proofs.«160013_j34815004902081_1_alg».proof.Proof.Gen.KernelIdeal.Frame
import proofs.«160013_j34815004902081_1_alg».proof.Proof.Spec
import Idealize.ShloMosaic.Lib.Pipeline.Value

set_option maxRecDepth 16384

noncomputable section

namespace Cert.KernelIdeal.GcnRegion9

open Cert.KernelIdeal Cert.KernelIdeal.Gen
open Idealize.ShloMosaic Idealize.ShloMosaic.ValueIdx Idealize.ShloMosaic.TcCoe Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The block the body stores, at an entry. -/
theorem pay_apply (x0 : FVec Ideal S10000x64 .f32) (x2 : FVec Ideal S1x64 .f32) (p : Fin 10000) (q : Fin 64) :
    k9_pay1 (F := Ideal) x0 x2 (ix2 p q) = Ideal.tanh (x0 (ix2 p q) + x2 (ix2 (0 : Fin 1) q)) := by
  unfold k9_pay1
  exact congrArg Ideal.tanh (GcnDense.kernel_bias_apply x0 x2 shapeCasts_S10000x64_S10000x64 shapeCasts_S1x64_S1x64 broadcasts_S1x64_S10000x64 p q)

/-- The index maps over the grid: the row windows move with the point, the bias window stays. -/
theorem idx : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 2) = t.val ∧ win9_2.index t (1 : Fin 2) = 0 :=
  (by decide +kernel : ∀ t : Fin grid9.N, _)

/-- What point t writes back is block t of the bias step of the arrays as the launch finds them. -/
theorem flushed_eq (c : Dev nD) (t : Fin cfg9.N) :
    (dat9 V c).flushed 2 t = ((cfg9.win 2).blk t).view.read (Elt Ideal) (Host.tanh (GcnSpec.bias64 (V c main_v100) (V c main_v101)) : S50000x64.Idx → EReal) := by
  show (cfg9.win 2).cut (grid9.coords t) ((dat9 V c).after 2 t) = _
  rw [after9_2]
  unfold out9_2
  rw [View.canon_unit_zero hz]
  simp only [View.ld_unit_zero (S := S10000x64) hz, View.ld_unit_zero (S := S1x64) hz]
  obtain ⟨e00, e01, e10, e11, e20, e21⟩ := idx t
  have ht : t.val < 5 := lt_of_lt_of_eq t.isLt N_9
  funext y
  obtain ⟨p, q, rfl⟩ : ∃ (p : Fin 10000) (q : Fin 64), y = ix2 p q := ⟨y 0, y 1, eq_ix2 y⟩
  have hp : p.val < 10000 := p.isLt
  let r : Fin 50000 := ⟨t.val * 10000 + p.val, by omega⟩
  have hemb : ((cfg9.win 2).blk t).view.emb (ix2 p q) = ix2 r q := by
    funext a; apply Fin.ext
    match a with
    | ⟨0, _⟩ => show win9_2.index t (0 : Fin 2) * 10000 + 1 * p.val = t.val * 10000 + p.val; rw [e20]; omega
    | ⟨1, _⟩ => show win9_2.index t (1 : Fin 2) * 64 + 1 * q.val = q.val; rw [e21]; omega
  have h0 : iblk9 V c 0 t (ix2 p q) = V c main_v100 (ix2 r q) := by
    show V c main_v100 (((cfg9.win 0).blk t).view.emb (ix2 p q)) = _
    refine congrArg (V c main_v100) (funext fun a => Fin.ext ?_)
    match a with
    | ⟨0, _⟩ => show win9_0.index t (0 : Fin 2) * 10000 + 1 * p.val = t.val * 10000 + p.val; rw [e00]; omega
    | ⟨1, _⟩ => show win9_0.index t (1 : Fin 2) * 64 + 1 * q.val = q.val; rw [e01]; omega
  have h1 : iblk9 V c 1 t (ix2 (0 : Fin 1) q) = V c main_v101 (ix2 (0 : Fin 1) q) := by
    show V c main_v101 (((cfg9.win 1).blk t).view.emb (ix2 (0 : Fin 1) q)) = _
    refine congrArg (V c main_v101) (funext fun a => Fin.ext ?_)
    match a with
    | ⟨0, _⟩ => show win9_1.index t (0 : Fin 2) * 1 + 1 * 0 = 0; rw [e10]
    | ⟨1, _⟩ => show win9_1.index t (1 : Fin 2) * 64 + 1 * q.val = q.val; rw [e11]; omega
  show k9_pay1 (F := Ideal) (iblk9 V c 0 t) (iblk9 V c 1 t) (ix2 p q) = (Host.tanh (GcnSpec.bias64 (V c main_v100) (V c main_v101)) : S50000x64.Idx → EReal) (((cfg9.win 2).blk t).view.emb (ix2 p q))
  rw [hemb]
  refine (pay_apply (iblk9 V c 0 t) (iblk9 V c 1 t) p q).trans ?_
  rw [h0, h1]
  exact (congrArg Ideal.tanh (GcnSpec.bias64_apply (V c main_v100) (V c main_v101) r q)).symm

/-- An index of the result array is in point t's block iff each coordinate is in the block's range. -/
theorem mem_blk (t : Fin cfg9.N) (i : S50000x64.Idx) :
    i ∈ ((cfg9.win 2).blk t).view.set ↔ ∀ a : Fin 2, win9_2.index t a * S10000x64.size a ≤ (i a).val ∧ (i a).val < win9_2.index t a * S10000x64.size a + S10000x64.size a := by
  show i ∈ ((View.whole main_v102).slice (win9_2.rect t)).set ↔ _
  rw [View.set_slice_whole, Rect.mem_set_unit]
  exact Iff.rfl

/-- Every row is in the block of the point numbered by its ten-thousands. -/
theorem cover (i : S50000x64.Idx) : ∃ t : Fin cfg9.N, (cfg9.win 2).flush t = true ∧ i ∈ ((cfg9.win 2).blk t).view.set := by
  have hi0 : (i 0).val < 50000 := (i 0).isLt
  have hi1 : (i 1).val < 64 := (i 1).isLt
  have hN : cfg9.N = 5 := N_9
  have hlt : (i 0).val / 10000 < cfg9.N := by rw [hN]; omega
  obtain ⟨_, _, _, _, e20, e21⟩ := idx ⟨(i 0).val / 10000, hlt⟩
  refine ⟨⟨(i 0).val / 10000, hlt⟩, flush9_2 _, ?_⟩
  rw [mem_blk]
  intro a
  match a with
  | ⟨0, _⟩ =>
    show win9_2.index ⟨(i 0).val / 10000, hlt⟩ (0 : Fin 2) * 10000 ≤ (i 0).val ∧ (i 0).val < win9_2.index ⟨(i 0).val / 10000, hlt⟩ (0 : Fin 2) * 10000 + 10000
    rw [e20]
    show (i 0).val / 10000 * 10000 ≤ (i 0).val ∧ (i 0).val < (i 0).val / 10000 * 10000 + 10000
    omega
  | ⟨1, _⟩ =>
    show win9_2.index ⟨(i 0).val / 10000, hlt⟩ (1 : Fin 2) * 64 ≤ (i 1).val ∧ (i 1).val < win9_2.index ⟨(i 0).val / 10000, hlt⟩ (1 : Fin 2) * 64 + 64
    rw [e21]
    omega

/-- THE RESULT ARRAY after the launch: the bias step of the arrays the launch found. -/
theorem result (c : Dev nD) : (dat9 V c).arrAt 2 cfg9.N = (Host.tanh (GcnSpec.bias64 (V c main_v100) (V c main_v101)) : S50000x64.Idx → EReal) :=
  (dat9 V c).arrAt_eq_of_cover 2 _ (fun t _ => flushed_eq V c t) cover

end Cert.KernelIdeal.GcnRegion9

end
-- ==== Proof.Reg10.lean ====
/-
  Launch 10 of the program, a dense layer tiled over the rows.

  The grid has five points; point t loads rows 10000 t … 10000 t + 9999 of the [50000, 64] feature matrix, the whole
  [64, 64] weight matrix and the whole [1, 64] bias row, and writes back rows 10000 t … of the result. Entry (p, j) of
  the block it stores is (∑ k, x (10000 t + p, k) · w (k, j)) + b (0, j): entry (10000 t + p, j) of the layer of
  the whole matrices. The five blocks tile the 50000 rows, so after the launch the result array is the layer of the
  arrays the launch found, whatever they are.
-/
import proofs.«160013_j34815004902081_1_alg».proof.Proof.Gen.KernelIdeal.Frame
import proofs.«160013_j34815004902081_1_alg».proof.Proof.Spec
import Idealize.ShloMosaic.Lib.Pipeline.Value

set_option maxRecDepth 16384

noncomputable section

namespace Cert.KernelIdeal.GcnRegion10

open Cert.KernelIdeal Cert.KernelIdeal.Gen
open Idealize.ShloMosaic Idealize.ShloMosaic.ValueIdx Idealize.ShloMosaic.TcCoe Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

theorem dot_S10000x64_S64x64_S10000x64_1_0_0_1_n_n_l (j : S10000x64.Idx) (q : dot_S10000x64_S64x64_S10000x64_1_0_0_1_n_n.contr.Idx) : (dot_S10000x64_S64x64_S10000x64_1_0_0_1_n_n.lhsIdx j q 0).val = (j 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem dot_S10000x64_S64x64_S10000x64_1_0_0_1_n_n_r (j : S10000x64.Idx) (q : dot_S10000x64_S64x64_S10000x64_1_0_0_1_n_n.contr.Idx) : (dot_S10000x64_S64x64_S10000x64_1_0_0_1_n_n.rhsIdx j q 1).val = (j 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The block the body stores, at an entry: the layer of the loaded blocks. -/
theorem pay_apply (x0 : FVec Ideal S10000x64 .f32) (x1 : FVec Ideal S64x64 .f32) (x2 : FVec Ideal S1x64 .f32) (p : Fin 10000) (q : Fin 64) :
    k10_pay1 (F := Ideal) x0 x1 x2 (ix2 p q) = GcnDense.entry x0 x1 x2 p q := by
  unfold k10_pay1
  refine (GcnDense.kernel_layer_apply (φ₁ := .bf16) (φ₂ := .bf16) dot_S10000x64_S64x64_S10000x64_1_0_0_1_n_n rfl rfl rfl rfl dot_S10000x64_S64x64_S10000x64_1_0_0_1_n_n_l dot_S10000x64_S64x64_S10000x64_1_0_0_1_n_n_r none (truncf .bf16 (shapeCast S10000x64 x0 shapeCasts_S10000x64_S10000x64) bitsLt_bf16_f32) (truncf .bf16 x1 bitsLt_bf16_f32) x2 shapeCasts_S1x64_S1x64 broadcasts_S1x64_S10000x64 p q).trans ?_
  show GcnDense.entry (shapeCast S10000x64 x0 shapeCasts_S10000x64_S10000x64) x1 x2 p q = _
  rw [shapeCast_self]

/-- The index maps over the grid: the row windows move with the point, the weight and bias windows stay. -/
theorem idx : ∀ t : Fin cfg10.N, win10_0.index t (0 : Fin 2) = t.val ∧ win10_0.index t (1 : Fin 2) = 0
    ∧ win10_1.index t (0 : Fin 2) = 0 ∧ win10_1.index t (1 : Fin 2) = 0
    ∧ win10_2.index t (0 : Fin 2) = 0 ∧ win10_2.index t (1 : Fin 2) = 0
    ∧ win10_3.index t (0 : Fin 2) = t.val ∧ win10_3.index t (1 : Fin 2) = 0 :=
  (by decide +kernel : ∀ t : Fin grid10.N, _)

/-- What point t writes back is block t of the layer of the arrays as the launch finds them. -/
theorem flushed_eq (c : Dev nD) (t : Fin cfg10.N) :
    (dat10 V c).flushed 3 t = ((cfg10.win 3).blk t).view.read (Elt Ideal) (GcnSpec.layer64x64 (V c main_v102) (V c main_arg14) (V c main_v104) : S50000x64.Idx → EReal) := by
  show (cfg10.win 3).cut (grid10.coords t) ((dat10 V c).after 3 t) = _
  rw [after10_3]
  unfold out10_3
  rw [View.canon_unit_zero hz]
  simp only [View.ld_unit_zero (S := S10000x64) hz, View.ld_unit_zero (S := S64x64) hz, View.ld_unit_zero (S := S1x64) hz]
  obtain ⟨e00, e01, e10, e11, e20, e21, e30, e31⟩ := idx t
  have ht : t.val < 5 := lt_of_lt_of_eq t.isLt N_10
  funext y
  obtain ⟨p, q, rfl⟩ : ∃ (p : Fin 10000) (q : Fin 64), y = ix2 p q := ⟨y 0, y 1, eq_ix2 y⟩
  have hp : p.val < 10000 := p.isLt
  let r : Fin 50000 := ⟨t.val * 10000 + p.val, by omega⟩
  have hemb : ((cfg10.win 3).blk t).view.emb (ix2 p q) = ix2 r q := by
    funext a; apply Fin.ext
    match a with
    | ⟨0, _⟩ => show win10_3.index t (0 : Fin 2) * 10000 + 1 * p.val = t.val * 10000 + p.val; rw [e30]; omega
    | ⟨1, _⟩ => show win10_3.index t (1 : Fin 2) * 64 + 1 * q.val = q.val; rw [e31]; omega
  have h0 : ∀ k : Fin 64, iblk10 V c 0 t (ix2 p k) = V c main_v102 (ix2 r k) := fun k => by
    show V c main_v102 (((cfg10.win 0).blk t).view.emb (ix2 p k)) = _
    refine congrArg (V c main_v102) (funext fun a => Fin.ext ?_)
    match a with
    | ⟨0, _⟩ => show win10_0.index t (0 : Fin 2) * 10000 + 1 * p.val = t.val * 10000 + p.val; rw [e00]; omega
    | ⟨1, _⟩ => show win10_0.index t (1 : Fin 2) * 64 + 1 * k.val = k.val; rw [e01]; omega
  have h1 : ∀ k : Fin 64, iblk10 V c 1 t (ix2 k q) = V c main_arg14 (ix2 k q) := fun k => by
    show V c main_arg14 (((cfg10.win 1).blk t).view.emb (ix2 k q)) = _
    refine congrArg (V c main_arg14) (funext fun a => Fin.ext ?_)
    match a with
    | ⟨0, _⟩ => show win10_1.index t (0 : Fin 2) * 64 + 1 * k.val = k.val; rw [e10]; omega
    | ⟨1, _⟩ => show win10_1.index t (1 : Fin 2) * 64 + 1 * q.val = q.val; rw [e11]; omega
  have h2 : iblk10 V c 2 t (ix2 (0 : Fin 1) q) = V c main_v104 (ix2 (0 : Fin 1) q) := by
    show V c main_v104 (((cfg10.win 2).blk t).view.emb (ix2 (0 : Fin 1) q)) = _
    refine congrArg (V c main_v104) (funext fun a => Fin.ext ?_)
    match a with
    | ⟨0, _⟩ => show win10_2.index t (0 : Fin 2) * 1 + 1 * 0 = 0; rw [e20]
    | ⟨1, _⟩ => show win10_2.index t (1 : Fin 2) * 64 + 1 * q.val = q.val; rw [e21]; omega
  show k10_pay1 (F := Ideal) (iblk10 V c 0 t) (iblk10 V c 1 t) (iblk10 V c 2 t) (ix2 p q) = (GcnSpec.layer64x64 (V c main_v102) (V c main_arg14) (V c main_v104) : S50000x64.Idx → EReal) (((cfg10.win 3).blk t).view.emb (ix2 p q))
  rw [hemb]
  refine (pay_apply (iblk10 V c 0 t) (iblk10 V c 1 t) (iblk10 V c 2 t) p q).trans ?_
  refine (GcnDense.entry_congr (iblk10 V c 0 t) (iblk10 V c 1 t) (iblk10 V c 2 t) (V c main_v102) (V c main_arg14) (V c main_v104) p r q h0 h1 h2).trans ?_
  exact (GcnSpec.layer64x64_apply (V c main_v102) (V c main_arg14) (V c main_v104) r q).symm

/-- An index of the result array is in point t's block iff each coordinate is in the block's range. -/
theorem mem_blk (t : Fin cfg10.N) (i : S50000x64.Idx) :
    i ∈ ((cfg10.win 3).blk t).view.set ↔ ∀ a : Fin 2, win10_3.index t a * S10000x64.size a ≤ (i a).val ∧ (i a).val < win10_3.index t a * S10000x64.size a + S10000x64.size a := by
  show i ∈ ((View.whole main_v105).slice (win10_3.rect t)).set ↔ _
  rw [View.set_slice_whole, Rect.mem_set_unit]
  exact Iff.rfl

/-- Every row is in the block of the point numbered by its ten-thousands. -/
theorem cover (i : S50000x64.Idx) : ∃ t : Fin cfg10.N, (cfg10.win 3).flush t = true ∧ i ∈ ((cfg10.win 3).blk t).view.set := by
  have hi0 : (i 0).val < 50000 := (i 0).isLt
  have hi1 : (i 1).val < 64 := (i 1).isLt
  have hN : cfg10.N = 5 := N_10
  have hlt : (i 0).val / 10000 < cfg10.N := by rw [hN]; omega
  obtain ⟨_, _, _, _, _, _, e30, e31⟩ := idx ⟨(i 0).val / 10000, hlt⟩
  refine ⟨⟨(i 0).val / 10000, hlt⟩, flush10_3 _, ?_⟩
  rw [mem_blk]
  intro a
  match a with
  | ⟨0, _⟩ =>
    show win10_3.index ⟨(i 0).val / 10000, hlt⟩ (0 : Fin 2) * 10000 ≤ (i 0).val ∧ (i 0).val < win10_3.index ⟨(i 0).val / 10000, hlt⟩ (0 : Fin 2) * 10000 + 10000
    rw [e30]
    show (i 0).val / 10000 * 10000 ≤ (i 0).val ∧ (i 0).val < (i 0).val / 10000 * 10000 + 10000
    omega
  | ⟨1, _⟩ =>
    show win10_3.index ⟨(i 0).val / 10000, hlt⟩ (1 : Fin 2) * 64 ≤ (i 1).val ∧ (i 1).val < win10_3.index ⟨(i 0).val / 10000, hlt⟩ (1 : Fin 2) * 64 + 64
    rw [e31]
    omega

/-- THE RESULT ARRAY after the launch: the layer of the arrays the launch found. -/
theorem result (c : Dev nD) : (dat10 V c).arrAt 3 cfg10.N = (GcnSpec.layer64x64 (V c main_v102) (V c main_arg14) (V c main_v104) : S50000x64.Idx → EReal) :=
  (dat10 V c).arrAt_eq_of_cover 3 _ (fun t _ => flushed_eq V c t) cover

end Cert.KernelIdeal.GcnRegion10

end
-- ==== Proof.Reg11.lean ====
/-
  Launch 11 of the program, a bias step tiled over the rows.

  The grid has five points; point t loads rows 10000 t … 10000 t + 9999 of the [50000, 64] matrix and the whole
  [1, 64] bias row and writes back the same rows of the result. Entry (p, j) of the block it stores is
  tanh of x (10000 t + p, j) + b (0, j). The five blocks tile the 50000 rows, so after the launch the result array is
  tanh of the matrix plus the bias row on every row, for whatever arrays the launch found.
-/
import proofs.«160013_j34815004902081_1_alg».proof.Proof.Gen.KernelIdeal.Frame
import proofs.«160013_j34815004902081_1_alg».proof.Proof.Spec
import Idealize.ShloMosaic.Lib.Pipeline.Value

set_option maxRecDepth 16384

noncomputable section

namespace Cert.KernelIdeal.GcnRegion11

open Cert.KernelIdeal Cert.KernelIdeal.Gen
open Idealize.ShloMosaic Idealize.ShloMosaic.ValueIdx Idealize.ShloMosaic.TcCoe Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The block the body stores, at an entry. -/
theorem pay_apply (x0 : FVec Ideal S10000x64 .f32) (x2 : FVec Ideal S1x64 .f32) (p : Fin 10000) (q : Fin 64) :
    k11_pay1 (F := Ideal) x0 x2 (ix2 p q) = Ideal.tanh (x0 (ix2 p q) + x2 (ix2 (0 : Fin 1) q)) := by
  unfold k11_pay1
  exact congrArg Ideal.tanh (GcnDense.kernel_bias_apply x0 x2 shapeCasts_S10000x64_S10000x64 shapeCasts_S1x64_S1x64 broadcasts_S1x64_S10000x64 p q)

/-- The index maps over the grid: the row windows move with the point, the bias window stays. -/
theorem idx : ∀ t : Fin cfg11.N, win11_0.index t (0 : Fin 2) = t.val ∧ win11_0.index t (1 : Fin 2) = 0
    ∧ win11_1.index t (0 : Fin 2) = 0 ∧ win11_1.index t (1 : Fin 2) = 0
    ∧ win11_2.index t (0 : Fin 2) = t.val ∧ win11_2.index t (1 : Fin 2) = 0 :=
  (by decide +kernel : ∀ t : Fin grid11.N, _)

/-- What point t writes back is block t of the bias step of the arrays as the launch finds them. -/
theorem flushed_eq (c : Dev nD) (t : Fin cfg11.N) :
    (dat11 V c).flushed 2 t = ((cfg11.win 2).blk t).view.read (Elt Ideal) (Host.tanh (GcnSpec.bias64 (V c main_v118) (V c main_v119)) : S50000x64.Idx → EReal) := by
  show (cfg11.win 2).cut (grid11.coords t) ((dat11 V c).after 2 t) = _
  rw [after11_2]
  unfold out11_2
  rw [View.canon_unit_zero hz]
  simp only [View.ld_unit_zero (S := S10000x64) hz, View.ld_unit_zero (S := S1x64) hz]
  obtain ⟨e00, e01, e10, e11, e20, e21⟩ := idx t
  have ht : t.val < 5 := lt_of_lt_of_eq t.isLt N_11
  funext y
  obtain ⟨p, q, rfl⟩ : ∃ (p : Fin 10000) (q : Fin 64), y = ix2 p q := ⟨y 0, y 1, eq_ix2 y⟩
  have hp : p.val < 10000 := p.isLt
  let r : Fin 50000 := ⟨t.val * 10000 + p.val, by omega⟩
  have hemb : ((cfg11.win 2).blk t).view.emb (ix2 p q) = ix2 r q := by
    funext a; apply Fin.ext
    match a with
    | ⟨0, _⟩ => show win11_2.index t (0 : Fin 2) * 10000 + 1 * p.val = t.val * 10000 + p.val; rw [e20]; omega
    | ⟨1, _⟩ => show win11_2.index t (1 : Fin 2) * 64 + 1 * q.val = q.val; rw [e21]; omega
  have h0 : iblk11 V c 0 t (ix2 p q) = V c main_v118 (ix2 r q) := by
    show V c main_v118 (((cfg11.win 0).blk t).view.emb (ix2 p q)) = _
    refine congrArg (V c main_v118) (funext fun a => Fin.ext ?_)
    match a with
    | ⟨0, _⟩ => show win11_0.index t (0 : Fin 2) * 10000 + 1 * p.val = t.val * 10000 + p.val; rw [e00]; omega
    | ⟨1, _⟩ => show win11_0.index t (1 : Fin 2) * 64 + 1 * q.val = q.val; rw [e01]; omega
  have h1 : iblk11 V c 1 t (ix2 (0 : Fin 1) q) = V c main_v119 (ix2 (0 : Fin 1) q) := by
    show V c main_v119 (((cfg11.win 1).blk t).view.emb (ix2 (0 : Fin 1) q)) = _
    refine congrArg (V c main_v119) (funext fun a => Fin.ext ?_)
    match a with
    | ⟨0, _⟩ => show win11_1.index t (0 : Fin 2) * 1 + 1 * 0 = 0; rw [e10]
    | ⟨1, _⟩ => show win11_1.index t (1 : Fin 2) * 64 + 1 * q.val = q.val; rw [e11]; omega
  show k11_pay1 (F := Ideal) (iblk11 V c 0 t) (iblk11 V c 1 t) (ix2 p q) = (Host.tanh (GcnSpec.bias64 (V c main_v118) (V c main_v119)) : S50000x64.Idx → EReal) (((cfg11.win 2).blk t).view.emb (ix2 p q))
  rw [hemb]
  refine (pay_apply (iblk11 V c 0 t) (iblk11 V c 1 t) p q).trans ?_
  rw [h0, h1]
  exact (congrArg Ideal.tanh (GcnSpec.bias64_apply (V c main_v118) (V c main_v119) r q)).symm

/-- An index of the result array is in point t's block iff each coordinate is in the block's range. -/
theorem mem_blk (t : Fin cfg11.N) (i : S50000x64.Idx) :
    i ∈ ((cfg11.win 2).blk t).view.set ↔ ∀ a : Fin 2, win11_2.index t a * S10000x64.size a ≤ (i a).val ∧ (i a).val < win11_2.index t a * S10000x64.size a + S10000x64.size a := by
  show i ∈ ((View.whole main_v120).slice (win11_2.rect t)).set ↔ _
  rw [View.set_slice_whole, Rect.mem_set_unit]
  exact Iff.rfl

/-- Every row is in the block of the point numbered by its ten-thousands. -/
theorem cover (i : S50000x64.Idx) : ∃ t : Fin cfg11.N, (cfg11.win 2).flush t = true ∧ i ∈ ((cfg11.win 2).blk t).view.set := by
  have hi0 : (i 0).val < 50000 := (i 0).isLt
  have hi1 : (i 1).val < 64 := (i 1).isLt
  have hN : cfg11.N = 5 := N_11
  have hlt : (i 0).val / 10000 < cfg11.N := by rw [hN]; omega
  obtain ⟨_, _, _, _, e20, e21⟩ := idx ⟨(i 0).val / 10000, hlt⟩
  refine ⟨⟨(i 0).val / 10000, hlt⟩, flush11_2 _, ?_⟩
  rw [mem_blk]
  intro a
  match a with
  | ⟨0, _⟩ =>
    show win11_2.index ⟨(i 0).val / 10000, hlt⟩ (0 : Fin 2) * 10000 ≤ (i 0).val ∧ (i 0).val < win11_2.index ⟨(i 0).val / 10000, hlt⟩ (0 : Fin 2) * 10000 + 10000
    rw [e20]
    show (i 0).val / 10000 * 10000 ≤ (i 0).val ∧ (i 0).val < (i 0).val / 10000 * 10000 + 10000
    omega
  | ⟨1, _⟩ =>
    show win11_2.index ⟨(i 0).val / 10000, hlt⟩ (1 : Fin 2) * 64 ≤ (i 1).val ∧ (i 1).val < win11_2.index ⟨(i 0).val / 10000, hlt⟩ (1 : Fin 2) * 64 + 64
    rw [e21]
    omega

/-- THE RESULT ARRAY after the launch: the bias step of the arrays the launch found. -/
theorem result (c : Dev nD) : (dat11 V c).arrAt 2 cfg11.N = (Host.tanh (GcnSpec.bias64 (V c main_v118) (V c main_v119)) : S50000x64.Idx → EReal) :=
  (dat11 V c).arrAt_eq_of_cover 2 _ (fun t _ => flushed_eq V c t) cover

end Cert.KernelIdeal.GcnRegion11

end
-- ==== Proof.Reg12.lean ====
/-
  Launch 12 of the program, a dense layer tiled over the rows.

  The grid has five points; point t loads rows 10000 t … 10000 t + 9999 of the [50000, 64] feature matrix, the whole
  [64, 7] weight matrix and the whole [1, 7] bias row, and writes back rows 10000 t … of the result. Entry (p, j) of
  the block it stores is (∑ k, x (10000 t + p, k) · w (k, j)) + b (0, j): entry (10000 t + p, j) of the layer of
  the whole matrices. The five blocks tile the 50000 rows, so after the launch the result array is the layer of the
  arrays the launch found, whatever they are.
-/
import proofs.«160013_j34815004902081_1_alg».proof.Proof.Gen.KernelIdeal.Frame
import proofs.«160013_j34815004902081_1_alg».proof.Proof.Spec
import Idealize.ShloMosaic.Lib.Pipeline.Value

set_option maxRecDepth 16384

noncomputable section

namespace Cert.KernelIdeal.GcnRegion12

open Cert.KernelIdeal Cert.KernelIdeal.Gen
open Idealize.ShloMosaic Idealize.ShloMosaic.ValueIdx Idealize.ShloMosaic.TcCoe Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

theorem dot_S10000x64_S64x7_S10000x7_1_0_0_1_n_n_l (j : S10000x7.Idx) (q : dot_S10000x64_S64x7_S10000x7_1_0_0_1_n_n.contr.Idx) : (dot_S10000x64_S64x7_S10000x7_1_0_0_1_n_n.lhsIdx j q 0).val = (j 0).val := by
  unfold DotDims.lhsIdx
  rw [dif_neg (show ¬(0 : Fin S10000x64.rank) ∈ dot_S10000x64_S64x7_S10000x7_1_0_0_1_n_n.lhsBatch by decide), dif_pos (show (0 : Fin S10000x64.rank) ∈ dot_S10000x64_S64x7_S10000x7_1_0_0_1_n_n.lhsNonContracting by decide)]
  rfl
theorem dot_S10000x64_S64x7_S10000x7_1_0_0_1_n_n_r (j : S10000x7.Idx) (q : dot_S10000x64_S64x7_S10000x7_1_0_0_1_n_n.contr.Idx) : (dot_S10000x64_S64x7_S10000x7_1_0_0_1_n_n.rhsIdx j q 1).val = (j 1).val := by
  unfold DotDims.rhsIdx
  rw [dif_neg (show ¬(1 : Fin S64x7.rank) ∈ dot_S10000x64_S64x7_S10000x7_1_0_0_1_n_n.rhsBatch by decide), dif_pos (show (1 : Fin S64x7.rank) ∈ dot_S10000x64_S64x7_S10000x7_1_0_0_1_n_n.rhsNonContracting by decide)]
  rfl

/-- The block the body stores, at an entry: the layer of the loaded blocks. -/
theorem pay_apply (x0 : FVec Ideal S10000x64 .f32) (x1 : FVec Ideal S64x7 .f32) (x2 : FVec Ideal S1x7 .f32) (p : Fin 10000) (q : Fin 7) :
    k12_pay1 (F := Ideal) x0 x1 x2 (ix2 p q) = GcnDense.entry x0 x1 x2 p q := by
  unfold k12_pay1
  refine (GcnDense.kernel_layer_apply (φ₁ := .bf16) (φ₂ := .bf16) dot_S10000x64_S64x7_S10000x7_1_0_0_1_n_n rfl rfl rfl rfl dot_S10000x64_S64x7_S10000x7_1_0_0_1_n_n_l dot_S10000x64_S64x7_S10000x7_1_0_0_1_n_n_r none (truncf .bf16 (shapeCast S10000x64 x0 shapeCasts_S10000x64_S10000x64) bitsLt_bf16_f32) (truncf .bf16 x1 bitsLt_bf16_f32) x2 shapeCasts_S1x7_S1x7 broadcasts_S1x7_S10000x7 p q).trans ?_
  show GcnDense.entry (shapeCast S10000x64 x0 shapeCasts_S10000x64_S10000x64) x1 x2 p q = _
  rw [shapeCast_self]

/-- The index maps over the grid: the row windows move with the point, the weight and bias windows stay. -/
theorem idx : ∀ t : Fin cfg12.N, win12_0.index t (0 : Fin 2) = t.val ∧ win12_0.index t (1 : Fin 2) = 0
    ∧ win12_1.index t (0 : Fin 2) = 0 ∧ win12_1.index t (1 : Fin 2) = 0
    ∧ win12_2.index t (0 : Fin 2) = 0 ∧ win12_2.index t (1 : Fin 2) = 0
    ∧ win12_3.index t (0 : Fin 2) = t.val ∧ win12_3.index t (1 : Fin 2) = 0 :=
  (by decide +kernel : ∀ t : Fin grid12.N, _)

/-- What point t writes back is block t of the layer of the arrays as the launch finds them. -/
theorem flushed_eq (c : Dev nD) (t : Fin cfg12.N) :
    (dat12 V c).flushed 3 t = ((cfg12.win 3).blk t).view.read (Elt Ideal) (GcnSpec.layer64x7 (V c main_v120) (V c main_arg16) (V c main_v122) : S50000x7.Idx → EReal) := by
  show (cfg12.win 3).cut (grid12.coords t) ((dat12 V c).after 3 t) = _
  rw [after12_3]
  unfold out12_3
  rw [View.canon_unit_zero hz]
  simp only [View.ld_unit_zero (S := S10000x64) hz, View.ld_unit_zero (S := S64x7) hz, View.ld_unit_zero (S := S1x7) hz]
  obtain ⟨e00, e01, e10, e11, e20, e21, e30, e31⟩ := idx t
  have ht : t.val < 5 := lt_of_lt_of_eq t.isLt N_12
  funext y
  obtain ⟨p, q, rfl⟩ : ∃ (p : Fin 10000) (q : Fin 7), y = ix2 p q := ⟨y 0, y 1, eq_ix2 y⟩
  have hp : p.val < 10000 := p.isLt
  let r : Fin 50000 := ⟨t.val * 10000 + p.val, by omega⟩
  have hemb : ((cfg12.win 3).blk t).view.emb (ix2 p q) = ix2 r q := by
    funext a; apply Fin.ext
    match a with
    | ⟨0, _⟩ => show win12_3.index t (0 : Fin 2) * 10000 + 1 * p.val = t.val * 10000 + p.val; rw [e30]; omega
    | ⟨1, _⟩ => show win12_3.index t (1 : Fin 2) * 7 + 1 * q.val = q.val; rw [e31]; omega
  have h0 : ∀ k : Fin 64, iblk12 V c 0 t (ix2 p k) = V c main_v120 (ix2 r k) := fun k => by
    show V c main_v120 (((cfg12.win 0).blk t).view.emb (ix2 p k)) = _
    refine congrArg (V c main_v120) (funext fun a => Fin.ext ?_)
    match a with
    | ⟨0, _⟩ => show win12_0.index t (0 : Fin 2) * 10000 + 1 * p.val = t.val * 10000 + p.val; rw [e00]; omega
    | ⟨1, _⟩ => show win12_0.index t (1 : Fin 2) * 64 + 1 * k.val = k.val; rw [e01]; omega
  have h1 : ∀ k : Fin 64, iblk12 V c 1 t (ix2 k q) = V c main_arg16 (ix2 k q) := fun k => by
    show V c main_arg16 (((cfg12.win 1).blk t).view.emb (ix2 k q)) = _
    refine congrArg (V c main_arg16) (funext fun a => Fin.ext ?_)
    match a with
    | ⟨0, _⟩ => show win12_1.index t (0 : Fin 2) * 64 + 1 * k.val = k.val; rw [e10]; omega
    | ⟨1, _⟩ => show win12_1.index t (1 : Fin 2) * 7 + 1 * q.val = q.val; rw [e11]; omega
  have h2 : iblk12 V c 2 t (ix2 (0 : Fin 1) q) = V c main_v122 (ix2 (0 : Fin 1) q) := by
    show V c main_v122 (((cfg12.win 2).blk t).view.emb (ix2 (0 : Fin 1) q)) = _
    refine congrArg (V c main_v122) (funext fun a => Fin.ext ?_)
    match a with
    | ⟨0, _⟩ => show win12_2.index t (0 : Fin 2) * 1 + 1 * 0 = 0; rw [e20]
    | ⟨1, _⟩ => show win12_2.index t (1 : Fin 2) * 7 + 1 * q.val = q.val; rw [e21]; omega
  show k12_pay1 (F := Ideal) (iblk12 V c 0 t) (iblk12 V c 1 t) (iblk12 V c 2 t) (ix2 p q) = (GcnSpec.layer64x7 (V c main_v120) (V c main_arg16) (V c main_v122) : S50000x7.Idx → EReal) (((cfg12.win 3).blk t).view.emb (ix2 p q))
  rw [hemb]
  refine (pay_apply (iblk12 V c 0 t) (iblk12 V c 1 t) (iblk12 V c 2 t) p q).trans ?_
  refine (GcnDense.entry_congr (iblk12 V c 0 t) (iblk12 V c 1 t) (iblk12 V c 2 t) (V c main_v120) (V c main_arg16) (V c main_v122) p r q h0 h1 h2).trans ?_
  exact (GcnSpec.layer64x7_apply (V c main_v120) (V c main_arg16) (V c main_v122) r q).symm

/-- An index of the result array is in point t's block iff each coordinate is in the block's range. -/
theorem mem_blk (t : Fin cfg12.N) (i : S50000x7.Idx) :
    i ∈ ((cfg12.win 3).blk t).view.set ↔ ∀ a : Fin 2, win12_3.index t a * S10000x7.size a ≤ (i a).val ∧ (i a).val < win12_3.index t a * S10000x7.size a + S10000x7.size a := by
  show i ∈ ((View.whole main_v123).slice (win12_3.rect t)).set ↔ _
  rw [View.set_slice_whole, Rect.mem_set_unit]
  exact Iff.rfl

/-- Every row is in the block of the point numbered by its ten-thousands. -/
theorem cover (i : S50000x7.Idx) : ∃ t : Fin cfg12.N, (cfg12.win 3).flush t = true ∧ i ∈ ((cfg12.win 3).blk t).view.set := by
  have hi0 : (i 0).val < 50000 := (i 0).isLt
  have hi1 : (i 1).val < 7 := (i 1).isLt
  have hN : cfg12.N = 5 := N_12
  have hlt : (i 0).val / 10000 < cfg12.N := by rw [hN]; omega
  obtain ⟨_, _, _, _, _, _, e30, e31⟩ := idx ⟨(i 0).val / 10000, hlt⟩
  refine ⟨⟨(i 0).val / 10000, hlt⟩, flush12_3 _, ?_⟩
  rw [mem_blk]
  intro a
  match a with
  | ⟨0, _⟩ =>
    show win12_3.index ⟨(i 0).val / 10000, hlt⟩ (0 : Fin 2) * 10000 ≤ (i 0).val ∧ (i 0).val < win12_3.index ⟨(i 0).val / 10000, hlt⟩ (0 : Fin 2) * 10000 + 10000
    rw [e30]
    show (i 0).val / 10000 * 10000 ≤ (i 0).val ∧ (i 0).val < (i 0).val / 10000 * 10000 + 10000
    omega
  | ⟨1, _⟩ =>
    show win12_3.index ⟨(i 0).val / 10000, hlt⟩ (1 : Fin 2) * 7 ≤ (i 1).val ∧ (i 1).val < win12_3.index ⟨(i 0).val / 10000, hlt⟩ (1 : Fin 2) * 7 + 7
    rw [e31]
    omega

/-- THE RESULT ARRAY after the launch: the layer of the arrays the launch found. -/
theorem result (c : Dev nD) : (dat12 V c).arrAt 3 cfg12.N = (GcnSpec.layer64x7 (V c main_v120) (V c main_arg16) (V c main_v122) : S50000x7.Idx → EReal) :=
  (dat12 V c).arrAt_eq_of_cover 3 _ (fun t _ => flushed_eq V c t) cover

end Cert.KernelIdeal.GcnRegion12

end
-- ==== Proof.Reg13.lean ====
/-
  Launch 13 of the program, a bias step tiled over the rows.

  The grid has five points; point t loads rows 10000 t … 10000 t + 9999 of the [50000, 7] matrix and the whole
  [1, 7] bias row and writes back the same rows of the result. Entry (p, j) of the block it stores is
  x (10000 t + p, j) + b (0, j). The five blocks tile the 50000 rows, so after the launch the result array is
  the matrix plus the bias row on every row, for whatever arrays the launch found.
-/
import proofs.«160013_j34815004902081_1_alg».proof.Proof.Gen.KernelIdeal.Frame
import proofs.«160013_j34815004902081_1_alg».proof.Proof.Spec
import Idealize.ShloMosaic.Lib.Pipeline.Value

set_option maxRecDepth 16384

noncomputable section

namespace Cert.KernelIdeal.GcnRegion13

open Cert.KernelIdeal Cert.KernelIdeal.Gen
open Idealize.ShloMosaic Idealize.ShloMosaic.ValueIdx Idealize.ShloMosaic.TcCoe Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The block the body stores, at an entry. -/
theorem pay_apply (x0 : FVec Ideal S10000x7 .f32) (x2 : FVec Ideal S1x7 .f32) (p : Fin 10000) (q : Fin 7) :
    k13_pay1 (F := Ideal) x0 x2 (ix2 p q) = x0 (ix2 p q) + x2 (ix2 (0 : Fin 1) q) := by
  unfold k13_pay1
  exact GcnDense.kernel_bias_apply x0 x2 shapeCasts_S10000x7_S10000x7 shapeCasts_S1x7_S1x7 broadcasts_S1x7_S10000x7 p q

/-- The index maps over the grid: the row windows move with the point, the bias window stays. -/
theorem idx : ∀ t : Fin cfg13.N, win13_0.index t (0 : Fin 2) = t.val ∧ win13_0.index t (1 : Fin 2) = 0
    ∧ win13_1.index t (0 : Fin 2) = 0 ∧ win13_1.index t (1 : Fin 2) = 0
    ∧ win13_2.index t (0 : Fin 2) = t.val ∧ win13_2.index t (1 : Fin 2) = 0 :=
  (by decide +kernel : ∀ t : Fin grid13.N, _)

/-- What point t writes back is block t of the bias step of the arrays as the launch finds them. -/
theorem flushed_eq (c : Dev nD) (t : Fin cfg13.N) :
    (dat13 V c).flushed 2 t = ((cfg13.win 2).blk t).view.read (Elt Ideal) (GcnSpec.bias7 (V c main_v136) (V c main_v137) : S50000x7.Idx → EReal) := by
  show (cfg13.win 2).cut (grid13.coords t) ((dat13 V c).after 2 t) = _
  rw [after13_2]
  unfold out13_2
  rw [View.canon_unit_zero hz]
  simp only [View.ld_unit_zero (S := S10000x7) hz, View.ld_unit_zero (S := S1x7) hz]
  obtain ⟨e00, e01, e10, e11, e20, e21⟩ := idx t
  have ht : t.val < 5 := lt_of_lt_of_eq t.isLt N_13
  funext y
  obtain ⟨p, q, rfl⟩ : ∃ (p : Fin 10000) (q : Fin 7), y = ix2 p q := ⟨y 0, y 1, eq_ix2 y⟩
  have hp : p.val < 10000 := p.isLt
  let r : Fin 50000 := ⟨t.val * 10000 + p.val, by omega⟩
  have hemb : ((cfg13.win 2).blk t).view.emb (ix2 p q) = ix2 r q := by
    funext a; apply Fin.ext
    match a with
    | ⟨0, _⟩ => show win13_2.index t (0 : Fin 2) * 10000 + 1 * p.val = t.val * 10000 + p.val; rw [e20]; omega
    | ⟨1, _⟩ => show win13_2.index t (1 : Fin 2) * 7 + 1 * q.val = q.val; rw [e21]; omega
  have h0 : iblk13 V c 0 t (ix2 p q) = V c main_v136 (ix2 r q) := by
    show V c main_v136 (((cfg13.win 0).blk t).view.emb (ix2 p q)) = _
    refine congrArg (V c main_v136) (funext fun a => Fin.ext ?_)
    match a with
    | ⟨0, _⟩ => show win13_0.index t (0 : Fin 2) * 10000 + 1 * p.val = t.val * 10000 + p.val; rw [e00]; omega
    | ⟨1, _⟩ => show win13_0.index t (1 : Fin 2) * 7 + 1 * q.val = q.val; rw [e01]; omega
  have h1 : iblk13 V c 1 t (ix2 (0 : Fin 1) q) = V c main_v137 (ix2 (0 : Fin 1) q) := by
    show V c main_v137 (((cfg13.win 1).blk t).view.emb (ix2 (0 : Fin 1) q)) = _
    refine congrArg (V c main_v137) (funext fun a => Fin.ext ?_)
    match a with
    | ⟨0, _⟩ => show win13_1.index t (0 : Fin 2) * 1 + 1 * 0 = 0; rw [e10]
    | ⟨1, _⟩ => show win13_1.index t (1 : Fin 2) * 7 + 1 * q.val = q.val; rw [e11]; omega
  show k13_pay1 (F := Ideal) (iblk13 V c 0 t) (iblk13 V c 1 t) (ix2 p q) = (GcnSpec.bias7 (V c main_v136) (V c main_v137) : S50000x7.Idx → EReal) (((cfg13.win 2).blk t).view.emb (ix2 p q))
  rw [hemb]
  refine (pay_apply (iblk13 V c 0 t) (iblk13 V c 1 t) p q).trans ?_
  rw [h0, h1]
  exact (GcnSpec.bias7_apply (V c main_v136) (V c main_v137) r q).symm

/-- An index of the result array is in point t's block iff each coordinate is in the block's range. -/
theorem mem_blk (t : Fin cfg13.N) (i : S50000x7.Idx) :
    i ∈ ((cfg13.win 2).blk t).view.set ↔ ∀ a : Fin 2, win13_2.index t a * S10000x7.size a ≤ (i a).val ∧ (i a).val < win13_2.index t a * S10000x7.size a + S10000x7.size a := by
  show i ∈ ((View.whole main_v138).slice (win13_2.rect t)).set ↔ _
  rw [View.set_slice_whole, Rect.mem_set_unit]
  exact Iff.rfl

/-- Every row is in the block of the point numbered by its ten-thousands. -/
theorem cover (i : S50000x7.Idx) : ∃ t : Fin cfg13.N, (cfg13.win 2).flush t = true ∧ i ∈ ((cfg13.win 2).blk t).view.set := by
  have hi0 : (i 0).val < 50000 := (i 0).isLt
  have hi1 : (i 1).val < 7 := (i 1).isLt
  have hN : cfg13.N = 5 := N_13
  have hlt : (i 0).val / 10000 < cfg13.N := by rw [hN]; omega
  obtain ⟨_, _, _, _, e20, e21⟩ := idx ⟨(i 0).val / 10000, hlt⟩
  refine ⟨⟨(i 0).val / 10000, hlt⟩, flush13_2 _, ?_⟩
  rw [mem_blk]
  intro a
  match a with
  | ⟨0, _⟩ =>
    show win13_2.index ⟨(i 0).val / 10000, hlt⟩ (0 : Fin 2) * 10000 ≤ (i 0).val ∧ (i 0).val < win13_2.index ⟨(i 0).val / 10000, hlt⟩ (0 : Fin 2) * 10000 + 10000
    rw [e20]
    show (i 0).val / 10000 * 10000 ≤ (i 0).val ∧ (i 0).val < (i 0).val / 10000 * 10000 + 10000
    omega
  | ⟨1, _⟩ =>
    show win13_2.index ⟨(i 0).val / 10000, hlt⟩ (1 : Fin 2) * 7 ≤ (i 1).val ∧ (i 1).val < win13_2.index ⟨(i 0).val / 10000, hlt⟩ (1 : Fin 2) * 7 + 7
    rw [e21]
    omega

/-- THE RESULT ARRAY after the launch: the bias step of the arrays the launch found. -/
theorem result (c : Dev nD) : (dat13 V c).arrAt 2 cfg13.N = (GcnSpec.bias7 (V c main_v136) (V c main_v137) : S50000x7.Idx → EReal) :=
  (dat13 V c).arrAt_eq_of_cover 2 _ (fun t _ => flushed_eq V c t) cover

end Cert.KernelIdeal.GcnRegion13

end
-- ==== Proof.Reg14.lean ====
/-
  Launch 14 of the program, a dense layer tiled over the rows.

  The grid has five points; point t loads rows 10000 t … 10000 t + 9999 of the [50000, 7] feature matrix, the whole
  [7, 7] weight matrix and the whole [1, 7] bias row, and writes back rows 10000 t … of the result. Entry (p, j) of
  the block it stores is (∑ k, x (10000 t + p, k) · w (k, j)) + b (0, j): entry (10000 t + p, j) of the layer of
  the whole matrices. The five blocks tile the 50000 rows, so after the launch the result array is the layer of the
  arrays the launch found, whatever they are.
-/
import proofs.«160013_j34815004902081_1_alg».proof.Proof.Gen.KernelIdeal.Frame
import proofs.«160013_j34815004902081_1_alg».proof.Proof.Spec
import Idealize.ShloMosaic.Lib.Pipeline.Value

set_option maxRecDepth 16384

noncomputable section

namespace Cert.KernelIdeal.GcnRegion14

open Cert.KernelIdeal Cert.KernelIdeal.Gen
open Idealize.ShloMosaic Idealize.ShloMosaic.ValueIdx Idealize.ShloMosaic.TcCoe Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

theorem dot_S10000x7_S7x7_S10000x7_1_0_0_1_n_n_l (j : S10000x7.Idx) (q : dot_S10000x7_S7x7_S10000x7_1_0_0_1_n_n.contr.Idx) : (dot_S10000x7_S7x7_S10000x7_1_0_0_1_n_n.lhsIdx j q 0).val = (j 0).val := by
  unfold DotDims.lhsIdx
  rw [dif_neg (show ¬(0 : Fin S10000x7.rank) ∈ dot_S10000x7_S7x7_S10000x7_1_0_0_1_n_n.lhsBatch by decide), dif_pos (show (0 : Fin S10000x7.rank) ∈ dot_S10000x7_S7x7_S10000x7_1_0_0_1_n_n.lhsNonContracting by decide)]
  rfl
theorem dot_S10000x7_S7x7_S10000x7_1_0_0_1_n_n_r (j : S10000x7.Idx) (q : dot_S10000x7_S7x7_S10000x7_1_0_0_1_n_n.contr.Idx) : (dot_S10000x7_S7x7_S10000x7_1_0_0_1_n_n.rhsIdx j q 1).val = (j 1).val := by
  unfold DotDims.rhsIdx
  rw [dif_neg (show ¬(1 : Fin S7x7.rank) ∈ dot_S10000x7_S7x7_S10000x7_1_0_0_1_n_n.rhsBatch by decide), dif_pos (show (1 : Fin S7x7.rank) ∈ dot_S10000x7_S7x7_S10000x7_1_0_0_1_n_n.rhsNonContracting by decide)]
  rfl

/-- The block the body stores, at an entry: the layer of the loaded blocks. -/
theorem pay_apply (x0 : FVec Ideal S10000x7 .f32) (x1 : FVec Ideal S7x7 .f32) (x2 : FVec Ideal S1x7 .f32) (p : Fin 10000) (q : Fin 7) :
    k14_pay1 (F := Ideal) x0 x1 x2 (ix2 p q) = GcnDense.entry x0 x1 x2 p q := by
  unfold k14_pay1
  refine (GcnDense.kernel_layer_apply (φ₁ := .bf16) (φ₂ := .bf16) dot_S10000x7_S7x7_S10000x7_1_0_0_1_n_n rfl rfl rfl rfl dot_S10000x7_S7x7_S10000x7_1_0_0_1_n_n_l dot_S10000x7_S7x7_S10000x7_1_0_0_1_n_n_r none (truncf .bf16 (shapeCast S10000x7 x0 shapeCasts_S10000x7_S10000x7) bitsLt_bf16_f32) (truncf .bf16 x1 bitsLt_bf16_f32) x2 shapeCasts_S1x7_S1x7 broadcasts_S1x7_S10000x7 p q).trans ?_
  show GcnDense.entry (shapeCast S10000x7 x0 shapeCasts_S10000x7_S10000x7) x1 x2 p q = _
  rw [shapeCast_self]

/-- The index maps over the grid: the row windows move with the point, the weight and bias windows stay. -/
theorem idx : ∀ t : Fin cfg14.N, win14_0.index t (0 : Fin 2) = t.val ∧ win14_0.index t (1 : Fin 2) = 0
    ∧ win14_1.index t (0 : Fin 2) = 0 ∧ win14_1.index t (1 : Fin 2) = 0
    ∧ win14_2.index t (0 : Fin 2) = 0 ∧ win14_2.index t (1 : Fin 2) = 0
    ∧ win14_3.index t (0 : Fin 2) = t.val ∧ win14_3.index t (1 : Fin 2) = 0 :=
  (by decide +kernel : ∀ t : Fin grid14.N, _)

/-- What point t writes back is block t of the layer of the arrays as the launch finds them. -/
theorem flushed_eq (c : Dev nD) (t : Fin cfg14.N) :
    (dat14 V c).flushed 3 t = ((cfg14.win 3).blk t).view.read (Elt Ideal) (GcnSpec.layer7x7 (V c main_v138) (V c main_arg18) (V c main_v139) : S50000x7.Idx → EReal) := by
  show (cfg14.win 3).cut (grid14.coords t) ((dat14 V c).after 3 t) = _
  rw [after14_3]
  unfold out14_3
  rw [View.canon_unit_zero hz]
  simp only [View.ld_unit_zero (S := S10000x7) hz, View.ld_unit_zero (S := S7x7) hz, View.ld_unit_zero (S := S1x7) hz]
  obtain ⟨e00, e01, e10, e11, e20, e21, e30, e31⟩ := idx t
  have ht : t.val < 5 := lt_of_lt_of_eq t.isLt N_14
  funext y
  obtain ⟨p, q, rfl⟩ : ∃ (p : Fin 10000) (q : Fin 7), y = ix2 p q := ⟨y 0, y 1, eq_ix2 y⟩
  have hp : p.val < 10000 := p.isLt
  let r : Fin 50000 := ⟨t.val * 10000 + p.val, by omega⟩
  have hemb : ((cfg14.win 3).blk t).view.emb (ix2 p q) = ix2 r q := by
    funext a; apply Fin.ext
    match a with
    | ⟨0, _⟩ => show win14_3.index t (0 : Fin 2) * 10000 + 1 * p.val = t.val * 10000 + p.val; rw [e30]; omega
    | ⟨1, _⟩ => show win14_3.index t (1 : Fin 2) * 7 + 1 * q.val = q.val; rw [e31]; omega
  have h0 : ∀ k : Fin 7, iblk14 V c 0 t (ix2 p k) = V c main_v138 (ix2 r k) := fun k => by
    show V c main_v138 (((cfg14.win 0).blk t).view.emb (ix2 p k)) = _
    refine congrArg (V c main_v138) (funext fun a => Fin.ext ?_)
    match a with
    | ⟨0, _⟩ => show win14_0.index t (0 : Fin 2) * 10000 + 1 * p.val = t.val * 10000 + p.val; rw [e00]; omega
    | ⟨1, _⟩ => show win14_0.index t (1 : Fin 2) * 7 + 1 * k.val = k.val; rw [e01]; omega
  have h1 : ∀ k : Fin 7, iblk14 V c 1 t (ix2 k q) = V c main_arg18 (ix2 k q) := fun k => by
    show V c main_arg18 (((cfg14.win 1).blk t).view.emb (ix2 k q)) = _
    refine congrArg (V c main_arg18) (funext fun a => Fin.ext ?_)
    match a with
    | ⟨0, _⟩ => show win14_1.index t (0 : Fin 2) * 7 + 1 * k.val = k.val; rw [e10]; omega
    | ⟨1, _⟩ => show win14_1.index t (1 : Fin 2) * 7 + 1 * q.val = q.val; rw [e11]; omega
  have h2 : iblk14 V c 2 t (ix2 (0 : Fin 1) q) = V c main_v139 (ix2 (0 : Fin 1) q) := by
    show V c main_v139 (((cfg14.win 2).blk t).view.emb (ix2 (0 : Fin 1) q)) = _
    refine congrArg (V c main_v139) (funext fun a => Fin.ext ?_)
    match a with
    | ⟨0, _⟩ => show win14_2.index t (0 : Fin 2) * 1 + 1 * 0 = 0; rw [e20]
    | ⟨1, _⟩ => show win14_2.index t (1 : Fin 2) * 7 + 1 * q.val = q.val; rw [e21]; omega
  show k14_pay1 (F := Ideal) (iblk14 V c 0 t) (iblk14 V c 1 t) (iblk14 V c 2 t) (ix2 p q) = (GcnSpec.layer7x7 (V c main_v138) (V c main_arg18) (V c main_v139) : S50000x7.Idx → EReal) (((cfg14.win 3).blk t).view.emb (ix2 p q))
  rw [hemb]
  refine (pay_apply (iblk14 V c 0 t) (iblk14 V c 1 t) (iblk14 V c 2 t) p q).trans ?_
  refine (GcnDense.entry_congr (iblk14 V c 0 t) (iblk14 V c 1 t) (iblk14 V c 2 t) (V c main_v138) (V c main_arg18) (V c main_v139) p r q h0 h1 h2).trans ?_
  exact (GcnSpec.layer7x7_apply (V c main_v138) (V c main_arg18) (V c main_v139) r q).symm

/-- An index of the result array is in point t's block iff each coordinate is in the block's range. -/
theorem mem_blk (t : Fin cfg14.N) (i : S50000x7.Idx) :
    i ∈ ((cfg14.win 3).blk t).view.set ↔ ∀ a : Fin 2, win14_3.index t a * S10000x7.size a ≤ (i a).val ∧ (i a).val < win14_3.index t a * S10000x7.size a + S10000x7.size a := by
  show i ∈ ((View.whole main_v140).slice (win14_3.rect t)).set ↔ _
  rw [View.set_slice_whole, Rect.mem_set_unit]
  exact Iff.rfl

/-- Every row is in the block of the point numbered by its ten-thousands. -/
theorem cover (i : S50000x7.Idx) : ∃ t : Fin cfg14.N, (cfg14.win 3).flush t = true ∧ i ∈ ((cfg14.win 3).blk t).view.set := by
  have hi0 : (i 0).val < 50000 := (i 0).isLt
  have hi1 : (i 1).val < 7 := (i 1).isLt
  have hN : cfg14.N = 5 := N_14
  have hlt : (i 0).val / 10000 < cfg14.N := by rw [hN]; omega
  obtain ⟨_, _, _, _, _, _, e30, e31⟩ := idx ⟨(i 0).val / 10000, hlt⟩
  refine ⟨⟨(i 0).val / 10000, hlt⟩, flush14_3 _, ?_⟩
  rw [mem_blk]
  intro a
  match a with
  | ⟨0, _⟩ =>
    show win14_3.index ⟨(i 0).val / 10000, hlt⟩ (0 : Fin 2) * 10000 ≤ (i 0).val ∧ (i 0).val < win14_3.index ⟨(i 0).val / 10000, hlt⟩ (0 : Fin 2) * 10000 + 10000
    rw [e30]
    show (i 0).val / 10000 * 10000 ≤ (i 0).val ∧ (i 0).val < (i 0).val / 10000 * 10000 + 10000
    omega
  | ⟨1, _⟩ =>
    show win14_3.index ⟨(i 0).val / 10000, hlt⟩ (1 : Fin 2) * 7 ≤ (i 1).val ∧ (i 1).val < win14_3.index ⟨(i 0).val / 10000, hlt⟩ (1 : Fin 2) * 7 + 7
    rw [e31]
    omega

/-- THE RESULT ARRAY after the launch: the layer of the arrays the launch found. -/
theorem result (c : Dev nD) : (dat14 V c).arrAt 3 cfg14.N = (GcnSpec.layer7x7 (V c main_v138) (V c main_arg18) (V c main_v139) : S50000x7.Idx → EReal) :=
  (dat14 V c).arrAt_eq_of_cover 3 _ (fun t _ => flushed_eq V c t) cover

end Cert.KernelIdeal.GcnRegion14

end
-- ==== Proof.Walk.lean ====
/-
  The contents of the program's buffers along the walk, as the network of the specification.

  After the first stretch of host operations the edge endpoints (with self-loops) and the edge weights are in
  three buffers that nothing later writes. The first launch leaves tanh (x · W + b). Each graph convolution is
  then four segments: a stretch that writes a zero bias row; a launch whose result is h · W plus that row, which
  is h · W because adding zero changes no extended real; a stretch that gathers, scales and adds the rows over the
  edges and sets the layer's bias under a unit axis; and a launch that adds the bias row and applies tanh (the last
  convolution applies none). A bias vector reshaped to a row is the vector broadcast to a row. Following the
  fifteen launches in order gives each of the four results as the specification's function of the launch arrays.
-/
import proofs.«160013_j34815004902081_1_alg».proof.Proof.Steps
import proofs.«160013_j34815004902081_1_alg».proof.Proof.Spec
import proofs.«160013_j34815004902081_1_alg».proof.Proof.Reg0
import proofs.«160013_j34815004902081_1_alg».proof.Proof.Reg1
import proofs.«160013_j34815004902081_1_alg».proof.Proof.Reg2
import proofs.«160013_j34815004902081_1_alg».proof.Proof.Reg3
import proofs.«160013_j34815004902081_1_alg».proof.Proof.Reg4
import proofs.«160013_j34815004902081_1_alg».proof.Proof.Reg5
import proofs.«160013_j34815004902081_1_alg».proof.Proof.Reg6
import proofs.«160013_j34815004902081_1_alg».proof.Proof.Reg7
import proofs.«160013_j34815004902081_1_alg».proof.Proof.Reg8
import proofs.«160013_j34815004902081_1_alg».proof.Proof.Reg9
import proofs.«160013_j34815004902081_1_alg».proof.Proof.Reg10
import proofs.«160013_j34815004902081_1_alg».proof.Proof.Reg11
import proofs.«160013_j34815004902081_1_alg».proof.Proof.Reg12
import proofs.«160013_j34815004902081_1_alg».proof.Proof.Reg13
import proofs.«160013_j34815004902081_1_alg».proof.Proof.Reg14
import Idealize.ShloMosaic.Lib.StableHlo.Run

set_option maxRecDepth 16384

noncomputable section

namespace Cert.KernelIdeal.GcnWalk

open Cert.KernelIdeal Cert.KernelIdeal.Gen
open Idealize.ShloMosaic Idealize.ShloMosaic.TcCoe Idealize.SL.Sem Idealize.ShloMosaic.StableHlo
open Idealize.ShloMosaic.Pipeline (Dat Cfg Window)

variable (m : (ℓ : Loc nD τ sig) → Buf (Elt Ideal) ℓ) (ρ : Dev nD → PrngReg) (c : Dev nD)

/-! ## The values along the walk -/

/-- The source node of every extended edge. -/
abbrev sS : IVec S1650000 32 := GcnSpec.src (m ((c : Thread nD τ).loc main_arg1))
/-- The destination node of every extended edge. -/
abbrev sD : IVec S1650000 32 := GcnSpec.dst (m ((c : Thread nD τ).loc main_arg1))
/-- The weight of every extended edge. -/
abbrev sN : FVec Ideal S1650000 .f32 := GcnSpec.norm (m ((c : Thread nD τ).loc main_arg1))
/-- The encoder's hidden features after the input layer and after each convolution. -/
abbrev x0 : FVec Ideal S50000x64 .f32 := GcnSpec.enc0 (m ((c : Thread nD τ).loc main_arg0)) (m ((c : Thread nD τ).loc main_arg2)) (m ((c : Thread nD τ).loc main_arg3))
abbrev x1 : FVec Ideal S50000x64 .f32 := Host.tanh (GcnSpec.conv64 (sS m c) (sD m c) (sN m c) (x0 m c) (m ((c : Thread nD τ).loc main_arg4)) (m ((c : Thread nD τ).loc main_arg5)))
abbrev x2 : FVec Ideal S50000x64 .f32 := Host.tanh (GcnSpec.conv64 (sS m c) (sD m c) (sN m c) (x1 m c) (m ((c : Thread nD τ).loc main_arg6)) (m ((c : Thread nD τ).loc main_arg7)))
abbrev x3 : FVec Ideal S50000x64 .f32 := Host.tanh (GcnSpec.conv64 (sS m c) (sD m c) (sN m c) (x2 m c) (m ((c : Thread nD τ).loc main_arg8)) (m ((c : Thread nD τ).loc main_arg9)))
/-- The code. -/
abbrev zz : FVec Ideal S50000x64 .f32 := GcnSpec.layer64x64 (x3 m c) (m ((c : Thread nD τ).loc main_arg10)) (GcnSpec.row64 (m ((c : Thread nD τ).loc main_arg11)))
/-- The decoder's hidden features after each convolution. -/
abbrev y1 : FVec Ideal S50000x64 .f32 := Host.tanh (GcnSpec.conv64 (sS m c) (sD m c) (sN m c) (zz m c) (m ((c : Thread nD τ).loc main_arg12)) (m ((c : Thread nD τ).loc main_arg13)))
abbrev y2 : FVec Ideal S50000x64 .f32 := Host.tanh (GcnSpec.conv64 (sS m c) (sD m c) (sN m c) (y1 m c) (m ((c : Thread nD τ).loc main_arg14)) (m ((c : Thread nD τ).loc main_arg15)))
abbrev y3 : FVec Ideal S50000x7 .f32 := GcnSpec.conv7 (sS m c) (sD m c) (sN m c) (y2 m c) (m ((c : Thread nD τ).loc main_arg16)) (m ((c : Thread nD τ).loc main_arg17))
/-- The reconstruction. -/
abbrev rr : FVec Ideal S50000x7 .f32 := GcnSpec.layer7x7 (y3 m c) (m ((c : Thread nD τ).loc main_arg18)) (GcnSpec.row7 (m ((c : Thread nD τ).loc main_arg19)))

/-! ## After the first stretch -/

theorem v3_1 : W1 m ρ c (Proc.devRef .tc main_v3) = sS m c := by
  show StableHlo.after hostOps0 (W0 m ρ c) (Proc.devRef .tc main_v3) = _
  after_results_simp; rfl

theorem v6_1 : W1 m ρ c (Proc.devRef .tc main_v6) = sD m c := by
  show StableHlo.after hostOps0 (W0 m ρ c) (Proc.devRef .tc main_v6) = _
  after_results_simp; rfl

theorem v26_1 : W1 m ρ c (Proc.devRef .tc main_v26) = sN m c := by
  show StableHlo.after hostOps0 (W0 m ρ c) (Proc.devRef .tc main_v26) = _
  after_results_simp; rfl

theorem v27_1 : W1 m ρ c (Proc.devRef .tc main_v27) = shapeCast S1x64 (m ((c : Thread nD τ).loc main_arg3)) shapeCasts_S64_S1x64 := by
  show StableHlo.after hostOps0 (W0 m ρ c) (Proc.devRef .tc main_v27) = _
  after_results_simp; rfl

/-! ### The input layer -/

theorem out_0 : W2 m ρ c (Proc.devRef .tc main_v28) = x0 m c := by
  refine (W2_arr m ρ c 3).trans ((GcnRegion0.result (V1 m ρ) c).trans ?_)
  show Host.tanh (GcnSpec.layer7x64 (W1 m ρ c (Proc.devRef .tc main_arg0)) (W1 m ρ c (Proc.devRef .tc main_arg2)) (W1 m ρ c (Proc.devRef .tc main_v27))) = _
  rw [show W1 m ρ c (Proc.devRef .tc main_arg0) = (m ((c : Thread nD τ).loc main_arg0)) from ((GcnSteps.host0 m ρ c main_arg0 (by decide))),
    show W1 m ρ c (Proc.devRef .tc main_arg2) = (m ((c : Thread nD τ).loc main_arg2)) from ((GcnSteps.host0 m ρ c main_arg2 (by decide))), v27_1 m ρ c]
  rw [GcnDense.row_reshape_eq_broadcast _ _ Cert.ReferenceIdeal.Gen.bcast_S64_S1x64_1]
  rfl

/-! ### First encoder convolution -/

theorem zrow_1 : W3 m ρ c (Proc.devRef .tc main_v30) = (shapeCast S1x64 (broadcastInDim S64 ![] bcast_S_S64 (constant (F := Ideal) S_ .f32 0x00000000#32)) shapeCasts_S64_S1x64) := by
  show StableHlo.after hostOps1 (W2 m ρ c) (Proc.devRef .tc main_v30) = _
  after_results_simp; rfl

theorem lin_1 : W4 m ρ c (Proc.devRef .tc main_v31) = GcnSpec.dot64x64 (x0 m c) (m ((c : Thread nD τ).loc main_arg4)) := by
  refine (W4_arr m ρ c 3).trans ((GcnRegion1.result (V3 m ρ) c).trans ?_)
  show GcnSpec.layer64x64 (W3 m ρ c (Proc.devRef .tc main_v28)) (W3 m ρ c (Proc.devRef .tc main_arg4)) (W3 m ρ c (Proc.devRef .tc main_v30)) = _
  rw [show W3 m ρ c (Proc.devRef .tc main_v28) = (x0 m c) from (GcnSteps.host1 m ρ c main_v28 (by decide)).trans (out_0 m ρ c),
    show W3 m ρ c (Proc.devRef .tc main_arg4) = (m ((c : Thread nD τ).loc main_arg4)) from (((GcnSteps.host1 m ρ c main_arg4 (by decide)).trans ((GcnSteps.reg0 m ρ c main_arg4 (by decide)).trans (GcnSteps.host0 m ρ c main_arg4 (by decide))))), zrow_1 m ρ c]
  unfold GcnSpec.layer64x64 GcnSpec.rows64
  exact GcnDense.add_zero_row _ _ _ _

theorem agg_2 : W5 m ρ c (Proc.devRef .tc main_v44) = GcnSpec.agg64 (W4 m ρ c (Proc.devRef .tc main_v3)) (W4 m ρ c (Proc.devRef .tc main_v6)) (W4 m ρ c (Proc.devRef .tc main_v26)) (W4 m ρ c (Proc.devRef .tc main_v31)) := by
  show StableHlo.after hostOps2 (W4 m ρ c) (Proc.devRef .tc main_v44) = _
  after_results_simp; rfl

theorem brow_2 : W5 m ρ c (Proc.devRef .tc main_v45) = shapeCast S1x64 (W4 m ρ c (Proc.devRef .tc main_arg5)) shapeCasts_S64_S1x64 := by
  show StableHlo.after hostOps2 (W4 m ρ c) (Proc.devRef .tc main_v45) = _
  after_results_simp; rfl

theorem out_2 : W6 m ρ c (Proc.devRef .tc main_v46) = x1 m c := by
  refine (W6_arr m ρ c 2).trans ((GcnRegion2.result (V5 m ρ) c).trans ?_)
  show Host.tanh (GcnSpec.bias64 (W5 m ρ c (Proc.devRef .tc main_v44)) (W5 m ρ c (Proc.devRef .tc main_v45))) = _
  rw [agg_2 m ρ c, brow_2 m ρ c,
    show W4 m ρ c (Proc.devRef .tc main_v3) = sS m c from (((GcnSteps.reg1 m ρ c main_v3 (by decide)).trans ((GcnSteps.host1 m ρ c main_v3 (by decide)).trans (GcnSteps.reg0 m ρ c main_v3 (by decide))))).trans (v3_1 m ρ c),
    show W4 m ρ c (Proc.devRef .tc main_v6) = sD m c from (((GcnSteps.reg1 m ρ c main_v6 (by decide)).trans ((GcnSteps.host1 m ρ c main_v6 (by decide)).trans (GcnSteps.reg0 m ρ c main_v6 (by decide))))).trans (v6_1 m ρ c),
    show W4 m ρ c (Proc.devRef .tc main_v26) = sN m c from (((GcnSteps.reg1 m ρ c main_v26 (by decide)).trans ((GcnSteps.host1 m ρ c main_v26 (by decide)).trans (GcnSteps.reg0 m ρ c main_v26 (by decide))))).trans (v26_1 m ρ c),
    lin_1 m ρ c,
    show W4 m ρ c (Proc.devRef .tc main_arg5) = (m ((c : Thread nD τ).loc main_arg5)) from (((GcnSteps.reg1 m ρ c main_arg5 (by decide)).trans ((GcnSteps.host1 m ρ c main_arg5 (by decide)).trans ((GcnSteps.reg0 m ρ c main_arg5 (by decide)).trans (GcnSteps.host0 m ρ c main_arg5 (by decide))))))]
  rw [GcnDense.row_reshape_eq_broadcast _ _ Cert.ReferenceIdeal.Gen.bcast_S64_S1x64_1]
  rfl

/-! ### Second encoder convolution -/

theorem zrow_3 : W7 m ρ c (Proc.devRef .tc main_v48) = (shapeCast S1x64 (broadcastInDim S64 ![] bcast_S_S64 (constant (F := Ideal) S_ .f32 0x00000000#32)) shapeCasts_S64_S1x64) := by
  show StableHlo.after hostOps3 (W6 m ρ c) (Proc.devRef .tc main_v48) = _
  after_results_simp; rfl

theorem lin_3 : W8 m ρ c (Proc.devRef .tc main_v49) = GcnSpec.dot64x64 (x1 m c) (m ((c : Thread nD τ).loc main_arg6)) := by
  refine (W8_arr m ρ c 3).trans ((GcnRegion3.result (V7 m ρ) c).trans ?_)
  show GcnSpec.layer64x64 (W7 m ρ c (Proc.devRef .tc main_v46)) (W7 m ρ c (Proc.devRef .tc main_arg6)) (W7 m ρ c (Proc.devRef .tc main_v48)) = _
  rw [show W7 m ρ c (Proc.devRef .tc main_v46) = (x1 m c) from (GcnSteps.host3 m ρ c main_v46 (by decide)).trans (out_2 m ρ c),
    show W7 m ρ c (Proc.devRef .tc main_arg6) = (m ((c : Thread nD τ).loc main_arg6)) from (((GcnSteps.host3 m ρ c main_arg6 (by decide)).trans ((GcnSteps.reg2 m ρ c main_arg6 (by decide)).trans ((GcnSteps.host2 m ρ c main_arg6 (by decide)).trans ((GcnSteps.reg1 m ρ c main_arg6 (by decide)).trans ((GcnSteps.host1 m ρ c main_arg6 (by decide)).trans ((GcnSteps.reg0 m ρ c main_arg6 (by decide)).trans (GcnSteps.host0 m ρ c main_arg6 (by decide))))))))), zrow_3 m ρ c]
  unfold GcnSpec.layer64x64 GcnSpec.rows64
  exact GcnDense.add_zero_row _ _ _ _

theorem agg_4 : W9 m ρ c (Proc.devRef .tc main_v62) = GcnSpec.agg64 (W8 m ρ c (Proc.devRef .tc main_v3)) (W8 m ρ c (Proc.devRef .tc main_v6)) (W8 m ρ c (Proc.devRef .tc main_v26)) (W8 m ρ c (Proc.devRef .tc main_v49)) := by
  show StableHlo.after hostOps4 (W8 m ρ c) (Proc.devRef .tc main_v62) = _
  after_results_simp; rfl

theorem brow_4 : W9 m ρ c (Proc.devRef .tc main_v63) = shapeCast S1x64 (W8 m ρ c (Proc.devRef .tc main_arg7)) shapeCasts_S64_S1x64 := by
  show StableHlo.after hostOps4 (W8 m ρ c) (Proc.devRef .tc main_v63) = _
  after_results_simp; rfl

theorem out_4 : W10 m ρ c (Proc.devRef .tc main_v64) = x2 m c := by
  refine (W10_arr m ρ c 2).trans ((GcnRegion4.result (V9 m ρ) c).trans ?_)
  show Host.tanh (GcnSpec.bias64 (W9 m ρ c (Proc.devRef .tc main_v62)) (W9 m ρ c (Proc.devRef .tc main_v63))) = _
  rw [agg_4 m ρ c, brow_4 m ρ c,
    show W8 m ρ c (Proc.devRef .tc main_v3) = sS m c from (((GcnSteps.reg3 m ρ c main_v3 (by decide)).trans ((GcnSteps.host3 m ρ c main_v3 (by decide)).trans ((GcnSteps.reg2 m ρ c main_v3 (by decide)).trans ((GcnSteps.host2 m ρ c main_v3 (by decide)).trans ((GcnSteps.reg1 m ρ c main_v3 (by decide)).trans ((GcnSteps.host1 m ρ c main_v3 (by decide)).trans (GcnSteps.reg0 m ρ c main_v3 (by decide))))))))).trans (v3_1 m ρ c),
    show W8 m ρ c (Proc.devRef .tc main_v6) = sD m c from (((GcnSteps.reg3 m ρ c main_v6 (by decide)).trans ((GcnSteps.host3 m ρ c main_v6 (by decide)).trans ((GcnSteps.reg2 m ρ c main_v6 (by decide)).trans ((GcnSteps.host2 m ρ c main_v6 (by decide)).trans ((GcnSteps.reg1 m ρ c main_v6 (by decide)).trans ((GcnSteps.host1 m ρ c main_v6 (by decide)).trans (GcnSteps.reg0 m ρ c main_v6 (by decide))))))))).trans (v6_1 m ρ c),
    show W8 m ρ c (Proc.devRef .tc main_v26) = sN m c from (((GcnSteps.reg3 m ρ c main_v26 (by decide)).trans ((GcnSteps.host3 m ρ c main_v26 (by decide)).trans ((GcnSteps.reg2 m ρ c main_v26 (by decide)).trans ((GcnSteps.host2 m ρ c main_v26 (by decide)).trans ((GcnSteps.reg1 m ρ c main_v26 (by decide)).trans ((GcnSteps.host1 m ρ c main_v26 (by decide)).trans (GcnSteps.reg0 m ρ c main_v26 (by decide))))))))).trans (v26_1 m ρ c),
    lin_3 m ρ c,
    show W8 m ρ c (Proc.devRef .tc main_arg7) = (m ((c : Thread nD τ).loc main_arg7)) from (((GcnSteps.reg3 m ρ c main_arg7 (by decide)).trans ((GcnSteps.host3 m ρ c main_arg7 (by decide)).trans ((GcnSteps.reg2 m ρ c main_arg7 (by decide)).trans ((GcnSteps.host2 m ρ c main_arg7 (by decide)).trans ((GcnSteps.reg1 m ρ c main_arg7 (by decide)).trans ((GcnSteps.host1 m ρ c main_arg7 (by decide)).trans ((GcnSteps.reg0 m ρ c main_arg7 (by decide)).trans (GcnSteps.host0 m ρ c main_arg7 (by decide))))))))))]
  rw [GcnDense.row_reshape_eq_broadcast _ _ Cert.ReferenceIdeal.Gen.bcast_S64_S1x64_1]
  rfl

/-! ### Third encoder convolution -/

theorem zrow_5 : W11 m ρ c (Proc.devRef .tc main_v66) = (shapeCast S1x64 (broadcastInDim S64 ![] bcast_S_S64 (constant (F := Ideal) S_ .f32 0x00000000#32)) shapeCasts_S64_S1x64) := by
  show StableHlo.after hostOps5 (W10 m ρ c) (Proc.devRef .tc main_v66) = _
  after_results_simp; rfl

theorem lin_5 : W12 m ρ c (Proc.devRef .tc main_v67) = GcnSpec.dot64x64 (x2 m c) (m ((c : Thread nD τ).loc main_arg8)) := by
  refine (W12_arr m ρ c 3).trans ((GcnRegion5.result (V11 m ρ) c).trans ?_)
  show GcnSpec.layer64x64 (W11 m ρ c (Proc.devRef .tc main_v64)) (W11 m ρ c (Proc.devRef .tc main_arg8)) (W11 m ρ c (Proc.devRef .tc main_v66)) = _
  rw [show W11 m ρ c (Proc.devRef .tc main_v64) = (x2 m c) from (GcnSteps.host5 m ρ c main_v64 (by decide)).trans (out_4 m ρ c),
    show W11 m ρ c (Proc.devRef .tc main_arg8) = (m ((c : Thread nD τ).loc main_arg8)) from (((GcnSteps.host5 m ρ c main_arg8 (by decide)).trans ((GcnSteps.reg4 m ρ c main_arg8 (by decide)).trans ((GcnSteps.host4 m ρ c main_arg8 (by decide)).trans ((GcnSteps.reg3 m ρ c main_arg8 (by decide)).trans ((GcnSteps.host3 m ρ c main_arg8 (by decide)).trans ((GcnSteps.reg2 m ρ c main_arg8 (by decide)).trans ((GcnSteps.host2 m ρ c main_arg8 (by decide)).trans ((GcnSteps.reg1 m ρ c main_arg8 (by decide)).trans ((GcnSteps.host1 m ρ c main_arg8 (by decide)).trans ((GcnSteps.reg0 m ρ c main_arg8 (by decide)).trans (GcnSteps.host0 m ρ c main_arg8 (by decide))))))))))))), zrow_5 m ρ c]
  unfold GcnSpec.layer64x64 GcnSpec.rows64
  exact GcnDense.add_zero_row _ _ _ _

theorem agg_6 : W13 m ρ c (Proc.devRef .tc main_v80) = GcnSpec.agg64 (W12 m ρ c (Proc.devRef .tc main_v3)) (W12 m ρ c (Proc.devRef .tc main_v6)) (W12 m ρ c (Proc.devRef .tc main_v26)) (W12 m ρ c (Proc.devRef .tc main_v67)) := by
  show StableHlo.after hostOps6 (W12 m ρ c) (Proc.devRef .tc main_v80) = _
  after_results_simp; rfl

theorem brow_6 : W13 m ρ c (Proc.devRef .tc main_v81) = shapeCast S1x64 (W12 m ρ c (Proc.devRef .tc main_arg9)) shapeCasts_S64_S1x64 := by
  show StableHlo.after hostOps6 (W12 m ρ c) (Proc.devRef .tc main_v81) = _
  after_results_simp; rfl

theorem out_6 : W14 m ρ c (Proc.devRef .tc main_v82) = x3 m c := by
  refine (W14_arr m ρ c 2).trans ((GcnRegion6.result (V13 m ρ) c).trans ?_)
  show Host.tanh (GcnSpec.bias64 (W13 m ρ c (Proc.devRef .tc main_v80)) (W13 m ρ c (Proc.devRef .tc main_v81))) = _
  rw [agg_6 m ρ c, brow_6 m ρ c,
    show W12 m ρ c (Proc.devRef .tc main_v3) = sS m c from (((GcnSteps.reg5 m ρ c main_v3 (by decide)).trans ((GcnSteps.host5 m ρ c main_v3 (by decide)).trans ((GcnSteps.reg4 m ρ c main_v3 (by decide)).trans ((GcnSteps.host4 m ρ c main_v3 (by decide)).trans ((GcnSteps.reg3 m ρ c main_v3 (by decide)).trans ((GcnSteps.host3 m ρ c main_v3 (by decide)).trans ((GcnSteps.reg2 m ρ c main_v3 (by decide)).trans ((GcnSteps.host2 m ρ c main_v3 (by decide)).trans ((GcnSteps.reg1 m ρ c main_v3 (by decide)).trans ((GcnSteps.host1 m ρ c main_v3 (by decide)).trans (GcnSteps.reg0 m ρ c main_v3 (by decide))))))))))))).trans (v3_1 m ρ c),
    show W12 m ρ c (Proc.devRef .tc main_v6) = sD m c from (((GcnSteps.reg5 m ρ c main_v6 (by decide)).trans ((GcnSteps.host5 m ρ c main_v6 (by decide)).trans ((GcnSteps.reg4 m ρ c main_v6 (by decide)).trans ((GcnSteps.host4 m ρ c main_v6 (by decide)).trans ((GcnSteps.reg3 m ρ c main_v6 (by decide)).trans ((GcnSteps.host3 m ρ c main_v6 (by decide)).trans ((GcnSteps.reg2 m ρ c main_v6 (by decide)).trans ((GcnSteps.host2 m ρ c main_v6 (by decide)).trans ((GcnSteps.reg1 m ρ c main_v6 (by decide)).trans ((GcnSteps.host1 m ρ c main_v6 (by decide)).trans (GcnSteps.reg0 m ρ c main_v6 (by decide))))))))))))).trans (v6_1 m ρ c),
    show W12 m ρ c (Proc.devRef .tc main_v26) = sN m c from (((GcnSteps.reg5 m ρ c main_v26 (by decide)).trans ((GcnSteps.host5 m ρ c main_v26 (by decide)).trans ((GcnSteps.reg4 m ρ c main_v26 (by decide)).trans ((GcnSteps.host4 m ρ c main_v26 (by decide)).trans ((GcnSteps.reg3 m ρ c main_v26 (by decide)).trans ((GcnSteps.host3 m ρ c main_v26 (by decide)).trans ((GcnSteps.reg2 m ρ c main_v26 (by decide)).trans ((GcnSteps.host2 m ρ c main_v26 (by decide)).trans ((GcnSteps.reg1 m ρ c main_v26 (by decide)).trans ((GcnSteps.host1 m ρ c main_v26 (by decide)).trans (GcnSteps.reg0 m ρ c main_v26 (by decide))))))))))))).trans (v26_1 m ρ c),
    lin_5 m ρ c,
    show W12 m ρ c (Proc.devRef .tc main_arg9) = (m ((c : Thread nD τ).loc main_arg9)) from (((GcnSteps.reg5 m ρ c main_arg9 (by decide)).trans ((GcnSteps.host5 m ρ c main_arg9 (by decide)).trans ((GcnSteps.reg4 m ρ c main_arg9 (by decide)).trans ((GcnSteps.host4 m ρ c main_arg9 (by decide)).trans ((GcnSteps.reg3 m ρ c main_arg9 (by decide)).trans ((GcnSteps.host3 m ρ c main_arg9 (by decide)).trans ((GcnSteps.reg2 m ρ c main_arg9 (by decide)).trans ((GcnSteps.host2 m ρ c main_arg9 (by decide)).trans ((GcnSteps.reg1 m ρ c main_arg9 (by decide)).trans ((GcnSteps.host1 m ρ c main_arg9 (by decide)).trans ((GcnSteps.reg0 m ρ c main_arg9 (by decide)).trans (GcnSteps.host0 m ρ c main_arg9 (by decide))))))))))))))]
  rw [GcnDense.row_reshape_eq_broadcast _ _ Cert.ReferenceIdeal.Gen.bcast_S64_S1x64_1]
  rfl

/-! ### The encoder's output layer -/

theorem brow_7 : W15 m ρ c (Proc.devRef .tc main_v83) = shapeCast S1x64 (W14 m ρ c (Proc.devRef .tc main_arg11)) shapeCasts_S64_S1x64 := by
  show StableHlo.after hostOps7 (W14 m ρ c) (Proc.devRef .tc main_v83) = _
  after_results_simp; rfl

theorem out_7 : W16 m ρ c (Proc.devRef .tc main_v84) = zz m c := by
  refine (W16_arr m ρ c 3).trans ((GcnRegion7.result (V15 m ρ) c).trans ?_)
  show GcnSpec.layer64x64 (W15 m ρ c (Proc.devRef .tc main_v82)) (W15 m ρ c (Proc.devRef .tc main_arg10)) (W15 m ρ c (Proc.devRef .tc main_v83)) = _
  rw [show W15 m ρ c (Proc.devRef .tc main_v82) = (x3 m c) from (GcnSteps.host7 m ρ c main_v82 (by decide)).trans (out_6 m ρ c),
    show W15 m ρ c (Proc.devRef .tc main_arg10) = (m ((c : Thread nD τ).loc main_arg10)) from (((GcnSteps.host7 m ρ c main_arg10 (by decide)).trans ((GcnSteps.reg6 m ρ c main_arg10 (by decide)).trans ((GcnSteps.host6 m ρ c main_arg10 (by decide)).trans ((GcnSteps.reg5 m ρ c main_arg10 (by decide)).trans ((GcnSteps.host5 m ρ c main_arg10 (by decide)).trans ((GcnSteps.reg4 m ρ c main_arg10 (by decide)).trans ((GcnSteps.host4 m ρ c main_arg10 (by decide)).trans ((GcnSteps.reg3 m ρ c main_arg10 (by decide)).trans ((GcnSteps.host3 m ρ c main_arg10 (by decide)).trans ((GcnSteps.reg2 m ρ c main_arg10 (by decide)).trans ((GcnSteps.host2 m ρ c main_arg10 (by decide)).trans ((GcnSteps.reg1 m ρ c main_arg10 (by decide)).trans ((GcnSteps.host1 m ρ c main_arg10 (by decide)).trans ((GcnSteps.reg0 m ρ c main_arg10 (by decide)).trans (GcnSteps.host0 m ρ c main_arg10 (by decide))))))))))))))))), brow_7 m ρ c,
    show W14 m ρ c (Proc.devRef .tc main_arg11) = (m ((c : Thread nD τ).loc main_arg11)) from (((GcnSteps.reg6 m ρ c main_arg11 (by decide)).trans ((GcnSteps.host6 m ρ c main_arg11 (by decide)).trans ((GcnSteps.reg5 m ρ c main_arg11 (by decide)).trans ((GcnSteps.host5 m ρ c main_arg11 (by decide)).trans ((GcnSteps.reg4 m ρ c main_arg11 (by decide)).trans ((GcnSteps.host4 m ρ c main_arg11 (by decide)).trans ((GcnSteps.reg3 m ρ c main_arg11 (by decide)).trans ((GcnSteps.host3 m ρ c main_arg11 (by decide)).trans ((GcnSteps.reg2 m ρ c main_arg11 (by decide)).trans ((GcnSteps.host2 m ρ c main_arg11 (by decide)).trans ((GcnSteps.reg1 m ρ c main_arg11 (by decide)).trans ((GcnSteps.host1 m ρ c main_arg11 (by decide)).trans ((GcnSteps.reg0 m ρ c main_arg11 (by decide)).trans (GcnSteps.host0 m ρ c main_arg11 (by decide))))))))))))))))]
  rw [GcnDense.row_reshape_eq_broadcast _ _ Cert.ReferenceIdeal.Gen.bcast_S64_S1x64_1]
  rfl

/-! ### First decoder convolution -/

theorem zrow_8 : W17 m ρ c (Proc.devRef .tc main_v86) = (shapeCast S1x64 (broadcastInDim S64 ![] bcast_S_S64 (constant (F := Ideal) S_ .f32 0x00000000#32)) shapeCasts_S64_S1x64) := by
  show StableHlo.after hostOps8 (W16 m ρ c) (Proc.devRef .tc main_v86) = _
  after_results_simp; rfl

theorem lin_8 : W18 m ρ c (Proc.devRef .tc main_v87) = GcnSpec.dot64x64 (zz m c) (m ((c : Thread nD τ).loc main_arg12)) := by
  refine (W18_arr m ρ c 3).trans ((GcnRegion8.result (V17 m ρ) c).trans ?_)
  show GcnSpec.layer64x64 (W17 m ρ c (Proc.devRef .tc main_v84)) (W17 m ρ c (Proc.devRef .tc main_arg12)) (W17 m ρ c (Proc.devRef .tc main_v86)) = _
  rw [show W17 m ρ c (Proc.devRef .tc main_v84) = (zz m c) from (GcnSteps.host8 m ρ c main_v84 (by decide)).trans (out_7 m ρ c),
    show W17 m ρ c (Proc.devRef .tc main_arg12) = (m ((c : Thread nD τ).loc main_arg12)) from (((GcnSteps.host8 m ρ c main_arg12 (by decide)).trans ((GcnSteps.reg7 m ρ c main_arg12 (by decide)).trans ((GcnSteps.host7 m ρ c main_arg12 (by decide)).trans ((GcnSteps.reg6 m ρ c main_arg12 (by decide)).trans ((GcnSteps.host6 m ρ c main_arg12 (by decide)).trans ((GcnSteps.reg5 m ρ c main_arg12 (by decide)).trans ((GcnSteps.host5 m ρ c main_arg12 (by decide)).trans ((GcnSteps.reg4 m ρ c main_arg12 (by decide)).trans ((GcnSteps.host4 m ρ c main_arg12 (by decide)).trans ((GcnSteps.reg3 m ρ c main_arg12 (by decide)).trans ((GcnSteps.host3 m ρ c main_arg12 (by decide)).trans ((GcnSteps.reg2 m ρ c main_arg12 (by decide)).trans ((GcnSteps.host2 m ρ c main_arg12 (by decide)).trans ((GcnSteps.reg1 m ρ c main_arg12 (by decide)).trans ((GcnSteps.host1 m ρ c main_arg12 (by decide)).trans ((GcnSteps.reg0 m ρ c main_arg12 (by decide)).trans (GcnSteps.host0 m ρ c main_arg12 (by decide))))))))))))))))))), zrow_8 m ρ c]
  unfold GcnSpec.layer64x64 GcnSpec.rows64
  exact GcnDense.add_zero_row _ _ _ _

theorem agg_9 : W19 m ρ c (Proc.devRef .tc main_v100) = GcnSpec.agg64 (W18 m ρ c (Proc.devRef .tc main_v3)) (W18 m ρ c (Proc.devRef .tc main_v6)) (W18 m ρ c (Proc.devRef .tc main_v26)) (W18 m ρ c (Proc.devRef .tc main_v87)) := by
  show StableHlo.after hostOps9 (W18 m ρ c) (Proc.devRef .tc main_v100) = _
  after_results_simp; rfl

theorem brow_9 : W19 m ρ c (Proc.devRef .tc main_v101) = shapeCast S1x64 (W18 m ρ c (Proc.devRef .tc main_arg13)) shapeCasts_S64_S1x64 := by
  show StableHlo.after hostOps9 (W18 m ρ c) (Proc.devRef .tc main_v101) = _
  after_results_simp; rfl

theorem out_9 : W20 m ρ c (Proc.devRef .tc main_v102) = y1 m c := by
  refine (W20_arr m ρ c 2).trans ((GcnRegion9.result (V19 m ρ) c).trans ?_)
  show Host.tanh (GcnSpec.bias64 (W19 m ρ c (Proc.devRef .tc main_v100)) (W19 m ρ c (Proc.devRef .tc main_v101))) = _
  rw [agg_9 m ρ c, brow_9 m ρ c,
    show W18 m ρ c (Proc.devRef .tc main_v3) = sS m c from (((GcnSteps.reg8 m ρ c main_v3 (by decide)).trans ((GcnSteps.host8 m ρ c main_v3 (by decide)).trans ((GcnSteps.reg7 m ρ c main_v3 (by decide)).trans ((GcnSteps.host7 m ρ c main_v3 (by decide)).trans ((GcnSteps.reg6 m ρ c main_v3 (by decide)).trans ((GcnSteps.host6 m ρ c main_v3 (by decide)).trans ((GcnSteps.reg5 m ρ c main_v3 (by decide)).trans ((GcnSteps.host5 m ρ c main_v3 (by decide)).trans ((GcnSteps.reg4 m ρ c main_v3 (by decide)).trans ((GcnSteps.host4 m ρ c main_v3 (by decide)).trans ((GcnSteps.reg3 m ρ c main_v3 (by decide)).trans ((GcnSteps.host3 m ρ c main_v3 (by decide)).trans ((GcnSteps.reg2 m ρ c main_v3 (by decide)).trans ((GcnSteps.host2 m ρ c main_v3 (by decide)).trans ((GcnSteps.reg1 m ρ c main_v3 (by decide)).trans ((GcnSteps.host1 m ρ c main_v3 (by decide)).trans (GcnSteps.reg0 m ρ c main_v3 (by decide))))))))))))))))))).trans (v3_1 m ρ c),
    show W18 m ρ c (Proc.devRef .tc main_v6) = sD m c from (((GcnSteps.reg8 m ρ c main_v6 (by decide)).trans ((GcnSteps.host8 m ρ c main_v6 (by decide)).trans ((GcnSteps.reg7 m ρ c main_v6 (by decide)).trans ((GcnSteps.host7 m ρ c main_v6 (by decide)).trans ((GcnSteps.reg6 m ρ c main_v6 (by decide)).trans ((GcnSteps.host6 m ρ c main_v6 (by decide)).trans ((GcnSteps.reg5 m ρ c main_v6 (by decide)).trans ((GcnSteps.host5 m ρ c main_v6 (by decide)).trans ((GcnSteps.reg4 m ρ c main_v6 (by decide)).trans ((GcnSteps.host4 m ρ c main_v6 (by decide)).trans ((GcnSteps.reg3 m ρ c main_v6 (by decide)).trans ((GcnSteps.host3 m ρ c main_v6 (by decide)).trans ((GcnSteps.reg2 m ρ c main_v6 (by decide)).trans ((GcnSteps.host2 m ρ c main_v6 (by decide)).trans ((GcnSteps.reg1 m ρ c main_v6 (by decide)).trans ((GcnSteps.host1 m ρ c main_v6 (by decide)).trans (GcnSteps.reg0 m ρ c main_v6 (by decide))))))))))))))))))).trans (v6_1 m ρ c),
    show W18 m ρ c (Proc.devRef .tc main_v26) = sN m c from (((GcnSteps.reg8 m ρ c main_v26 (by decide)).trans ((GcnSteps.host8 m ρ c main_v26 (by decide)).trans ((GcnSteps.reg7 m ρ c main_v26 (by decide)).trans ((GcnSteps.host7 m ρ c main_v26 (by decide)).trans ((GcnSteps.reg6 m ρ c main_v26 (by decide)).trans ((GcnSteps.host6 m ρ c main_v26 (by decide)).trans ((GcnSteps.reg5 m ρ c main_v26 (by decide)).trans ((GcnSteps.host5 m ρ c main_v26 (by decide)).trans ((GcnSteps.reg4 m ρ c main_v26 (by decide)).trans ((GcnSteps.host4 m ρ c main_v26 (by decide)).trans ((GcnSteps.reg3 m ρ c main_v26 (by decide)).trans ((GcnSteps.host3 m ρ c main_v26 (by decide)).trans ((GcnSteps.reg2 m ρ c main_v26 (by decide)).trans ((GcnSteps.host2 m ρ c main_v26 (by decide)).trans ((GcnSteps.reg1 m ρ c main_v26 (by decide)).trans ((GcnSteps.host1 m ρ c main_v26 (by decide)).trans (GcnSteps.reg0 m ρ c main_v26 (by decide))))))))))))))))))).trans (v26_1 m ρ c),
    lin_8 m ρ c,
    show W18 m ρ c (Proc.devRef .tc main_arg13) = (m ((c : Thread nD τ).loc main_arg13)) from (((GcnSteps.reg8 m ρ c main_arg13 (by decide)).trans ((GcnSteps.host8 m ρ c main_arg13 (by decide)).trans ((GcnSteps.reg7 m ρ c main_arg13 (by decide)).trans ((GcnSteps.host7 m ρ c main_arg13 (by decide)).trans ((GcnSteps.reg6 m ρ c main_arg13 (by decide)).trans ((GcnSteps.host6 m ρ c main_arg13 (by decide)).trans ((GcnSteps.reg5 m ρ c main_arg13 (by decide)).trans ((GcnSteps.host5 m ρ c main_arg13 (by decide)).trans ((GcnSteps.reg4 m ρ c main_arg13 (by decide)).trans ((GcnSteps.host4 m ρ c main_arg13 (by decide)).trans ((GcnSteps.reg3 m ρ c main_arg13 (by decide)).trans ((GcnSteps.host3 m ρ c main_arg13 (by decide)).trans ((GcnSteps.reg2 m ρ c main_arg13 (by decide)).trans ((GcnSteps.host2 m ρ c main_arg13 (by decide)).trans ((GcnSteps.reg1 m ρ c main_arg13 (by decide)).trans ((GcnSteps.host1 m ρ c main_arg13 (by decide)).trans ((GcnSteps.reg0 m ρ c main_arg13 (by decide)).trans (GcnSteps.host0 m ρ c main_arg13 (by decide))))))))))))))))))))]
  rw [GcnDense.row_reshape_eq_broadcast _ _ Cert.ReferenceIdeal.Gen.bcast_S64_S1x64_1]
  rfl

/-! ### Second decoder convolution -/

theorem zrow_10 : W21 m ρ c (Proc.devRef .tc main_v104) = (shapeCast S1x64 (broadcastInDim S64 ![] bcast_S_S64 (constant (F := Ideal) S_ .f32 0x00000000#32)) shapeCasts_S64_S1x64) := by
  show StableHlo.after hostOps10 (W20 m ρ c) (Proc.devRef .tc main_v104) = _
  after_results_simp; rfl

theorem lin_10 : W22 m ρ c (Proc.devRef .tc main_v105) = GcnSpec.dot64x64 (y1 m c) (m ((c : Thread nD τ).loc main_arg14)) := by
  refine (W22_arr m ρ c 3).trans ((GcnRegion10.result (V21 m ρ) c).trans ?_)
  show GcnSpec.layer64x64 (W21 m ρ c (Proc.devRef .tc main_v102)) (W21 m ρ c (Proc.devRef .tc main_arg14)) (W21 m ρ c (Proc.devRef .tc main_v104)) = _
  rw [show W21 m ρ c (Proc.devRef .tc main_v102) = (y1 m c) from (GcnSteps.host10 m ρ c main_v102 (by decide)).trans (out_9 m ρ c),
    show W21 m ρ c (Proc.devRef .tc main_arg14) = (m ((c : Thread nD τ).loc main_arg14)) from (((GcnSteps.host10 m ρ c main_arg14 (by decide)).trans ((GcnSteps.reg9 m ρ c main_arg14 (by decide)).trans ((GcnSteps.host9 m ρ c main_arg14 (by decide)).trans ((GcnSteps.reg8 m ρ c main_arg14 (by decide)).trans ((GcnSteps.host8 m ρ c main_arg14 (by decide)).trans ((GcnSteps.reg7 m ρ c main_arg14 (by decide)).trans ((GcnSteps.host7 m ρ c main_arg14 (by decide)).trans ((GcnSteps.reg6 m ρ c main_arg14 (by decide)).trans ((GcnSteps.host6 m ρ c main_arg14 (by decide)).trans ((GcnSteps.reg5 m ρ c main_arg14 (by decide)).trans ((GcnSteps.host5 m ρ c main_arg14 (by decide)).trans ((GcnSteps.reg4 m ρ c main_arg14 (by decide)).trans ((GcnSteps.host4 m ρ c main_arg14 (by decide)).trans ((GcnSteps.reg3 m ρ c main_arg14 (by decide)).trans ((GcnSteps.host3 m ρ c main_arg14 (by decide)).trans ((GcnSteps.reg2 m ρ c main_arg14 (by decide)).trans ((GcnSteps.host2 m ρ c main_arg14 (by decide)).trans ((GcnSteps.reg1 m ρ c main_arg14 (by decide)).trans ((GcnSteps.host1 m ρ c main_arg14 (by decide)).trans ((GcnSteps.reg0 m ρ c main_arg14 (by decide)).trans (GcnSteps.host0 m ρ c main_arg14 (by decide))))))))))))))))))))))), zrow_10 m ρ c]
  unfold GcnSpec.layer64x64 GcnSpec.rows64
  exact GcnDense.add_zero_row _ _ _ _

theorem agg_11 : W23 m ρ c (Proc.devRef .tc main_v118) = GcnSpec.agg64 (W22 m ρ c (Proc.devRef .tc main_v3)) (W22 m ρ c (Proc.devRef .tc main_v6)) (W22 m ρ c (Proc.devRef .tc main_v26)) (W22 m ρ c (Proc.devRef .tc main_v105)) := by
  show StableHlo.after hostOps11 (W22 m ρ c) (Proc.devRef .tc main_v118) = _
  after_results_simp; rfl

theorem brow_11 : W23 m ρ c (Proc.devRef .tc main_v119) = shapeCast S1x64 (W22 m ρ c (Proc.devRef .tc main_arg15)) shapeCasts_S64_S1x64 := by
  show StableHlo.after hostOps11 (W22 m ρ c) (Proc.devRef .tc main_v119) = _
  after_results_simp; rfl

theorem out_11 : W24 m ρ c (Proc.devRef .tc main_v120) = y2 m c := by
  refine (W24_arr m ρ c 2).trans ((GcnRegion11.result (V23 m ρ) c).trans ?_)
  show Host.tanh (GcnSpec.bias64 (W23 m ρ c (Proc.devRef .tc main_v118)) (W23 m ρ c (Proc.devRef .tc main_v119))) = _
  rw [agg_11 m ρ c, brow_11 m ρ c,
    show W22 m ρ c (Proc.devRef .tc main_v3) = sS m c from (((GcnSteps.reg10 m ρ c main_v3 (by decide)).trans ((GcnSteps.host10 m ρ c main_v3 (by decide)).trans ((GcnSteps.reg9 m ρ c main_v3 (by decide)).trans ((GcnSteps.host9 m ρ c main_v3 (by decide)).trans ((GcnSteps.reg8 m ρ c main_v3 (by decide)).trans ((GcnSteps.host8 m ρ c main_v3 (by decide)).trans ((GcnSteps.reg7 m ρ c main_v3 (by decide)).trans ((GcnSteps.host7 m ρ c main_v3 (by decide)).trans ((GcnSteps.reg6 m ρ c main_v3 (by decide)).trans ((GcnSteps.host6 m ρ c main_v3 (by decide)).trans ((GcnSteps.reg5 m ρ c main_v3 (by decide)).trans ((GcnSteps.host5 m ρ c main_v3 (by decide)).trans ((GcnSteps.reg4 m ρ c main_v3 (by decide)).trans ((GcnSteps.host4 m ρ c main_v3 (by decide)).trans ((GcnSteps.reg3 m ρ c main_v3 (by decide)).trans ((GcnSteps.host3 m ρ c main_v3 (by decide)).trans ((GcnSteps.reg2 m ρ c main_v3 (by decide)).trans ((GcnSteps.host2 m ρ c main_v3 (by decide)).trans ((GcnSteps.reg1 m ρ c main_v3 (by decide)).trans ((GcnSteps.host1 m ρ c main_v3 (by decide)).trans (GcnSteps.reg0 m ρ c main_v3 (by decide))))))))))))))))))))))).trans (v3_1 m ρ c),
    show W22 m ρ c (Proc.devRef .tc main_v6) = sD m c from (((GcnSteps.reg10 m ρ c main_v6 (by decide)).trans ((GcnSteps.host10 m ρ c main_v6 (by decide)).trans ((GcnSteps.reg9 m ρ c main_v6 (by decide)).trans ((GcnSteps.host9 m ρ c main_v6 (by decide)).trans ((GcnSteps.reg8 m ρ c main_v6 (by decide)).trans ((GcnSteps.host8 m ρ c main_v6 (by decide)).trans ((GcnSteps.reg7 m ρ c main_v6 (by decide)).trans ((GcnSteps.host7 m ρ c main_v6 (by decide)).trans ((GcnSteps.reg6 m ρ c main_v6 (by decide)).trans ((GcnSteps.host6 m ρ c main_v6 (by decide)).trans ((GcnSteps.reg5 m ρ c main_v6 (by decide)).trans ((GcnSteps.host5 m ρ c main_v6 (by decide)).trans ((GcnSteps.reg4 m ρ c main_v6 (by decide)).trans ((GcnSteps.host4 m ρ c main_v6 (by decide)).trans ((GcnSteps.reg3 m ρ c main_v6 (by decide)).trans ((GcnSteps.host3 m ρ c main_v6 (by decide)).trans ((GcnSteps.reg2 m ρ c main_v6 (by decide)).trans ((GcnSteps.host2 m ρ c main_v6 (by decide)).trans ((GcnSteps.reg1 m ρ c main_v6 (by decide)).trans ((GcnSteps.host1 m ρ c main_v6 (by decide)).trans (GcnSteps.reg0 m ρ c main_v6 (by decide))))))))))))))))))))))).trans (v6_1 m ρ c),
    show W22 m ρ c (Proc.devRef .tc main_v26) = sN m c from (((GcnSteps.reg10 m ρ c main_v26 (by decide)).trans ((GcnSteps.host10 m ρ c main_v26 (by decide)).trans ((GcnSteps.reg9 m ρ c main_v26 (by decide)).trans ((GcnSteps.host9 m ρ c main_v26 (by decide)).trans ((GcnSteps.reg8 m ρ c main_v26 (by decide)).trans ((GcnSteps.host8 m ρ c main_v26 (by decide)).trans ((GcnSteps.reg7 m ρ c main_v26 (by decide)).trans ((GcnSteps.host7 m ρ c main_v26 (by decide)).trans ((GcnSteps.reg6 m ρ c main_v26 (by decide)).trans ((GcnSteps.host6 m ρ c main_v26 (by decide)).trans ((GcnSteps.reg5 m ρ c main_v26 (by decide)).trans ((GcnSteps.host5 m ρ c main_v26 (by decide)).trans ((GcnSteps.reg4 m ρ c main_v26 (by decide)).trans ((GcnSteps.host4 m ρ c main_v26 (by decide)).trans ((GcnSteps.reg3 m ρ c main_v26 (by decide)).trans ((GcnSteps.host3 m ρ c main_v26 (by decide)).trans ((GcnSteps.reg2 m ρ c main_v26 (by decide)).trans ((GcnSteps.host2 m ρ c main_v26 (by decide)).trans ((GcnSteps.reg1 m ρ c main_v26 (by decide)).trans ((GcnSteps.host1 m ρ c main_v26 (by decide)).trans (GcnSteps.reg0 m ρ c main_v26 (by decide))))))))))))))))))))))).trans (v26_1 m ρ c),
    lin_10 m ρ c,
    show W22 m ρ c (Proc.devRef .tc main_arg15) = (m ((c : Thread nD τ).loc main_arg15)) from (((GcnSteps.reg10 m ρ c main_arg15 (by decide)).trans ((GcnSteps.host10 m ρ c main_arg15 (by decide)).trans ((GcnSteps.reg9 m ρ c main_arg15 (by decide)).trans ((GcnSteps.host9 m ρ c main_arg15 (by decide)).trans ((GcnSteps.reg8 m ρ c main_arg15 (by decide)).trans ((GcnSteps.host8 m ρ c main_arg15 (by decide)).trans ((GcnSteps.reg7 m ρ c main_arg15 (by decide)).trans ((GcnSteps.host7 m ρ c main_arg15 (by decide)).trans ((GcnSteps.reg6 m ρ c main_arg15 (by decide)).trans ((GcnSteps.host6 m ρ c main_arg15 (by decide)).trans ((GcnSteps.reg5 m ρ c main_arg15 (by decide)).trans ((GcnSteps.host5 m ρ c main_arg15 (by decide)).trans ((GcnSteps.reg4 m ρ c main_arg15 (by decide)).trans ((GcnSteps.host4 m ρ c main_arg15 (by decide)).trans ((GcnSteps.reg3 m ρ c main_arg15 (by decide)).trans ((GcnSteps.host3 m ρ c main_arg15 (by decide)).trans ((GcnSteps.reg2 m ρ c main_arg15 (by decide)).trans ((GcnSteps.host2 m ρ c main_arg15 (by decide)).trans ((GcnSteps.reg1 m ρ c main_arg15 (by decide)).trans ((GcnSteps.host1 m ρ c main_arg15 (by decide)).trans ((GcnSteps.reg0 m ρ c main_arg15 (by decide)).trans (GcnSteps.host0 m ρ c main_arg15 (by decide))))))))))))))))))))))))]
  rw [GcnDense.row_reshape_eq_broadcast _ _ Cert.ReferenceIdeal.Gen.bcast_S64_S1x64_1]
  rfl

/-! ### Third decoder convolution -/

theorem zrow_12 : W25 m ρ c (Proc.devRef .tc main_v122) = (shapeCast S1x7 (broadcastInDim S7 ![] bcast_S_S7 (constant (F := Ideal) S_ .f32 0x00000000#32)) shapeCasts_S7_S1x7) := by
  show StableHlo.after hostOps12 (W24 m ρ c) (Proc.devRef .tc main_v122) = _
  after_results_simp; rfl

theorem lin_12 : W26 m ρ c (Proc.devRef .tc main_v123) = GcnSpec.dot64x7 (y2 m c) (m ((c : Thread nD τ).loc main_arg16)) := by
  refine (W26_arr m ρ c 3).trans ((GcnRegion12.result (V25 m ρ) c).trans ?_)
  show GcnSpec.layer64x7 (W25 m ρ c (Proc.devRef .tc main_v120)) (W25 m ρ c (Proc.devRef .tc main_arg16)) (W25 m ρ c (Proc.devRef .tc main_v122)) = _
  rw [show W25 m ρ c (Proc.devRef .tc main_v120) = (y2 m c) from (GcnSteps.host12 m ρ c main_v120 (by decide)).trans (out_11 m ρ c),
    show W25 m ρ c (Proc.devRef .tc main_arg16) = (m ((c : Thread nD τ).loc main_arg16)) from (((GcnSteps.host12 m ρ c main_arg16 (by decide)).trans ((GcnSteps.reg11 m ρ c main_arg16 (by decide)).trans ((GcnSteps.host11 m ρ c main_arg16 (by decide)).trans ((GcnSteps.reg10 m ρ c main_arg16 (by decide)).trans ((GcnSteps.host10 m ρ c main_arg16 (by decide)).trans ((GcnSteps.reg9 m ρ c main_arg16 (by decide)).trans ((GcnSteps.host9 m ρ c main_arg16 (by decide)).trans ((GcnSteps.reg8 m ρ c main_arg16 (by decide)).trans ((GcnSteps.host8 m ρ c main_arg16 (by decide)).trans ((GcnSteps.reg7 m ρ c main_arg16 (by decide)).trans ((GcnSteps.host7 m ρ c main_arg16 (by decide)).trans ((GcnSteps.reg6 m ρ c main_arg16 (by decide)).trans ((GcnSteps.host6 m ρ c main_arg16 (by decide)).trans ((GcnSteps.reg5 m ρ c main_arg16 (by decide)).trans ((GcnSteps.host5 m ρ c main_arg16 (by decide)).trans ((GcnSteps.reg4 m ρ c main_arg16 (by decide)).trans ((GcnSteps.host4 m ρ c main_arg16 (by decide)).trans ((GcnSteps.reg3 m ρ c main_arg16 (by decide)).trans ((GcnSteps.host3 m ρ c main_arg16 (by decide)).trans ((GcnSteps.reg2 m ρ c main_arg16 (by decide)).trans ((GcnSteps.host2 m ρ c main_arg16 (by decide)).trans ((GcnSteps.reg1 m ρ c main_arg16 (by decide)).trans ((GcnSteps.host1 m ρ c main_arg16 (by decide)).trans ((GcnSteps.reg0 m ρ c main_arg16 (by decide)).trans (GcnSteps.host0 m ρ c main_arg16 (by decide))))))))))))))))))))))))))), zrow_12 m ρ c]
  unfold GcnSpec.layer64x7 GcnSpec.rows7
  exact GcnDense.add_zero_row _ _ _ _

theorem agg_13 : W27 m ρ c (Proc.devRef .tc main_v136) = GcnSpec.agg7 (W26 m ρ c (Proc.devRef .tc main_v3)) (W26 m ρ c (Proc.devRef .tc main_v6)) (W26 m ρ c (Proc.devRef .tc main_v26)) (W26 m ρ c (Proc.devRef .tc main_v123)) := by
  show StableHlo.after hostOps13 (W26 m ρ c) (Proc.devRef .tc main_v136) = _
  after_results_simp; rfl

theorem brow_13 : W27 m ρ c (Proc.devRef .tc main_v137) = shapeCast S1x7 (W26 m ρ c (Proc.devRef .tc main_arg17)) shapeCasts_S7_S1x7 := by
  show StableHlo.after hostOps13 (W26 m ρ c) (Proc.devRef .tc main_v137) = _
  after_results_simp; rfl

theorem out_13 : W28 m ρ c (Proc.devRef .tc main_v138) = y3 m c := by
  refine (W28_arr m ρ c 2).trans ((GcnRegion13.result (V27 m ρ) c).trans ?_)
  show GcnSpec.bias7 (W27 m ρ c (Proc.devRef .tc main_v136)) (W27 m ρ c (Proc.devRef .tc main_v137)) = _
  rw [agg_13 m ρ c, brow_13 m ρ c,
    show W26 m ρ c (Proc.devRef .tc main_v3) = sS m c from (((GcnSteps.reg12 m ρ c main_v3 (by decide)).trans ((GcnSteps.host12 m ρ c main_v3 (by decide)).trans ((GcnSteps.reg11 m ρ c main_v3 (by decide)).trans ((GcnSteps.host11 m ρ c main_v3 (by decide)).trans ((GcnSteps.reg10 m ρ c main_v3 (by decide)).trans ((GcnSteps.host10 m ρ c main_v3 (by decide)).trans ((GcnSteps.reg9 m ρ c main_v3 (by decide)).trans ((GcnSteps.host9 m ρ c main_v3 (by decide)).trans ((GcnSteps.reg8 m ρ c main_v3 (by decide)).trans ((GcnSteps.host8 m ρ c main_v3 (by decide)).trans ((GcnSteps.reg7 m ρ c main_v3 (by decide)).trans ((GcnSteps.host7 m ρ c main_v3 (by decide)).trans ((GcnSteps.reg6 m ρ c main_v3 (by decide)).trans ((GcnSteps.host6 m ρ c main_v3 (by decide)).trans ((GcnSteps.reg5 m ρ c main_v3 (by decide)).trans ((GcnSteps.host5 m ρ c main_v3 (by decide)).trans ((GcnSteps.reg4 m ρ c main_v3 (by decide)).trans ((GcnSteps.host4 m ρ c main_v3 (by decide)).trans ((GcnSteps.reg3 m ρ c main_v3 (by decide)).trans ((GcnSteps.host3 m ρ c main_v3 (by decide)).trans ((GcnSteps.reg2 m ρ c main_v3 (by decide)).trans ((GcnSteps.host2 m ρ c main_v3 (by decide)).trans ((GcnSteps.reg1 m ρ c main_v3 (by decide)).trans ((GcnSteps.host1 m ρ c main_v3 (by decide)).trans (GcnSteps.reg0 m ρ c main_v3 (by decide))))))))))))))))))))))))))).trans (v3_1 m ρ c),
    show W26 m ρ c (Proc.devRef .tc main_v6) = sD m c from (((GcnSteps.reg12 m ρ c main_v6 (by decide)).trans ((GcnSteps.host12 m ρ c main_v6 (by decide)).trans ((GcnSteps.reg11 m ρ c main_v6 (by decide)).trans ((GcnSteps.host11 m ρ c main_v6 (by decide)).trans ((GcnSteps.reg10 m ρ c main_v6 (by decide)).trans ((GcnSteps.host10 m ρ c main_v6 (by decide)).trans ((GcnSteps.reg9 m ρ c main_v6 (by decide)).trans ((GcnSteps.host9 m ρ c main_v6 (by decide)).trans ((GcnSteps.reg8 m ρ c main_v6 (by decide)).trans ((GcnSteps.host8 m ρ c main_v6 (by decide)).trans ((GcnSteps.reg7 m ρ c main_v6 (by decide)).trans ((GcnSteps.host7 m ρ c main_v6 (by decide)).trans ((GcnSteps.reg6 m ρ c main_v6 (by decide)).trans ((GcnSteps.host6 m ρ c main_v6 (by decide)).trans ((GcnSteps.reg5 m ρ c main_v6 (by decide)).trans ((GcnSteps.host5 m ρ c main_v6 (by decide)).trans ((GcnSteps.reg4 m ρ c main_v6 (by decide)).trans ((GcnSteps.host4 m ρ c main_v6 (by decide)).trans ((GcnSteps.reg3 m ρ c main_v6 (by decide)).trans ((GcnSteps.host3 m ρ c main_v6 (by decide)).trans ((GcnSteps.reg2 m ρ c main_v6 (by decide)).trans ((GcnSteps.host2 m ρ c main_v6 (by decide)).trans ((GcnSteps.reg1 m ρ c main_v6 (by decide)).trans ((GcnSteps.host1 m ρ c main_v6 (by decide)).trans (GcnSteps.reg0 m ρ c main_v6 (by decide))))))))))))))))))))))))))).trans (v6_1 m ρ c),
    show W26 m ρ c (Proc.devRef .tc main_v26) = sN m c from (((GcnSteps.reg12 m ρ c main_v26 (by decide)).trans ((GcnSteps.host12 m ρ c main_v26 (by decide)).trans ((GcnSteps.reg11 m ρ c main_v26 (by decide)).trans ((GcnSteps.host11 m ρ c main_v26 (by decide)).trans ((GcnSteps.reg10 m ρ c main_v26 (by decide)).trans ((GcnSteps.host10 m ρ c main_v26 (by decide)).trans ((GcnSteps.reg9 m ρ c main_v26 (by decide)).trans ((GcnSteps.host9 m ρ c main_v26 (by decide)).trans ((GcnSteps.reg8 m ρ c main_v26 (by decide)).trans ((GcnSteps.host8 m ρ c main_v26 (by decide)).trans ((GcnSteps.reg7 m ρ c main_v26 (by decide)).trans ((GcnSteps.host7 m ρ c main_v26 (by decide)).trans ((GcnSteps.reg6 m ρ c main_v26 (by decide)).trans ((GcnSteps.host6 m ρ c main_v26 (by decide)).trans ((GcnSteps.reg5 m ρ c main_v26 (by decide)).trans ((GcnSteps.host5 m ρ c main_v26 (by decide)).trans ((GcnSteps.reg4 m ρ c main_v26 (by decide)).trans ((GcnSteps.host4 m ρ c main_v26 (by decide)).trans ((GcnSteps.reg3 m ρ c main_v26 (by decide)).trans ((GcnSteps.host3 m ρ c main_v26 (by decide)).trans ((GcnSteps.reg2 m ρ c main_v26 (by decide)).trans ((GcnSteps.host2 m ρ c main_v26 (by decide)).trans ((GcnSteps.reg1 m ρ c main_v26 (by decide)).trans ((GcnSteps.host1 m ρ c main_v26 (by decide)).trans (GcnSteps.reg0 m ρ c main_v26 (by decide))))))))))))))))))))))))))).trans (v26_1 m ρ c),
    lin_12 m ρ c,
    show W26 m ρ c (Proc.devRef .tc main_arg17) = (m ((c : Thread nD τ).loc main_arg17)) from (((GcnSteps.reg12 m ρ c main_arg17 (by decide)).trans ((GcnSteps.host12 m ρ c main_arg17 (by decide)).trans ((GcnSteps.reg11 m ρ c main_arg17 (by decide)).trans ((GcnSteps.host11 m ρ c main_arg17 (by decide)).trans ((GcnSteps.reg10 m ρ c main_arg17 (by decide)).trans ((GcnSteps.host10 m ρ c main_arg17 (by decide)).trans ((GcnSteps.reg9 m ρ c main_arg17 (by decide)).trans ((GcnSteps.host9 m ρ c main_arg17 (by decide)).trans ((GcnSteps.reg8 m ρ c main_arg17 (by decide)).trans ((GcnSteps.host8 m ρ c main_arg17 (by decide)).trans ((GcnSteps.reg7 m ρ c main_arg17 (by decide)).trans ((GcnSteps.host7 m ρ c main_arg17 (by decide)).trans ((GcnSteps.reg6 m ρ c main_arg17 (by decide)).trans ((GcnSteps.host6 m ρ c main_arg17 (by decide)).trans ((GcnSteps.reg5 m ρ c main_arg17 (by decide)).trans ((GcnSteps.host5 m ρ c main_arg17 (by decide)).trans ((GcnSteps.reg4 m ρ c main_arg17 (by decide)).trans ((GcnSteps.host4 m ρ c main_arg17 (by decide)).trans ((GcnSteps.reg3 m ρ c main_arg17 (by decide)).trans ((GcnSteps.host3 m ρ c main_arg17 (by decide)).trans ((GcnSteps.reg2 m ρ c main_arg17 (by decide)).trans ((GcnSteps.host2 m ρ c main_arg17 (by decide)).trans ((GcnSteps.reg1 m ρ c main_arg17 (by decide)).trans ((GcnSteps.host1 m ρ c main_arg17 (by decide)).trans ((GcnSteps.reg0 m ρ c main_arg17 (by decide)).trans (GcnSteps.host0 m ρ c main_arg17 (by decide))))))))))))))))))))))))))))]
  rw [GcnDense.row_reshape_eq_broadcast _ _ Cert.ReferenceIdeal.Gen.bcast_S7_S1x7_1]
  rfl

/-! ### The decoder's output layer -/

theorem brow_14 : W29 m ρ c (Proc.devRef .tc main_v139) = shapeCast S1x7 (W28 m ρ c (Proc.devRef .tc main_arg19)) shapeCasts_S7_S1x7 := by
  show StableHlo.after hostOps14 (W28 m ρ c) (Proc.devRef .tc main_v139) = _
  after_results_simp; rfl

theorem out_14 : W30 m ρ c (Proc.devRef .tc main_v140) = rr m c := by
  refine (W30_arr m ρ c 3).trans ((GcnRegion14.result (V29 m ρ) c).trans ?_)
  show GcnSpec.layer7x7 (W29 m ρ c (Proc.devRef .tc main_v138)) (W29 m ρ c (Proc.devRef .tc main_arg18)) (W29 m ρ c (Proc.devRef .tc main_v139)) = _
  rw [show W29 m ρ c (Proc.devRef .tc main_v138) = (y3 m c) from (GcnSteps.host14 m ρ c main_v138 (by decide)).trans (out_13 m ρ c),
    show W29 m ρ c (Proc.devRef .tc main_arg18) = (m ((c : Thread nD τ).loc main_arg18)) from (((GcnSteps.host14 m ρ c main_arg18 (by decide)).trans ((GcnSteps.reg13 m ρ c main_arg18 (by decide)).trans ((GcnSteps.host13 m ρ c main_arg18 (by decide)).trans ((GcnSteps.reg12 m ρ c main_arg18 (by decide)).trans ((GcnSteps.host12 m ρ c main_arg18 (by decide)).trans ((GcnSteps.reg11 m ρ c main_arg18 (by decide)).trans ((GcnSteps.host11 m ρ c main_arg18 (by decide)).trans ((GcnSteps.reg10 m ρ c main_arg18 (by decide)).trans ((GcnSteps.host10 m ρ c main_arg18 (by decide)).trans ((GcnSteps.reg9 m ρ c main_arg18 (by decide)).trans ((GcnSteps.host9 m ρ c main_arg18 (by decide)).trans ((GcnSteps.reg8 m ρ c main_arg18 (by decide)).trans ((GcnSteps.host8 m ρ c main_arg18 (by decide)).trans ((GcnSteps.reg7 m ρ c main_arg18 (by decide)).trans ((GcnSteps.host7 m ρ c main_arg18 (by decide)).trans ((GcnSteps.reg6 m ρ c main_arg18 (by decide)).trans ((GcnSteps.host6 m ρ c main_arg18 (by decide)).trans ((GcnSteps.reg5 m ρ c main_arg18 (by decide)).trans ((GcnSteps.host5 m ρ c main_arg18 (by decide)).trans ((GcnSteps.reg4 m ρ c main_arg18 (by decide)).trans ((GcnSteps.host4 m ρ c main_arg18 (by decide)).trans ((GcnSteps.reg3 m ρ c main_arg18 (by decide)).trans ((GcnSteps.host3 m ρ c main_arg18 (by decide)).trans ((GcnSteps.reg2 m ρ c main_arg18 (by decide)).trans ((GcnSteps.host2 m ρ c main_arg18 (by decide)).trans ((GcnSteps.reg1 m ρ c main_arg18 (by decide)).trans ((GcnSteps.host1 m ρ c main_arg18 (by decide)).trans ((GcnSteps.reg0 m ρ c main_arg18 (by decide)).trans (GcnSteps.host0 m ρ c main_arg18 (by decide))))))))))))))))))))))))))))))), brow_14 m ρ c,
    show W28 m ρ c (Proc.devRef .tc main_arg19) = (m ((c : Thread nD τ).loc main_arg19)) from (((GcnSteps.reg13 m ρ c main_arg19 (by decide)).trans ((GcnSteps.host13 m ρ c main_arg19 (by decide)).trans ((GcnSteps.reg12 m ρ c main_arg19 (by decide)).trans ((GcnSteps.host12 m ρ c main_arg19 (by decide)).trans ((GcnSteps.reg11 m ρ c main_arg19 (by decide)).trans ((GcnSteps.host11 m ρ c main_arg19 (by decide)).trans ((GcnSteps.reg10 m ρ c main_arg19 (by decide)).trans ((GcnSteps.host10 m ρ c main_arg19 (by decide)).trans ((GcnSteps.reg9 m ρ c main_arg19 (by decide)).trans ((GcnSteps.host9 m ρ c main_arg19 (by decide)).trans ((GcnSteps.reg8 m ρ c main_arg19 (by decide)).trans ((GcnSteps.host8 m ρ c main_arg19 (by decide)).trans ((GcnSteps.reg7 m ρ c main_arg19 (by decide)).trans ((GcnSteps.host7 m ρ c main_arg19 (by decide)).trans ((GcnSteps.reg6 m ρ c main_arg19 (by decide)).trans ((GcnSteps.host6 m ρ c main_arg19 (by decide)).trans ((GcnSteps.reg5 m ρ c main_arg19 (by decide)).trans ((GcnSteps.host5 m ρ c main_arg19 (by decide)).trans ((GcnSteps.reg4 m ρ c main_arg19 (by decide)).trans ((GcnSteps.host4 m ρ c main_arg19 (by decide)).trans ((GcnSteps.reg3 m ρ c main_arg19 (by decide)).trans ((GcnSteps.host3 m ρ c main_arg19 (by decide)).trans ((GcnSteps.reg2 m ρ c main_arg19 (by decide)).trans ((GcnSteps.host2 m ρ c main_arg19 (by decide)).trans ((GcnSteps.reg1 m ρ c main_arg19 (by decide)).trans ((GcnSteps.host1 m ρ c main_arg19 (by decide)).trans ((GcnSteps.reg0 m ρ c main_arg19 (by decide)).trans (GcnSteps.host0 m ρ c main_arg19 (by decide))))))))))))))))))))))))))))))]
  rw [GcnDense.row_reshape_eq_broadcast _ _ Cert.ReferenceIdeal.Gen.bcast_S7_S1x7_1]
  rfl

/-! ## The four results at the return -/

theorem recon_30 : W30 m ρ c (Proc.devRef .tc main_v140) = GcnSpec.recon (m ((c : Thread nD τ).loc main_arg1)) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) := out_14 m ρ c

theorem code_30 : W30 m ρ c (Proc.devRef .tc main_v84) = GcnSpec.code (m ((c : Thread nD τ).loc main_arg1)) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  (((GcnSteps.reg14 m ρ c main_v84 (by decide)).trans ((GcnSteps.host14 m ρ c main_v84 (by decide)).trans ((GcnSteps.reg13 m ρ c main_v84 (by decide)).trans ((GcnSteps.host13 m ρ c main_v84 (by decide)).trans ((GcnSteps.reg12 m ρ c main_v84 (by decide)).trans ((GcnSteps.host12 m ρ c main_v84 (by decide)).trans ((GcnSteps.reg11 m ρ c main_v84 (by decide)).trans ((GcnSteps.host11 m ρ c main_v84 (by decide)).trans ((GcnSteps.reg10 m ρ c main_v84 (by decide)).trans ((GcnSteps.host10 m ρ c main_v84 (by decide)).trans ((GcnSteps.reg9 m ρ c main_v84 (by decide)).trans ((GcnSteps.host9 m ρ c main_v84 (by decide)).trans ((GcnSteps.reg8 m ρ c main_v84 (by decide)).trans (GcnSteps.host8 m ρ c main_v84 (by decide)))))))))))))))).trans (out_7 m ρ c)

theorem hidL_30 : W30 m ρ c (Proc.devRef .tc main_v82) = GcnSpec.hidL (m ((c : Thread nD τ).loc main_arg1)) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (((GcnSteps.reg14 m ρ c main_v82 (by decide)).trans ((GcnSteps.host14 m ρ c main_v82 (by decide)).trans ((GcnSteps.reg13 m ρ c main_v82 (by decide)).trans ((GcnSteps.host13 m ρ c main_v82 (by decide)).trans ((GcnSteps.reg12 m ρ c main_v82 (by decide)).trans ((GcnSteps.host12 m ρ c main_v82 (by decide)).trans ((GcnSteps.reg11 m ρ c main_v82 (by decide)).trans ((GcnSteps.host11 m ρ c main_v82 (by decide)).trans ((GcnSteps.reg10 m ρ c main_v82 (by decide)).trans ((GcnSteps.host10 m ρ c main_v82 (by decide)).trans ((GcnSteps.reg9 m ρ c main_v82 (by decide)).trans ((GcnSteps.host9 m ρ c main_v82 (by decide)).trans ((GcnSteps.reg8 m ρ c main_v82 (by decide)).trans ((GcnSteps.host8 m ρ c main_v82 (by decide)).trans ((GcnSteps.reg7 m ρ c main_v82 (by decide)).trans (GcnSteps.host7 m ρ c main_v82 (by decide)))))))))))))))))).trans (out_6 m ρ c)

theorem decL_30 : W30 m ρ c (Proc.devRef .tc main_v138) = GcnSpec.decL (m ((c : Thread nD τ).loc main_arg1)) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) :=
  (((GcnSteps.reg14 m ρ c main_v138 (by decide)).trans (GcnSteps.host14 m ρ c main_v138 (by decide)))).trans (out_13 m ρ c)

end Cert.KernelIdeal.GcnWalk

end
-- ==== Proof.RefIs.lean ====
/-
  The reference program's four results are the network of the specification.

  The reference's run states each result as one composed term of the launch arrays: the host operations of the
  program written out in full. The specification composes the same host operations by name (edge endpoints with
  self-loops, edge weights, aggregation, dense and bias layers), so each result term is, after unfolding those
  names, the specification's function of the arguments.
-/
import proofs.«160013_j34815004902081_1_alg».proof.Proof.Gen.ReferenceIdeal.Run
import proofs.«160013_j34815004902081_1_alg».proof.Proof.Spec

set_option maxRecDepth 16384

noncomputable section

namespace Cert.ReferenceIdeal.GcnRef

open Cert.ReferenceIdeal Cert.ReferenceIdeal.Value
open Idealize.ShloMosaic Idealize.ShloMosaic.TcCoe Idealize.SL.Sem

variable (m : (ℓ : Loc nD τ sig) → Buf (Elt Ideal) ℓ) (c : Dev nD)

/-- The reconstruction. -/
theorem recon_eq : res_main_v146 (F := Ideal) m c = GcnSpec.recon (m ((c.tc : Thread nD τ).loc main_arg1)) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) := by
  unfold res_main_v146; rfl

/-- The code. -/
theorem code_eq : res_main_v89 (F := Ideal) m c = GcnSpec.code (m ((c.tc : Thread nD τ).loc main_arg1)) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  unfold res_main_v89; rfl

/-- The encoder's last hidden features. -/
theorem hidL_eq : res_main_v85 (F := Ideal) m c = GcnSpec.hidL (m ((c.tc : Thread nD τ).loc main_arg1)) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  unfold res_main_v85; rfl

/-- The decoder's last hidden features. -/
theorem decL_eq : res_main_v142 (F := Ideal) m c = GcnSpec.decL (m ((c.tc : Thread nD τ).loc main_arg1)) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := by
  unfold res_main_v142; rfl

/-- The reconstruction, stated for any arrays equal to the launch contents of the arguments. -/
theorem recon_of {e0 : FVec Ideal S50000x7 .f32} {e1 : IVec S2x1600000 32} {e2 : FVec Ideal S7x64 .f32} {e3 : FVec Ideal S64 .f32} {e4 : FVec Ideal S64x64 .f32} {e5 : FVec Ideal S64 .f32} {e6 : FVec Ideal S64x64 .f32} {e7 : FVec Ideal S64 .f32} {e8 : FVec Ideal S64x64 .f32} {e9 : FVec Ideal S64 .f32} {e10 : FVec Ideal S64x64 .f32} {e11 : FVec Ideal S64 .f32} {e12 : FVec Ideal S64x64 .f32} {e13 : FVec Ideal S64 .f32} {e14 : FVec Ideal S64x64 .f32} {e15 : FVec Ideal S64 .f32} {e16 : FVec Ideal S64x7 .f32} {e17 : FVec Ideal S7 .f32} {e18 : FVec Ideal S7x7 .f32} {e19 : FVec Ideal S7 .f32}
    (h0 : (m ((c.tc : Thread nD τ).loc main_arg0)) = e0) (h1 : (m ((c.tc : Thread nD τ).loc main_arg1)) = e1) (h2 : (m ((c.tc : Thread nD τ).loc main_arg2)) = e2) (h3 : (m ((c.tc : Thread nD τ).loc main_arg3)) = e3) (h4 : (m ((c.tc : Thread nD τ).loc main_arg4)) = e4) (h5 : (m ((c.tc : Thread nD τ).loc main_arg5)) = e5) (h6 : (m ((c.tc : Thread nD τ).loc main_arg6)) = e6) (h7 : (m ((c.tc : Thread nD τ).loc main_arg7)) = e7) (h8 : (m ((c.tc : Thread nD τ).loc main_arg8)) = e8) (h9 : (m ((c.tc : Thread nD τ).loc main_arg9)) = e9) (h10 : (m ((c.tc : Thread nD τ).loc main_arg10)) = e10) (h11 : (m ((c.tc : Thread nD τ).loc main_arg11)) = e11) (h12 : (m ((c.tc : Thread nD τ).loc main_arg12)) = e12) (h13 : (m ((c.tc : Thread nD τ).loc main_arg13)) = e13) (h14 : (m ((c.tc : Thread nD τ).loc main_arg14)) = e14) (h15 : (m ((c.tc : Thread nD τ).loc main_arg15)) = e15) (h16 : (m ((c.tc : Thread nD τ).loc main_arg16)) = e16) (h17 : (m ((c.tc : Thread nD τ).loc main_arg17)) = e17) (h18 : (m ((c.tc : Thread nD τ).loc main_arg18)) = e18) (h19 : (m ((c.tc : Thread nD τ).loc main_arg19)) = e19) :
    res_main_v146 (F := Ideal) m c = GcnSpec.recon e1 e0 e2 e3 e4 e5 e6 e7 e8 e9 e10 e11 e12 e13 e14 e15 e16 e17 e18 e19 := by
  subst h0 h1 h2 h3 h4 h5 h6 h7 h8 h9 h10 h11 h12 h13 h14 h15 h16 h17 h18 h19
  exact recon_eq m c

/-- The code, stated for any arrays equal to the launch contents of the arguments. -/
theorem code_of {e0 : FVec Ideal S50000x7 .f32} {e1 : IVec S2x1600000 32} {e2 : FVec Ideal S7x64 .f32} {e3 : FVec Ideal S64 .f32} {e4 : FVec Ideal S64x64 .f32} {e5 : FVec Ideal S64 .f32} {e6 : FVec Ideal S64x64 .f32} {e7 : FVec Ideal S64 .f32} {e8 : FVec Ideal S64x64 .f32} {e9 : FVec Ideal S64 .f32} {e10 : FVec Ideal S64x64 .f32} {e11 : FVec Ideal S64 .f32}
    (h0 : (m ((c.tc : Thread nD τ).loc main_arg0)) = e0) (h1 : (m ((c.tc : Thread nD τ).loc main_arg1)) = e1) (h2 : (m ((c.tc : Thread nD τ).loc main_arg2)) = e2) (h3 : (m ((c.tc : Thread nD τ).loc main_arg3)) = e3) (h4 : (m ((c.tc : Thread nD τ).loc main_arg4)) = e4) (h5 : (m ((c.tc : Thread nD τ).loc main_arg5)) = e5) (h6 : (m ((c.tc : Thread nD τ).loc main_arg6)) = e6) (h7 : (m ((c.tc : Thread nD τ).loc main_arg7)) = e7) (h8 : (m ((c.tc : Thread nD τ).loc main_arg8)) = e8) (h9 : (m ((c.tc : Thread nD τ).loc main_arg9)) = e9) (h10 : (m ((c.tc : Thread nD τ).loc main_arg10)) = e10) (h11 : (m ((c.tc : Thread nD τ).loc main_arg11)) = e11) :
    res_main_v89 (F := Ideal) m c = GcnSpec.code e1 e0 e2 e3 e4 e5 e6 e7 e8 e9 e10 e11 := by
  subst h0 h1 h2 h3 h4 h5 h6 h7 h8 h9 h10 h11
  exact code_eq m c

/-- The encoder's last hidden features, stated for any arrays equal to the launch contents of the arguments. -/
theorem hidL_of {e0 : FVec Ideal S50000x7 .f32} {e1 : IVec S2x1600000 32} {e2 : FVec Ideal S7x64 .f32} {e3 : FVec Ideal S64 .f32} {e4 : FVec Ideal S64x64 .f32} {e5 : FVec Ideal S64 .f32} {e6 : FVec Ideal S64x64 .f32} {e7 : FVec Ideal S64 .f32} {e8 : FVec Ideal S64x64 .f32} {e9 : FVec Ideal S64 .f32}
    (h0 : (m ((c.tc : Thread nD τ).loc main_arg0)) = e0) (h1 : (m ((c.tc : Thread nD τ).loc main_arg1)) = e1) (h2 : (m ((c.tc : Thread nD τ).loc main_arg2)) = e2) (h3 : (m ((c.tc : Thread nD τ).loc main_arg3)) = e3) (h4 : (m ((c.tc : Thread nD τ).loc main_arg4)) = e4) (h5 : (m ((c.tc : Thread nD τ).loc main_arg5)) = e5) (h6 : (m ((c.tc : Thread nD τ).loc main_arg6)) = e6) (h7 : (m ((c.tc : Thread nD τ).loc main_arg7)) = e7) (h8 : (m ((c.tc : Thread nD τ).loc main_arg8)) = e8) (h9 : (m ((c.tc : Thread nD τ).loc main_arg9)) = e9) :
    res_main_v85 (F := Ideal) m c = GcnSpec.hidL e1 e0 e2 e3 e4 e5 e6 e7 e8 e9 := by
  subst h0 h1 h2 h3 h4 h5 h6 h7 h8 h9
  exact hidL_eq m c

/-- The decoder's last hidden features, stated for any arrays equal to the launch contents of the arguments. -/
theorem decL_of {e0 : FVec Ideal S50000x7 .f32} {e1 : IVec S2x1600000 32} {e2 : FVec Ideal S7x64 .f32} {e3 : FVec Ideal S64 .f32} {e4 : FVec Ideal S64x64 .f32} {e5 : FVec Ideal S64 .f32} {e6 : FVec Ideal S64x64 .f32} {e7 : FVec Ideal S64 .f32} {e8 : FVec Ideal S64x64 .f32} {e9 : FVec Ideal S64 .f32} {e10 : FVec Ideal S64x64 .f32} {e11 : FVec Ideal S64 .f32} {e12 : FVec Ideal S64x64 .f32} {e13 : FVec Ideal S64 .f32} {e14 : FVec Ideal S64x64 .f32} {e15 : FVec Ideal S64 .f32} {e16 : FVec Ideal S64x7 .f32} {e17 : FVec Ideal S7 .f32}
    (h0 : (m ((c.tc : Thread nD τ).loc main_arg0)) = e0) (h1 : (m ((c.tc : Thread nD τ).loc main_arg1)) = e1) (h2 : (m ((c.tc : Thread nD τ).loc main_arg2)) = e2) (h3 : (m ((c.tc : Thread nD τ).loc main_arg3)) = e3) (h4 : (m ((c.tc : Thread nD τ).loc main_arg4)) = e4) (h5 : (m ((c.tc : Thread nD τ).loc main_arg5)) = e5) (h6 : (m ((c.tc : Thread nD τ).loc main_arg6)) = e6) (h7 : (m ((c.tc : Thread nD τ).loc main_arg7)) = e7) (h8 : (m ((c.tc : Thread nD τ).loc main_arg8)) = e8) (h9 : (m ((c.tc : Thread nD τ).loc main_arg9)) = e9) (h10 : (m ((c.tc : Thread nD τ).loc main_arg10)) = e10) (h11 : (m ((c.tc : Thread nD τ).loc main_arg11)) = e11) (h12 : (m ((c.tc : Thread nD τ).loc main_arg12)) = e12) (h13 : (m ((c.tc : Thread nD τ).loc main_arg13)) = e13) (h14 : (m ((c.tc : Thread nD τ).loc main_arg14)) = e14) (h15 : (m ((c.tc : Thread nD τ).loc main_arg15)) = e15) (h16 : (m ((c.tc : Thread nD τ).loc main_arg16)) = e16) (h17 : (m ((c.tc : Thread nD τ).loc main_arg17)) = e17) :
    res_main_v142 (F := Ideal) m c = GcnSpec.decL e1 e0 e2 e3 e4 e5 e6 e7 e8 e9 e10 e11 e12 e13 e14 e15 e16 e17 := by
  subst h0 h1 h2 h3 h4 h5 h6 h7 h8 h9 h10 h11 h12 h13 h14 h15 h16 h17
  exact decL_eq m c

end Cert.ReferenceIdeal.GcnRef

end
-- ==== Proof.lean ====
/-
  The proof of `Cert.Claim`: the tiled graph autoencoder against its plain reference, on the extended reals.

  Both programs compute the same network: a dense input layer with tanh, three graph convolutions with tanh and a
  dense layer in the encoder; three graph convolutions (tanh after the first two) and a dense layer in the decoder.
  They share, operation for operation, the host computation over the edges (self-loops, degrees, edge weights,
  gather, scale, scatter-add). The kernel program replaces every dense product and every bias step by a launch
  tiled over five blocks of 10000 rows; its products round their operands to a shorter float format first, which
  is the identity on the extended reals, and take a bias row, which for the convolutions' products is zero.
  Entry by entry a launch's result is (∑ k, x (r, k) · w (k, j)) + b (0, j), respectively x (r, j) + b (0, j), which
  is the reference's dot_general plus broadcast bias; x + 0 = x holds on every extended real, so no finiteness of
  the inputs is used. The four results of the kernel program, read off the walk through its thirty segments, and
  the four results of the reference, read off its run, are the same functions of the arguments.
  The frames of the two kernel programs are their generated frame certificates, the reference's frame is its run
  with the results dropped, and the idealization rewrote nothing.
-/
import proofs.«160013_j34815004902081_1_alg».proof.Defs
import proofs.«160013_j34815004902081_1_alg».proof.Proof.Gen.Kernel
import proofs.«160013_j34815004902081_1_alg».proof.Proof.Gen.Kernel.Frame
import proofs.«160013_j34815004902081_1_alg».proof.Proof.Gen.KernelIdeal
import proofs.«160013_j34815004902081_1_alg».proof.Proof.Gen.KernelIdeal.Frame
import proofs.«160013_j34815004902081_1_alg».proof.Proof.Gen.ReferenceIdeal
import proofs.«160013_j34815004902081_1_alg».proof.Proof.Gen.ReferenceIdeal.Run
import proofs.«160013_j34815004902081_1_alg».proof.Proof.Gen.Pre_finite_inputs
import proofs.«160013_j34815004902081_1_alg».proof.Proof.KRun
import proofs.«160013_j34815004902081_1_alg».proof.Proof.Walk
import proofs.«160013_j34815004902081_1_alg».proof.Proof.RefIs
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the results dropped. -/
theorem frame_ri : Cert.frame_ReferenceIdeal := fun m ρ _ =>
  (θ_run Cert.ReferenceIdeal.defs _ _).mono (fun _ h c => (h c).2.2.2.2) (Cert.ReferenceIdeal.Value.run (F := Ideal) m ρ)

theorem preserves : Cert.preserves_Kernel_KernelIdeal := trivial

/-- Both programs end with the reconstruction, the code and the two last hidden feature matrices of the network
    of the arguments. -/
theorem algebraic : Cert.algebraic_KernelIdeal_ReferenceIdeal := by
  intro m ρ m' ρ' _ hagree
  refine ⟨fun c => GcnSpec.recon (m ((c.tc : Thread Cert.KernelIdeal.nD Cert.KernelIdeal.τ).loc Cert.KernelIdeal.main_arg1)) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)),
    fun c => GcnSpec.code (m ((c.tc : Thread Cert.KernelIdeal.nD Cert.KernelIdeal.τ).loc Cert.KernelIdeal.main_arg1)) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    fun c => GcnSpec.hidL (m ((c.tc : Thread Cert.KernelIdeal.nD Cert.KernelIdeal.τ).loc Cert.KernelIdeal.main_arg1)) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => GcnSpec.decL (m ((c.tc : Thread Cert.KernelIdeal.nD Cert.KernelIdeal.τ).loc Cert.KernelIdeal.main_arg1)) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)), ?_, ?_⟩
  · exact (θ_run Cert.KernelIdeal.defs _ _).mono (fun r h c =>
      ⟨(h c).1.trans (Cert.KernelIdeal.GcnWalk.recon_30 m ρ c),
       (h c).2.1.trans (Cert.KernelIdeal.GcnWalk.code_30 m ρ c),
       (h c).2.2.1.trans (Cert.KernelIdeal.GcnWalk.hidL_30 m ρ c),
       (h c).2.2.2.1.trans (Cert.KernelIdeal.GcnWalk.decL_30 m ρ c),
       (h c).2.2.2.2⟩) (Cert.KernelIdeal.GcnRun.run_results m ρ)
  · refine (θ_run Cert.ReferenceIdeal.defs _ _).mono (fun r h c => ?_) (Cert.ReferenceIdeal.Value.run (F := Ideal) m' ρ')
    obtain ⟨a0, a1, a2, a3, a4, a5, a6, a7, a8, a9, a10, a11, a12, a13, a14, a15, a16, a17, a18, a19⟩ := hagree c
    obtain ⟨h0, h1, h2, h3, hargs⟩ := h c
    refine ⟨h0.trans ?_, h1.trans ?_, h2.trans ?_, h3.trans ?_, hargs⟩
    · exact Cert.ReferenceIdeal.GcnRef.recon_of m' c a0 a1 a2 a3 a4 a5 a6 a7 a8 a9 a10 a11 a12 a13 a14 a15 a16 a17 a18 a19
    · exact Cert.ReferenceIdeal.GcnRef.code_of m' c a0 a1 a2 a3 a4 a5 a6 a7 a8 a9 a10 a11
    · exact Cert.ReferenceIdeal.GcnRef.hidL_of m' c a0 a1 a2 a3 a4 a5 a6 a7 a8 a9
    · exact Cert.ReferenceIdeal.GcnRef.decL_of m' c a0 a1 a2 a3 a4 a5 a6 a7 a8 a9 a10 a11 a12 a13 a14 a15 a16 a17

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
